-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x24656x4 : Shape := ⟨3, ![16, 24656, 4]⟩
abbrev S16x24656x81 : Shape := ⟨3, ![16, 24656, 81]⟩
abbrev S_ : Shape := ⟨0, ![]⟩

class Facts : Prop where
  bcast_S_S16x24656x4 : S_.BroadcastsInDim S16x24656x4 (![] : Fin 0 → Fin S16x24656x4.rank)
  reducesTo_S16x24656x4_S_d0_1_2 : S16x24656x4.ReducesTo [0, 1, 2] S_
  h_S_ : 0 < S_.numel
  bcast_S_S16x24656x81 : S_.BroadcastsInDim S16x24656x81 (![] : Fin 0 → Fin S16x24656x81.rank)
  reducesTo_S16x24656x81_S_d0_1_2 : S16x24656x81.ReducesTo [0, 1, 2] S_

variable [Facts]

def fn {F : FTy → Type} [FloatOps F] (main_arg0 : FVec F S16x24656x4 .f32) (main_arg1 : FVec F S16x24656x81 .f32) : IVec S_ 1 :=
  let main_v0 : FVec F S16x24656x4 .f32 := Host.absf main_arg0
  let main_cst : FVec F S_ .f32 := constant S_ .f32 0x7F800000#32
  let main_v1 : FVec F S16x24656x4 .f32 := broadcastInDim S16x24656x4 ![] bcast_S_S16x24656x4 main_cst
  let main_v2 : IVec S16x24656x4 1 := cmpf .olt main_v0 main_v1
  let main_c : IVec S_ 1 := constantI S_ 1 1#1
  let main_v3 : IVec S_ 1 := (fun x v => Host.reduce IntOp.andi x v reducesTo_S16x24656x4_S_d0_1_2 h_S_) main_v2 main_c
  let main_v4 : FVec F S16x24656x81 .f32 := Host.absf main_arg1
  let main_cst_0 : FVec F S_ .f32 := constant S_ .f32 0x7F800000#32
  let main_v5 : FVec F S16x24656x81 .f32 := broadcastInDim S16x24656x81 ![] bcast_S_S16x24656x81 main_cst_0
  let main_v6 : IVec S16x24656x81 1 := cmpf .olt main_v4 main_v5
  let main_c_1 : IVec S_ 1 := constantI S_ 1 1#1
  let main_v7 : IVec S_ 1 := (fun x v => Host.reduce IntOp.andi x v reducesTo_S16x24656x81_S_d0_1_2 h_S_) main_v6 main_c_1
  let main_v8 : IVec S_ 1 := andi main_v3 main_v7
  main_v8
-- ==== Kernel.lean ====
abbrev S16x24656x4 : Shape := ⟨3, ![16, 24656, 4]⟩
abbrev S16x24656x81 : Shape := ⟨3, ![16, 24656, 81]⟩
abbrev S32x16 : Shape := ⟨2, ![32, 16]⟩
abbrev S512x4 : Shape := ⟨2, ![512, 4]⟩
abbrev S16 : Shape := ⟨1, ![16]⟩
abbrev S_ : Shape := ⟨0, ![]⟩
abbrev S1x512x4 : Shape := ⟨3, ![1, 512, 4]⟩
abbrev S80x4 : Shape := ⟨2, ![80, 4]⟩
abbrev S1x80x4 : Shape := ⟨3, ![1, 80, 4]⟩
abbrev S1x16 : Shape := ⟨2, ![1, 16]⟩
abbrev S1x1 : Shape := ⟨2, ![1, 1]⟩
abbrev S1x12328x81 : Shape := ⟨3, ![1, 12328, 81]⟩
abbrev S12328x81 : Shape := ⟨2, ![12328, 81]⟩
abbrev S81x128 : Shape := ⟨2, ![81, 128]⟩
abbrev S12328x128 : Shape := ⟨2, ![12328, 128]⟩
abbrev S1x12328x128 : Shape := ⟨3, ![1, 12328, 128]⟩
abbrev S1 : Shape := ⟨1, ![1]⟩
abbrev S1x1x1 : Shape := ⟨3, ![1, 1, 1]⟩

abbrev nBuf : Table → Nat
  | .hbm => 12
  | .local .tc .vmem => 4
  | .local .tc .smem => 1
  | .local .scVector .vmem => 2
  | _ => 0

abbrev bufTy : (tb : Table) → Fin (nBuf tb) → BufTy
  | .hbm, ⟨0, _⟩ => ⟨S16x24656x4, .f32⟩
  | .hbm, ⟨1, _⟩ => ⟨S16x24656x81, .f32⟩
  | .hbm, ⟨2, _⟩ => ⟨S32x16, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local .tc .vmem, ⟨0, _⟩ => ⟨S1x12328x81, .f32⟩
  | .local .tc .vmem, ⟨1, _⟩ => ⟨S1x12328x81, .f32⟩
  | .local .tc .vmem, ⟨2, _⟩ => ⟨S1x12328x81, .f32⟩
  | .local .tc .vmem, ⟨3, _⟩ => ⟨S1x12328x81, .f32⟩
  | .local .tc .smem, ⟨0, _⟩ => ⟨S1x1, .f32⟩
  | .local .scVector .vmem, ⟨0, _⟩ => ⟨S512x4, .f32⟩
  | .local .scVector .vmem, ⟨1, _⟩ => ⟨S16, .f32⟩
  | _, _ => ⟨S16x24656x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_arg0_scv : Ref sig .scVector := ⟨.hbm, 0, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c24_i32 : BitVec 32 := 24#32
  let v9 : BitVec 32 := Scalar.addi c0_i32 c24_i32
  let c1_i32 : BitVec 32 := 1#32
  ⟨c0_i32, v9, c1_i32⟩
def k0_mult1 (i : grid0.Coords) (k0_t1 : Fin k0_t1_loop.trips) : BitVec 32 :=
  let arg0 : BitVec 32 := BitVec.ofNat 32 (i 0).val
  let c12288_i32 : BitVec 32 := 12288#32
  let v2 : BitVec 32 := Scalar.muli arg0 c12288_i32
  let c0_i32 : BitVec 32 := 0#32
  let c1_i32 : BitVec 32 := 1#32
  let arg6 : BitVec 32 := Scf.iv c0_i32 c1_i32 k0_t1
  let c512_i32 : BitVec 32 := 512#32
  let v36 : BitVec 32 := Scalar.muli arg6 c512_i32
  let v37 : BitVec 32 := Scalar.addi v2 v36
  v37
def k0_off1 (i : grid0.Coords) (k0_t1 : Fin k0_t1_loop.trips) : Fin 3 → Nat :=
  let arg1 : BitVec 32 := BitVec.ofNat 32 (i 1).val
  let arg0 : BitVec 32 := BitVec.ofNat 32 (i 0).val
  let c12288_i32 : BitVec 32 := 12288#32
  let v2 : BitVec 32 := Scalar.muli arg0 c12288_i32
  let c0_i32 : BitVec 32 := 0#32
  let c1_i32 : BitVec 32 := 1#32
  let arg6 : BitVec 32 := Scf.iv c0_i32 c1_i32 k0_t1
  let c512_i32 : BitVec 32 := 512#32
  let v36 : BitVec 32 := Scalar.muli arg6 c512_i32
  let v37 : BitVec 32 := Scalar.addi v2 v36
  let v38 : BitVec 32 := v37
  let c0_i32_14_r0 : BitVec 32 := 0#32
  ![arg1.toNat, v38.toNat, 0]
@[reducible] def k0_t2_loop : Scf.Loop 32 :=
  let c0_i32_11 : BitVec 32 := 0#32
  let c32_i32 : BitVec 32 := 32#32
  let v39 : BitVec 32 := Scalar.addi c0_i32_11 c32_i32
  let c1_i32_12 : BitVec 32 := 1#32
  ⟨c0_i32_11, v39, c1_i32_12⟩

def k0_chk1 (v7 : IVec S16 32) (v45 : IVec S16 32) : Prop :=
  (∀ a x, ((![v45, v7] : Fin 2 → IVec S16 32) a x).toNat < S512x4.size a)
instance k0_chk1.dec : ∀ (v7 : IVec S16 32) (v45 : IVec S16 32), Decidable (k0_chk1 v7 v45) := fun v7 v45 => decidable_of_iff' _ (Iff.of_eq (k0_chk1.eq_1 v7 v45))
theorem k0_idx1_inb : ∀ (v7 : IVec S16 32) (v45 : IVec S16 32) (k0_hw1 : k0_chk1 v7 v45), ∀ a x, ((![v45, v7] : Fin 2 → IVec S16 32) a x).toNat < S512x4.size a := fun v7 v45 k0_hw1 => k0_hw1

def k0_chk2 (v7 : IVec S16 32) (v53 : IVec S16 32) : Prop :=
  (∀ a x, ((![v53, v7] : Fin 2 → IVec S16 32) a x).toNat < S512x4.size a)
instance k0_chk2.dec : ∀ (v7 : IVec S16 32) (v53 : IVec S16 32), Decidable (k0_chk2 v7 v53) := fun v7 v53 => decidable_of_iff' _ (Iff.of_eq (k0_chk2.eq_1 v7 v53))
theorem k0_idx2_inb : ∀ (v7 : IVec S16 32) (v53 : IVec S16 32) (k0_hw2 : k0_chk2 v7 v53), ∀ a x, ((![v53, v7] : Fin 2 → IVec S16 32) a x).toNat < S512x4.size a := fun v7 v53 k0_hw2 => k0_hw2

def k0_chk3 (v7 : IVec S16 32) (v61 : IVec S16 32) : Prop :=
  (∀ a x, ((![v61, v7] : Fin 2 → IVec S16 32) a x).toNat < S512x4.size a)
instance k0_chk3.dec : ∀ (v7 : IVec S16 32) (v61 : IVec S16 32), Decidable (k0_chk3 v7 v61) := fun v7 v61 => decidable_of_iff' _ (Iff.of_eq (k0_chk3.eq_1 v7 v61))
theorem k0_idx3_inb : ∀ (v7 : IVec S16 32) (v61 : IVec S16 32) (k0_hw3 : k0_chk3 v7 v61), ∀ a x, ((![v61, v7] : Fin 2 → IVec S16 32) a x).toNat < S512x4.size a := fun v7 v61 k0_hw3 => k0_hw3

def k0_chk4 (v7 : IVec S16 32) (v69 : IVec S16 32) : Prop :=
  (∀ a x, ((![v69, v7] : Fin 2 → IVec S16 32) a x).toNat < S512x4.size a)
instance k0_chk4.dec : ∀ (v7 : IVec S16 32) (v69 : IVec S16 32), Decidable (k0_chk4 v7 v69) := fun v7 v69 => decidable_of_iff' _ (Iff.of_eq (k0_chk4.eq_1 v7 v69))
theorem k0_idx4_inb : ∀ (v7 : IVec S16 32) (v69 : IVec S16 32) (k0_hw4 : k0_chk4 v7 v69), ∀ a x, ((![v69, v7] : Fin 2 → IVec S16 32) a x).toNat < S512x4.size a := fun v7 v69 k0_hw4 => k0_hw4
def k0_mult2 (i : grid0.Coords) : BitVec 32 :=
  let arg0 : BitVec 32 := BitVec.ofNat 32 (i 0).val
  let c12288_i32 : BitVec 32 := 12288#32
  let v2 : BitVec 32 := Scalar.muli arg0 c12288_i32
  let c12288_i32_2 : BitVec 32 := 12288#32
  let v11 : BitVec 32 := Scalar.addi v2 c12288_i32_2
  v11
def k0_off2 (i : grid0.Coords) : Fin 3 → Nat :=
  let arg1 : BitVec 32 := BitVec.ofNat 32 (i 1).val
  let arg0 : BitVec 32 := BitVec.ofNat 32 (i 0).val
  let c12288_i32 : BitVec 32 := 12288#32
  let v2 : BitVec 32 := Scalar.muli arg0 c12288_i32
  let c12288_i32_2 : BitVec 32 := 12288#32
  let v11 : BitVec 32 := Scalar.addi v2 c12288_i32_2
  let v12 : BitVec 32 := v11
  let c0_i32_13_r1 : BitVec 32 := 0#32
  ![arg1.toNat, v12.toNat, 0]
@[reducible] def k0_t3_loop : Scf.Loop 32 :=
  let c0_i32_4 : BitVec 32 := 0#32
  let c5_i32 : BitVec 32 := 5#32
  let v14 : BitVec 32 := Scalar.addi c0_i32_4 c5_i32
  let c1_i32_5 : BitVec 32 := 1#32
  ⟨c0_i32_4, v14, c1_i32_5⟩

def k0_chk5 (v7 : IVec S16 32) (v40 : IVec S16 32) : Prop :=
  (∀ a x, ((![v40, v7] : Fin 2 → IVec S16 32) a x).toNat < S512x4.size a)
instance k0_chk5.dec : ∀ (v7 : IVec S16 32) (v40 : IVec S16 32), Decidable (k0_chk5 v7 v40) := fun v7 v40 => decidable_of_iff' _ (Iff.of_eq (k0_chk5.eq_1 v7 v40))
theorem k0_idx5_inb : ∀ (v7 : IVec S16 32) (v40 : IVec S16 32) (k0_hw5 : k0_chk5 v7 v40), ∀ a x, ((![v40, v7] : Fin 2 → IVec S16 32) a x).toNat < S512x4.size a := fun v7 v40 k0_hw5 => k0_hw5

def k0_chk6 (v7 : IVec S16 32) (v48 : IVec S16 32) : Prop :=
  (∀ a x, ((![v48, v7] : Fin 2 → IVec S16 32) a x).toNat < S512x4.size a)
instance k0_chk6.dec : ∀ (v7 : IVec S16 32) (v48 : IVec S16 32), Decidable (k0_chk6 v7 v48) := fun v7 v48 => decidable_of_iff' _ (Iff.of_eq (k0_chk6.eq_1 v7 v48))
theorem k0_idx6_inb : ∀ (v7 : IVec S16 32) (v48 : IVec S16 32) (k0_hw6 : k0_chk6 v7 v48), ∀ a x, ((![v48, v7] : Fin 2 → IVec S16 32) a x).toNat < S512x4.size a := fun v7 v48 k0_hw6 => k0_hw6

def k0_chk7 (v7 : IVec S16 32) (v56 : IVec S16 32) : Prop :=
  (∀ a x, ((![v56, v7] : Fin 2 → IVec S16 32) a x).toNat < S512x4.size a)
instance k0_chk7.dec : ∀ (v7 : IVec S16 32) (v56 : IVec S16 32), Decidable (k0_chk7 v7 v56) := fun v7 v56 => decidable_of_iff' _ (Iff.of_eq (k0_chk7.eq_1 v7 v56))
theorem k0_idx7_inb : ∀ (v7 : IVec S16 32) (v56 : IVec S16 32) (k0_hw7 : k0_chk7 v7 v56), ∀ a x, ((![v56, v7] : Fin 2 → IVec S16 32) a x).toNat < S512x4.size a := fun v7 v56 k0_hw7 => k0_hw7

def k0_chk8 (v7 : IVec S16 32) (v64 : IVec S16 32) : Prop :=
  (∀ a x, ((![v64, v7] : Fin 2 → IVec S16 32) a x).toNat < S512x4.size a)
instance k0_chk8.dec : ∀ (v7 : IVec S16 32) (v64 : IVec S16 32), Decidable (k0_chk8 v7 v64) := fun v7 v64 => decidable_of_iff' _ (Iff.of_eq (k0_chk8.eq_1 v7 v64))
theorem k0_idx8_inb : ∀ (v7 : IVec S16 32) (v64 : IVec S16 32) (k0_hw8 : k0_chk8 v7 v64), ∀ a x, ((![v64, v7] : Fin 2 → IVec S16 32) a x).toNat < S512x4.size a := fun v7 v64 k0_hw8 => k0_hw8
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r2 : BitVec 32 := 0#32
  ![v1.toNat, 0]
abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x12328x81 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x12328x81 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  squeezes_S1x512x4_S512x4 : S1x512x4.Squeezes S512x4
  h_S512x4 : 0 < S512x4.numel
  inb_S512x4_S80x4_0_0 : ∀ a, (![0, 0] : Fin 2 → Nat) a + S80x4.size a ≤ S512x4.size a
  squeezes_S1x80x4_S80x4 : S1x80x4.Squeezes S80x4
  inb_S16_S16_0 : ∀ a, (![0] : Fin 1 → Nat) a + S16.size a ≤ S16.size a
  h_S16 : 0 < S16.numel
  squeezes_S1x16_S16 : S1x16.Squeezes S16
  inb_S1x12328x81_S1x12328x81_0_0_0 : ∀ a, (![0, 0, 0] : Fin 3 → Nat) a + S1x12328x81.size a ≤ S1x12328x81.size a
  h_S1x12328x81 : 0 < S1x12328x81.numel
  shapeCasts_S1x12328x81_S12328x81 : S1x12328x81.ShapeCasts S12328x81
  bitsLt_bf16_f32 : FTy.bits .bf16 < FTy.bits .f32
  iota_S81x128_d0_w32 : S81x128.Iotas .tc 32 [0]
  iota_S81x128_d1_w32 : S81x128.Iotas .tc 32 [1]
  iota_S12328x128_d1_w32 : S12328x128.Iotas .tc 32 [1]
  shapeCasts_S12328x128_S1x12328x128 : S12328x128.ShapeCasts S1x12328x128
  reduces_S1x12328x128_S1 : S1x12328x128.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  reducesTo_S32x16_S_d0_1 : S32x16.ReducesTo [0, 1] S_
  h_S_ : 0 < S_.numel
  shapeCasts_S1x1_S_ : S1x1.ShapeCasts S_
  dot_S12328x81_S81x128_S12328x128_1_0_0_1_n_n_wf : DotDims.WF S12328x81 S81x128 S12328x128 [1] [0] [0] [1] [] []
  hcc0_scoped0 : 0 + S_.numel ≤ 8
  hcc0_scoped1 : 1 + S_.numel ≤ 8
  hcc0_scoped2 : 2 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_mult1_dvd : ∀ (i : grid0.Coords) (k0_t1 : Fin k0_t1_loop.trips), 8 ∣ (k0_mult1 i k0_t1).toNat
  k0_off1_inb : ∀ (i : grid0.Coords) (k0_t1 : Fin k0_t1_loop.trips), ∀ a, (k0_off1 i k0_t1) a + S1x512x4.size a ≤ S16x24656x4.size a
  k0_t2_ok : k0_t2_loop.OK
  k0_mult2_dvd : ∀ i : grid0.Coords, 8 ∣ (k0_mult2 i).toNat
  k0_off2_inb : ∀ i : grid0.Coords, ∀ a, (k0_off2 i) a + S1x80x4.size a ≤ S16x24656x4.size a
  k0_t3_ok : k0_t3_loop.OK
  k0_off3_inb : ∀ i : grid0.Coords, ∀ a, (k0_off3 i) a + S1x16.size a ≤ S32x16.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x12328x81.size a ≤ S16x24656x81.size a
  hwx1_0 : ∀ i : grid1.Coords, EltTy.bits .f32 = 32 ∨ (Rect.block (s := S16x24656x81) S1x12328x81.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x12328x81.size a ≤ S16x24656x81.size a
  hwx1_1 : ∀ i : grid1.Coords, EltTy.bits .f32 = 32 ∨ (Rect.block (s := S16x24656x81) S1x12328x81.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
def dot_S12328x81_S81x128_S12328x128_1_0_0_1_n_n : DotDims S12328x81 S81x128 S12328x128 where
  lhsContracting := [1]
  rhsContracting := [0]
  lhsNonContracting := [0]
  rhsNonContracting := [1]
  lhsBatch := []
  rhsBatch := []
  wf := dot_S12328x81_S81x128_S12328x128_1_0_0_1_n_n_wf

abbrev win1_0 : Pipeline.Window sig grid1 :=
  Pipeline.Window.ofSpec (Memref.whole main_arg1) S1x12328x81.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x12328x81.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x24656x4 : Shape := ⟨3, ![16, 24656, 4]⟩
abbrev S16x24656x81 : Shape := ⟨3, ![16, 24656, 81]⟩
abbrev S_ : Shape := ⟨0, ![]⟩
abbrev S394496x81 : Shape := ⟨2, ![394496, 81]⟩
abbrev S394496 : Shape := ⟨1, ![394496]⟩
abbrev S394496x1 : Shape := ⟨2, ![394496, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x24656x4, .f32⟩
  | .hbm, ⟨1, _⟩ => ⟨S16x24656x81, .f32⟩
  | .hbm, ⟨2, _⟩ => ⟨S_, .f32⟩
  | .hbm, ⟨3, _⟩ => ⟨S16x24656x4, .f32⟩
  | .hbm, ⟨4, _⟩ => ⟨S16x24656x4, .f32⟩
  | .hbm, ⟨5, _⟩ => ⟨S16x24656x4, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S394496x81, .f32⟩
  | .hbm, ⟨11, _⟩ => ⟨S_, .f32⟩
  | .hbm, ⟨12, _⟩ => ⟨S394496, .f32⟩
  | .hbm, ⟨13, _⟩ => ⟨S_, .f32⟩
  | .hbm, ⟨14, _⟩ => ⟨S394496, .f32⟩
  | .hbm, ⟨15, _⟩ => ⟨S394496, .f32⟩
  | .hbm, ⟨16, _⟩ => ⟨S394496x1, .f32⟩
  | .hbm, ⟨17, _⟩ => ⟨S394496x81, .f32⟩
  | .hbm, ⟨18, _⟩ => ⟨S394496x81, .f32⟩
  | .hbm, ⟨19, _⟩ => ⟨S394496x81, .f32⟩
  | .hbm, ⟨20, _⟩ => ⟨S_, .f32⟩
  | .hbm, ⟨21, _⟩ => ⟨S394496, .f32⟩
  | .hbm, ⟨22, _⟩ => ⟨S394496x1, .f32⟩
  | .hbm, ⟨23, _⟩ => ⟨S394496x1, .f32⟩
  | .hbm, ⟨24, _⟩ => ⟨S394496x81, .f32⟩
  | .hbm, ⟨25, _⟩ => ⟨S394496x81, .f32⟩
  | .hbm, ⟨26, _⟩ => ⟨S394496x1, .f32⟩
  | .hbm, ⟨27, _⟩ => ⟨S394496, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16x24656x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S_S16x24656x4 : S_.BroadcastsInDim S16x24656x4 (![] : Fin 0 → Fin S16x24656x4.rank)
  reducesTo_S16x24656x4_S_d0_1_2 : S16x24656x4.ReducesTo [0, 1, 2] S_
  h_S_ : 0 < S_.numel
  shapeCasts_S16x24656x81_S394496x81 : S16x24656x81.ShapeCasts S394496x81
  reducesTo_S394496x81_S394496_d1 : S394496x81.ReducesTo [1] S394496
  bcast_S_S394496 : S_.BroadcastsInDim S394496 (![] : Fin 0 → Fin S394496.rank)
  bcast_S394496_S394496x1_0 : S394496.BroadcastsInDim S394496x1 (![0] : Fin 1 → Fin S394496x1.rank)
  bcast_S394496x1_S394496x81_0_1 : S394496x1.BroadcastsInDim S394496x81 (![0, 1] : Fin 2 → Fin S394496x81.rank)
  slices_S394496x81_S394496x1_0_0 : S394496x81.Slices ![0, 0] S394496x1
  shapeCasts_S394496x1_S394496 : S394496x1.ShapeCasts S394496
  reducesTo_S394496_S_d0 : S394496.ReducesTo [0] S_

variable [Facts₀]

class Facts : Prop extends Facts₀ where

variable [Facts]
-- ==== Proof.Common.lean ====
/-
  The program as the launch theorem of a SparseCore program sees it, and the ghost state every part of the proof
  shares: the launch handshakes' rounds, the rounds of the TensorCore pipeline's staging cells, and the counters of the
  vector subcores' own local copies.
-/
import proofs.«219810_g10299331576301_week1_w1_912_40_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«219810_g10299331576301_week1_w1_912_40_alg».proof.Proof.Gen.KernelIdeal
import proofs.«219810_g10299331576301_week1_w1_912_40_alg».proof.Proof.Gen.KernelIdeal.Skeleton
import proofs.«219810_g10299331576301_week1_w1_912_40_alg».proof.Proof.Gen.KernelIdeal.Launch
import proofs.«219810_g10299331576301_week1_w1_912_40_alg».proof.Proof.Gen.KernelIdeal.Points

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The rounds of the TensorCore pipeline's staging cells. -/
abbrev UP : Type := URounds (GSem nD τ sig) Unit
/-- Handshakes, pipeline cells, and the counters of the subcores' own copies. -/
abbrev UU : Type := UH × (UP × Counters)

/-- The handshakes' rounds sit in the left factor. -/
abbrev EH : Emb UH (MT nD τ sig (HIx 1) (Elt F) ℕ UU ℕ) := embL
/-- The pipeline's rounds sit in the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays, as locations of device `d` -/

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1

end Cert.Proof.KernelIdeal

end
-- ==== Proof.Rows.lean ====
/-
  The 32 x 16 array of partial sums, cut into its 32 rows: row 2 i + c is the one task i of core c writes.
  The array held whole is its rows held side by side, and the 32 rows are the 2 x 16 rows indexed by (core, task).
-/
import proofs.«219810_g10299331576301_week1_w1_912_40_alg».proof.Proof.Common

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- 32 divides the first extent of the 32 x 16 array: each part is one row. -/
theorem hdiv32 : 32 ∣ S32x16.size 0 := ⟨1, rfl⟩

/-- Row `w`, as a rectangle and as an index set. -/
abbrev rowW (w : Fin 32) : Rect S32x16 := Rect.part (s := S32x16) (a₀ := 0) hdiv32 w
abbrev rowSetW (w : Fin 32) : Finset S32x16.Idx := (rowW w).set

/-- The row that task `i` of core `c` writes: 2 i + c. -/
def wid (c : Fin 2) (i : Fin 16) : Fin 32 := ⟨2 * i.val + c.val, by omega⟩

/-- (core, task) ↦ row is a bijection of 2 x 16 with 32. -/
def widEquiv : Fin 2 × Fin 16 ≃ Fin 32 where
  toFun p := wid p.1 p.2
  invFun w := (⟨w.val % 2, Nat.mod_lt _ (by omega)⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

theorem rows_disjoint : ∀ i ∈ (Finset.univ : Finset (Fin 32)), ∀ j ∈ (Finset.univ : Finset (Fin 32)), i ≠ j → Disjoint (rowSetW i) (rowSetW j) :=
  fun _ _ _ _ h => Rect.part_disjoint hdiv32 h

theorem rows_cover : (Finset.univ : Finset (Fin 32)).biUnion rowSetW = Finset.univ := Rect.biUnion_part hdiv32

/-- The array held whole is its rows held side by side. -/
theorem v0_rows (d : Dev nD) (f : Buf (Elt F) (v0Loc d)) :
    (v0Loc d ↦{fullShare} f : sProp 𝕄) = bigSep Finset.univ fun w : Fin 32 => v0Loc d ↦[rowSetW w]{fullShare} f := by
  rw [← pointsTo_biUnion Finset.univ (ℓ := v0Loc d) rowSetW rows_disjoint, rows_cover]; try rfl

/-- Anything said of the 32 rows is said core by core, task by task. -/
theorem bigSep_wid (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

end Cert.Proof.KernelIdeal

end
-- ==== Proof.TileVal.lean ====
/-
  The sixteen lanes one vector subcore's task stores, as a pure function of the first argument array x0
  (16 batch entries x 24656 rows x 4 columns).

  The task of core c (0 or 1) and subcore s (0..15) works on batch entry s.  A "gather" number j from row r0 on is
  the vector of 16 lanes whose lane x is the entry at row r0 + 4 j + x / 4, column x % 4: four consecutive rows, all
  four columns.  An accumulator number u (0..3) starts at zero and at trip m adds, lane by lane, the absolute value of
  gather number 4 m + u.  The main part runs 768 trips from row 12288 c (24 blocks of 512 rows, 32 trips each: block
  k, trip t is trip 32 k + t, since 512 k + 4 (4 t + u) = 4 (4 (32 k + t) + u)); the tail runs 5 trips from row
  12288 c + 12288 (80 rows).  The result is ((((0 + a0) + a1) + a2) + a3) + t0 m + t1 m + t2 m + t3 m, m the mask that
  is 1.0 on core 1 and 0.0 on core 0, with the sums and products in the order the task performs them.
-/
import proofs.«219810_g10299331576301_week1_w1_912_40_alg».proof.Proof.Common
import Idealize.ShloMosaic.Lib.ValueIdx

noncomputable section

namespace Cert.Proof.KernelIdeal

open Cert.KernelIdeal Cert.KernelIdeal.Gen

open Idealize.ShloMosaic

variable {F : FTy → Type} [FloatOps F]

/-- Entry (s, r, col) of the array.  No row r ≥ 24656 is ever read; such a row is read as row 0. -/
def rowAt (x0 : S16x24656x4.Idx → Elt F .f32) (s : Fin 16) (r : ℕ) (col : Fin 4) : F .f32 :=
  if h : r < 24656 then x0 (ValueIdx.ix3 s ⟨r, h⟩ col) else x0 (ValueIdx.ix3 s ⟨0, by decide⟩ col)

theorem rowAt_of_lt (x0 : S16x24656x4.Idx → Elt F .f32) (s : Fin 16) {r : ℕ} (h : r < 24656) (col : Fin 4) :
    rowAt x0 s r col = x0 (ValueIdx.ix3 s ⟨r, h⟩ col) := dif_pos h

/-- Gather number j out of the rows of batch entry s from row r0 on: lane x is row r0 + 4 j + x / 4, column x % 4. -/
def gath (x0 : S16x24656x4.Idx → Elt F .f32) (s : Fin 16) (r0 j : ℕ) : FVec F S16 .f32 :=
  fun x => rowAt x0 s (r0 + 4 * j + (x 0).val / 4) ⟨(x 0).val % 4, Nat.mod_lt _ (by decide)⟩

/-- Accumulator number u after n trips: zero, then trip m adds the absolute values of gather number 4 m + u. -/
def acc (x0 : S16x24656x4.Idx → Elt F .f32) (s : Fin 16) (r0 u : ℕ) : ℕ → FVec F S16 .f32
  | 0 => broadcast S16 (Scalar.ofBits .f32 0x00000000#32)
  | n + 1 => addf (acc x0 s r0 u n) (absf (gath x0 s r0 (4 * n + u)))

@[simp] theorem acc_zero (x0 : S16x24656x4.Idx → Elt F .f32) (s : Fin 16) (r0 u : ℕ) :
    acc x0 s r0 u 0 = broadcast S16 (Scalar.ofBits .f32 0x00000000#32) := rfl

theorem acc_succ (x0 : S16x24656x4.Idx → Elt F .f32) (s : Fin 16) (r0 u n : ℕ) :
    acc x0 s r0 u (n + 1) = addf (acc x0 s r0 u n) (absf (gath x0 s r0 (4 * n + u))) := rfl

/-- The 16 lanes the task of core c, subcore s stores: the four main accumulators after 768 trips from row 12288 c and
    the four tail accumulators after 5 trips from row 12288 c + 12288, combined as the task combines them
    (the generated payload of the stored vector, applied to them and to the core number on every lane). -/
def tileRow (x0 : S16x24656x4.Idx → Elt F .f32) (c : Fin 2) (s : Fin 16) : S16.Idx → Elt F .f32 :=
  k0_pay1 (acc x0 s (12288 * c.val) 0 768) (acc x0 s (12288 * c.val) 1 768)
    (acc x0 s (12288 * c.val) 2 768) (acc x0 s (12288 * c.val) 3 768)
    (acc x0 s (12288 * c.val + 12288) 0 5) (acc x0 s (12288 * c.val + 12288) 1 5)
    (acc x0 s (12288 * c.val + 12288) 2 5) (acc x0 s (12288 * c.val + 12288) 3 5)
    (broadcast S16 (BitVec.ofNat 32 c.val))

/-- The 32 x 16 array of all the tasks' results: row w = 2 s + c is the result of core c = w % 2, subcore s = w / 2. -/
def tileOut (x0 : S16x24656x4.Idx → Elt F .f32) : S32x16.Idx → Elt F .f32 :=
  fun w => tileRow x0 ⟨(w 0).val % 2, Nat.mod_lt _ (by decide)⟩
    ⟨(w 0).val / 2, by have h : (w 0).val < 32 := (w 0).isLt; omega⟩
    (ValueIdx.ix1 (⟨(w 1).val, (w 1).isLt⟩ : Fin 16))

/-- The mask: 1.0 on every lane on core 1, 0.0 on core 0. -/
def cmask (c : Fin 2) : F .f32 := if c.val = 1 then Scalar.ofBits .f32 0x3F800000#32 else Scalar.ofBits .f32 0x00000000#32

/-- One lane of the result, spelt out. -/
theorem tileRow_apply (x0 : S16x24656x4.Idx → Elt F .f32) (c : Fin 2) (s : Fin 16) (x : S16.Idx) :
    tileRow x0 c s x =
      FloatOps.addf (FloatOps.addf (FloatOps.addf (FloatOps.addf
        (FloatOps.addf (FloatOps.addf (FloatOps.addf (FloatOps.addf (Scalar.ofBits .f32 0x00000000#32 : F .f32)
          (acc x0 s (12288 * c.val) 0 768 x)) (acc x0 s (12288 * c.val) 1 768 x))
          (acc x0 s (12288 * c.val) 2 768 x)) (acc x0 s (12288 * c.val) 3 768 x))
        (FloatOps.mulf (acc x0 s (12288 * c.val + 12288) 0 5 x) (cmask c)))
        (FloatOps.mulf (acc x0 s (12288 * c.val + 12288) 1 5 x) (cmask c)))
        (FloatOps.mulf (acc x0 s (12288 * c.val + 12288) 2 5 x) (cmask c)))
        (FloatOps.mulf (acc x0 s (12288 * c.val + 12288) 3 5 x) (cmask c)) := by
  match c with
  | ⟨0, _⟩ => rfl
  | ⟨1, _⟩ => rfl

end Cert.Proof.KernelIdeal

end
-- ==== Proof.Pay.lean ====
/-
  What the launch handshakes carry. The first argument is only read: it is held whole by the TensorCore, which hands
  each of the two cores a read share of it; a core hands each of its sixteen tasks a read share of its share. The
  32 x 16 array of partial sums is cut into rows: core c is handed the sixteen rows 2 i + c, task i of it the row
  2 i + c, at the launch contents; it comes back holding the task's sixteen lanes, every row at the one whole-array
  function `outArr`. Nothing else travels.
-/
import proofs.«219810_g10299331576301_week1_w1_912_40_alg».proof.Proof.Rows
import proofs.«219810_g10299331576301_week1_w1_912_40_alg».proof.Proof.TileVal

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Transfers (shareTok shareDrop pointsTo_toks_split pointsTo_toks_join)

variable [FloatOps F]
variable (m : (ℓ : Loc nD τ sig) → Buf (Elt F) ℓ)

/-- The read share of the first argument handed to core `c`, and to task `i` of core `c`. -/
abbrev coreShare (c : Fin 2) : PosShare TreeShare := shareTok fullShare 2 c
abbrev taskShare (c : Fin 2) (i : Fin 16) : PosShare TreeShare := shareTok (coreShare c) 16 i

/-- The first argument at its launch contents, at a share. -/
abbrev a0Pts (d : Dev nD) (q : PosShare TreeShare) : sProp 𝕄 := a0Loc d ↦{q} m (a0Loc d)
/-- Row `w` of the array of partial sums, at contents `f`. -/
abbrev rowPts (d : Dev nD) (w : Fin 32) (f : Buf (Elt F) (v0Loc d)) : sProp 𝕄 := v0Loc d ↦[rowSetW w]{fullShare} f

/-- What the array of partial sums holds after the call: every task's sixteen lanes. -/
def outArr (d : Dev nD) : Buf (Elt F) (v0Loc d) := tileOut (m (a0Loc d))

/-- The one call: each core its share of the first argument and its sixteen rows, each task its share and its row. -/
def P : (K (F := F)).Pay (nD := nD) (Val := Elt F) (Name := ℕ) (U := UU) where
  st := fun q d c => match q with
    | 0 => iprop(a0Pts m d (coreShare (Fin.cast nCore_zero c))
        ∗ bigSep Finset.univ fun i : Fin 16 => rowPts d (wid (Fin.cast nCore_zero c) i) (m (v0Loc d)))
  dn := fun q d c => match q with
    | 0 => iprop(a0Pts m d (coreShare (Fin.cast nCore_zero c))
        ∗ bigSep Finset.univ fun i : Fin 16 => rowPts d (wid (Fin.cast nCore_zero c) i) (outArr m d))
  go := fun q d c i => match q with
    | 0 => iprop(a0Pts m d (taskShare (Fin.cast nCore_zero c) (Fin.cast nSub_zero i))
        ∗ rowPts d (wid (Fin.cast nCore_zero c) (Fin.cast nSub_zero i)) (m (v0Loc d)))
  td := fun q d c i => match q with
    | 0 => iprop(a0Pts m d (taskShare (Fin.cast nCore_zero c) (Fin.cast nSub_zero i))
        ∗ rowPts d (wid (Fin.cast nCore_zero c) (Fin.cast nSub_zero i)) (outArr m d))
  x := fun _ _ => iprop(emp)

instance P_storable : (P (F := F) m).IsStorable where
  st q d c := match q with
    | 0 => (inferInstance : BI.Storable (upEmb : UEmb _ 𝕄) iprop(a0Pts m d (coreShare (Fin.cast nCore_zero c))
        ∗ bigSep Finset.univ fun i : Fin 16 => rowPts d (wid (Fin.cast nCore_zero c) i) (m (v0Loc d))))
  dn q d c := match q with
    | 0 => (inferInstance : BI.Storable (upEmb : UEmb _ 𝕄) iprop(a0Pts m d (coreShare (Fin.cast nCore_zero c))
        ∗ bigSep Finset.univ fun i : Fin 16 => rowPts d (wid (Fin.cast nCore_zero c) i) (outArr m d)))
  go q d c i := match q with
    | 0 => (inferInstance : BI.Storable (upEmb : UEmb _ 𝕄) iprop(a0Pts m d (taskShare (Fin.cast nCore_zero c) (Fin.cast nSub_zero i))
        ∗ rowPts d (wid (Fin.cast nCore_zero c) (Fin.cast nSub_zero i)) (m (v0Loc d))))
  td q d c i := match q with
    | 0 => (inferInstance : BI.Storable (upEmb : UEmb _ 𝕄) iprop(a0Pts m d (taskShare (Fin.cast nCore_zero c) (Fin.cast nSub_zero i))
        ∗ rowPts d (wid (Fin.cast nCore_zero c) (Fin.cast nSub_zero i)) (outArr m d)))

omit [FloatOps F] in
/-- A family over the tasks of the call is the family over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A family over the cores of the call is the family over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's share and rows go out to its tasks, and what they bring back is the core's share and rows again. -/
theorem vecSplit : (K (F := F)).VecSplit' (P m) 0 := by
  intro d c
  show iprop(a0Pts m d (coreShare (Fin.cast nCore_zero c))
        ∗ bigSep Finset.univ fun i : Fin 16 => rowPts d (wid (Fin.cast nCore_zero c) i) (m (v0Loc d)))
    ⊢ |={Set.univ}=> iprop(
      (bigSep Finset.univ fun i : Fin ((K (F := F)).nSub 0) =>
        iprop(a0Pts m d (taskShare (Fin.cast nCore_zero c) (Fin.cast nSub_zero i))
          ∗ rowPts d (wid (Fin.cast nCore_zero c) (Fin.cast nSub_zero i)) (m (v0Loc d))))
      ∗ ((bigSep Finset.univ fun i : Fin ((K (F := F)).nSub 0) =>
          iprop(a0Pts m d (taskShare (Fin.cast nCore_zero c) (Fin.cast nSub_zero i))
            ∗ rowPts d (wid (Fin.cast nCore_zero c) (Fin.cast nSub_zero i)) (outArr m d)))
          -∗ iprop(a0Pts m d (coreShare (Fin.cast nCore_zero c))
            ∗ bigSep Finset.univ fun i : Fin 16 => rowPts d (wid (Fin.cast nCore_zero c) i) (outArr m d))))
  generalize Fin.cast nCore_zero c = c'
  rw [bigSep_tasks (F := F) (fun i => iprop(a0Pts m d (taskShare c' i) ∗ rowPts d (wid c' i) (m (v0Loc d)))),
    bigSep_tasks (F := F) (fun i => iprop(a0Pts m d (taskShare c' i) ∗ rowPts d (wid c' i) (outArr m d))),
    bigSep_sep', bigSep_sep']
  iintro ⟨Ha, Hrows⟩
  ihave Ha' := (pointsTo_toks_split (coreShare c') 16) $$ Ha
  icases Ha' with ⟨Hdrop, Htoks⟩
  imodintro
  isplitl [Htoks Hrows]
  · isplitl [Htoks]; · iexact Htoks
    iexact Hrows
  iintro ⟨Htoks, Hrows⟩
  isplitl [Hdrop Htoks]
  · iapply (pointsTo_toks_join (coreShare c') 16)
    isplitl [Hdrop]; · iexact Hdrop
    iexact Htoks
  iexact Hrows

end Cert.Proof.KernelIdeal

end
-- ==== Proof.Tail.lean ====
/-
  @main after the two kernels: eight host operations. The 32 x 16 array of partial sums is summed (from the zero
  word) and divided by the float 0x49C0A000 (the number of entries of the first argument): the first loss; the
  1 x 1 result of the second kernel, reshaped to a scalar, is divided by the float 0x48C0A000 (the number of rows):
  the second loss; their sum is the total. Here: the operations as a list, @main as the two calls followed by the
  list, and what the three result buffers hold after the list, as functions of the two kernels' result arrays.
-/
import proofs.«219810_g10299331576301_week1_w1_912_40_alg».proof.Proof.Common

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo

variable [FloatOps F]

/-- The host operations after the two calls, one by one. -/
abbrev op1 : HloOp τ sig (Elt F) := nullary main_cst (constant S_ .f32 0x00000000#32)
abbrev op2 : HloOp τ sig (Elt F) := binary main_v0 main_cst main_v2 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev op3 : HloOp τ sig (Elt F) := nullary main_cst_0 (constant S_ .f32 0x49C0A000#32)
abbrev op4 : HloOp τ sig (Elt F) := binary main_v2 main_cst_0 main_v3 (Host.divf : (⟨S_, .f32⟩ : BufTy).Contents (Elt F) → (⟨S_, .f32⟩ : BufTy).Contents (Elt F) → (⟨S_, .f32⟩ : BufTy).Contents (Elt F))
abbrev op5 : HloOp τ sig (Elt F) := reshape main_v1 main_v4 rfl shapeCasts_S1x1_S_
abbrev op6 : HloOp τ sig (Elt F) := nullary main_cst_1 (constant S_ .f32 0x48C0A000#32)
abbrev op7 : HloOp τ sig (Elt F) := binary main_v4 main_cst_1 main_v5 (Host.divf : (⟨S_, .f32⟩ : BufTy).Contents (Elt F) → (⟨S_, .f32⟩ : BufTy).Contents (Elt F) → (⟨S_, .f32⟩ : BufTy).Contents (Elt F))
abbrev op8 : HloOp τ sig (Elt F) := binary main_v3 main_v5 main_v6 (addf : (⟨S_, .f32⟩ : BufTy).Contents (Elt F) → (⟨S_, .f32⟩ : BufTy).Contents (Elt F) → (⟨S_, .f32⟩ : BufTy).Contents (Elt F))

/-- In order. -/
abbrev tailOps : List (HloOp τ sig (Elt F)) := [op1, op2, op3, op4, op5, op6, op7, op8]

/-- @main is the SparseCore call, the TensorCore kernel's region, then the host operations. -/
theorem main_eq (d : Dev nD) :
    main (F := F) d = (sc.run d 0 >>= fun _ => Prog.lift (.customCall (SparseCore.inner (Pipeline.entry 0)) ()) >>= fun _ => seq tailOps) := rfl

/-- The first loss from the array of partial sums. -/
def locOf (v0 : (⟨S32x16, .f32⟩ : BufTy).Contents (Elt F)) : (⟨S_, .f32⟩ : BufTy).Contents (Elt F) :=
  Host.divf (Host.reduceAdd v0 (constant S_ .f32 0x00000000#32) reducesTo_S32x16_S_d0_1 h_S_) (constant S_ .f32 0x49C0A000#32)

/-- The second loss from the second kernel's 1 x 1 result. -/
def clsOf (v1 : (⟨S1x1, .f32⟩ : BufTy).Contents (Elt F)) : (⟨S_, .f32⟩ : BufTy).Contents (Elt F) :=
  Host.divf (shapeCast S_ v1 shapeCasts_S1x1_S_) (constant S_ .f32 0x48C0A000#32)

/-- The total. -/
def totOf (v0 : (⟨S32x16, .f32⟩ : BufTy).Contents (Elt F)) (v1 : (⟨S1x1, .f32⟩ : BufTy).Contents (Elt F)) : (⟨S_, .f32⟩ : BufTy).Contents (Elt F) :=
  addf (locOf v0) (clsOf v1)

/-- After the host operations the total's buffer holds `totOf` of the two kernels' arrays as they stood, -/
theorem after_v6 (V : Valuation τ sig (Elt F)) :
    after tailOps V (Proc.devRef .tc main_v6) = totOf (V (Proc.devRef .tc main_v0)) (V (Proc.devRef .tc main_v1)) := by
  unfold totOf locOf clsOf
  after_results <;> rfl
/-- the first loss's buffer `locOf`, -/
theorem after_v3 (V : Valuation τ sig (Elt F)) :
    after tailOps V (Proc.devRef .tc main_v3) = locOf (V (Proc.devRef .tc main_v0)) := by
  unfold locOf
  after_results <;> rfl
/-- the second loss's buffer `clsOf`, -/
theorem after_v5 (V : Valuation τ sig (Elt F)) :
    after tailOps V (Proc.devRef .tc main_v5) = clsOf (V (Proc.devRef .tc main_v1)) := by
  unfold clsOf
  after_results <;> rfl
/-- and the arguments are as they were. -/
theorem after_arg0 (V : Valuation τ sig (Elt F)) :
    after tailOps V (Proc.devRef .tc main_arg0) = V (Proc.devRef .tc main_arg0) := by
  after_results <;> rfl
theorem after_arg1 (V : Valuation τ sig (Elt F)) :
    after tailOps V (Proc.devRef .tc main_arg1) = V (Proc.devRef .tc main_arg1) := by
  after_results <;> rfl

end Cert.Proof.KernelIdeal

end
-- ==== Proof.ClsVal.lean ====
/-
  The value of the class-loss kernel, for any float instance.
  The second argument x1 has shape 16 x 24656 x 81. Grid point t (one of 16) is handed the two halves of batch entry t:
  rows [0, 12328) and rows [12328, 24656), each a 1 x 12328 x 81 block. For one block the function k1_pay2
  computes: exp entrywise, rounding to bf16, the product with the 81 x 128 matrix of zeros and ones (column 1 picks
  class 0, every other column sums the 81 classes), log entrywise, the product with the weight row (+1 at column 0,
  -1 at column 1, 0 elsewhere), and the sum of all 12328 x 128 entries. Point t adds the sum of the two halves' values
  to a 1 x 1 accumulator, which is set to the zero word at point 0 before the first addition.
-/
import proofs.«219810_g10299331576301_week1_w1_912_40_alg».proof.Proof.Common
import Idealize.ShloMosaic.Lib.ValueIdx

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Half h (0 or 1) of batch entry t of x1, as a 1 x 12328 x 81 block: entry (0, r, k) is x1[t, 12328 h + r, k]. -/
def clsBlock (x1 : S16x24656x81.Idx → Elt F .f32) (t : Fin 16) (h : Fin 2) : Vec F S1x12328x81 .f32 :=
  fun j => x1 (ValueIdx.ix3 t (⟨h.val * 12328 + (j 1).val, by have h1 : (j 1).val < 12328 := (j 1).isLt; have h2 := h.isLt; omega⟩ : Fin 24656) ((j 2 : Fin 81)))

/-- What grid point t adds to the accumulator: the value of the first half plus the value of the second half. -/
def clsPoint (x1 : S16x24656x81.Idx → Elt F .f32) (t : Fin 16) : Elt F .f32 :=
  Scalar.addf (k1_pay2 (clsBlock x1 t 0)) (k1_pay2 (clsBlock x1 t 1))

/-- The accumulator after the first n grid points: the zero word, then one addition per point, in point order. -/
def clsAcc (x1 : S16x24656x81.Idx → Elt F .f32) : ℕ → Elt F .f32
  | 0 => Scalar.ofBits .f32 0x00000000#32
  | n + 1 => if h : n < 16 then Scalar.addf (clsAcc x1 n) (clsPoint x1 ⟨n, h⟩) else clsAcc x1 n

theorem clsAcc_zero (x1 : S16x24656x81.Idx → Elt F .f32) : clsAcc x1 0 = Scalar.ofBits .f32 0x00000000#32 := rfl

theorem clsAcc_succ (x1 : S16x24656x81.Idx → Elt F .f32) (n : ℕ) (h : n < 16) :
    clsAcc x1 (n + 1) = Scalar.addf (clsAcc x1 n) (clsPoint x1 ⟨n, h⟩) := by
  rw [clsAcc, dif_pos h]

/-- The kernel's 1 x 1 result: the accumulator after all 16 points. -/
def clsOut (x1 : S16x24656x81.Idx → Elt F .f32) : S1x1.Idx → Elt F .f32 := fun _ => clsAcc x1 16

end Cert.Proof.KernelIdeal

end
-- ==== Proof.MainBufs.lean ====
/-
  @main on the TensorCore, and the run of the whole program. The TensorCore holds every array whole. It hands the
  two cores read shares of the first argument and the rows of the array of partial sums (the SparseCore call), gets
  them back with every row at the tasks' lanes, runs the second kernel's region (the second argument read, its
  1 x 1 result written), then the eight host operations over the buffers it holds; at the end the three result
  buffers hold the host operations' functions of the two kernels' arrays and the arguments are as they were.
-/
import proofs.«219810_g10299331576301_week1_w1_912_40_alg».proof.Proof.Pay
import proofs.«219810_g10299331576301_week1_w1_912_40_alg».proof.Proof.Tail
import proofs.«219810_g10299331576301_week1_w1_912_40_alg».proof.Proof.ClsVal

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Transfers (shareTok shareDrop pointsTo_toks_split pointsTo_toks_join)
open Idealize.ShloMosaic.StableHlo (held held_split held_sdiff_result wp_hlo_within wp_seq after seq)

variable [FloatOps F]
variable (m : (ℓ : Loc nD τ sig) → Buf (Elt F) ℓ) (ρ : Dev nD → PrngReg)

/-! ## The TensorCore's buffers -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev cst' : DevRef τ sig := Proc.devRef .tc (main_cst : Ref sig .tc)
abbrev v2' : DevRef τ sig := Proc.devRef .tc (main_v2 : Ref sig .tc)
abbrev cst0' : DevRef τ sig := Proc.devRef .tc (main_cst_0 : Ref sig .tc)
abbrev v3' : DevRef τ sig := Proc.devRef .tc (main_v3 : Ref sig .tc)
abbrev v4' : DevRef τ sig := Proc.devRef .tc (main_v4 : Ref sig .tc)
abbrev cst1' : DevRef τ sig := Proc.devRef .tc (main_cst_1 : Ref sig .tc)
abbrev v5' : DevRef τ sig := Proc.devRef .tc (main_v5 : Ref sig .tc)
abbrev v6' : DevRef τ sig := Proc.devRef .tc (main_v6 : Ref sig .tc)

/-- The buffers the host operations touch. -/
abbrev S10 : Finset (DevRef τ sig) := {v0', v1', cst', v2', cst0', v3', v4', cst1', v5', v6'}

omit [FloatOps F] in
theorem held_S10 (d : Dev nD) (W : Valuation τ sig (Elt F)) :
    (held (T d) S10 W : sProp 𝕄) = iprop((v0Loc d ↦{fullShare} W v0') ∗ (v1Loc d ↦{fullShare} W v1')
      ∗ ((SparseCore.T d).loc main_cst ↦{fullShare} W cst') ∗ ((SparseCore.T d).loc main_v2 ↦{fullShare} W v2')
      ∗ ((SparseCore.T d).loc main_cst_0 ↦{fullShare} W cst0') ∗ ((SparseCore.T d).loc main_v3 ↦{fullShare} W v3')
      ∗ ((SparseCore.T d).loc main_v4 ↦{fullShare} W v4') ∗ ((SparseCore.T d).loc main_cst_1 ↦{fullShare} W cst1')
      ∗ ((SparseCore.T d).loc main_v5 ↦{fullShare} W v5') ∗ ((SparseCore.T d).loc main_v6 ↦{fullShare} W v6')) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (v0Loc d ↦{fullShare} W main_v0) ∗ (v1Loc d ↦{fullShare} W main_v1)
      ∗ ((SparseCore.T d).loc main_cst ↦{fullShare} W main_cst) ∗ ((SparseCore.T d).loc main_v2 ↦{fullShare} W main_v2)
      ∗ ((SparseCore.T d).loc main_cst_0 ↦{fullShare} W main_cst_0) ∗ ((SparseCore.T d).loc main_v3 ↦{fullShare} W main_v3)
      ∗ ((SparseCore.T d).loc main_v4 ↦{fullShare} W main_v4) ∗ ((SparseCore.T d).loc main_cst_1 ↦{fullShare} W main_cst_1)
      ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped)
      = {main_arg0, main_arg1, main_v0, main_v1, main_cst, main_v2, main_cst_0, main_v3, main_v4, main_cst_1, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The buffers' contents when the host operations start: the launch contents, but the two kernels' result arrays. -/
def V0 (d : Dev nD) : Valuation τ sig (Elt F) := fun b => m (d, b)
def V2 (d : Dev nD) : Valuation τ sig (Elt F) :=
  Function.update (Function.update (V0 m d) v0' (outArr m d)) v1' (clsOut (m (a1Loc d)))

theorem V2_v1 (d : Dev nD) : V2 m d v1' = clsOut (m (a1Loc d)) := Function.update_self _ _ _
theorem V2_v0 (d : Dev nD) : V2 m d v0' = outArr m d :=
  (Function.update_of_ne (show v0' ≠ v1' by decide) _ _).trans (Function.update_self _ _ _)
theorem V2_of_ne (d : Dev nD) (b : DevRef τ sig) (h0 : b ≠ v0') (h1 : b ≠ v1') : V2 m d b = V0 m d b :=
  (Function.update_of_ne h1 _ _).trans (Function.update_of_ne h0 _ _)

end Cert.Proof.KernelIdeal

end
-- ==== Proof.Main.lean ====
/-
  @main on the TensorCore: the SparseCore call, the second kernel's region, the host operations.
-/
import proofs.«219810_g10299331576301_week1_w1_912_40_alg».proof.Proof.MainBufs

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Transfers (shareTok shareDrop pointsTo_toks_split pointsTo_toks_join)
open Idealize.ShloMosaic.StableHlo (held held_split held_sdiff_result wp_hlo_within wp_seq after seq)

variable [FloatOps F]
variable (m : (ℓ : Loc nD τ sig) → Buf (Elt F) ℓ) (ρ : Dev nD → PrngReg)

/-! ## What the call takes for the two cores, and what it hands back -/

theorem st0_eq (d : Dev nD) :
    (bigSep Finset.univ fun c : Fin ((K (F := F)).nCore 0) => (P m).st 0 d c)
      = iprop((bigSep Finset.univ fun c : Fin 2 => a0Pts m d (coreShare c))
          ∗ bigSep Finset.univ fun c : Fin 2 => bigSep Finset.univ fun i : Fin 16 => rowPts d (wid c i) (m (v0Loc d))) := by
  rw [← bigSep_sep']
  exact bigSep_cores (F := F) (fun c => iprop(a0Pts m d (coreShare c) ∗ bigSep Finset.univ fun i : Fin 16 => rowPts d (wid c i) (m (v0Loc d))))
theorem dn0_eq (d : Dev nD) :
    (bigSep Finset.univ fun c : Fin ((K (F := F)).nCore 0) => (P m).dn 0 d c)
      = iprop((bigSep Finset.univ fun c : Fin 2 => a0Pts m d (coreShare c))
          ∗ bigSep Finset.univ fun c : Fin 2 => bigSep Finset.univ fun i : Fin 16 => rowPts d (wid c i) (outArr m d)) := by
  rw [← bigSep_sep']
  exact bigSep_cores (F := F) (fun c => iprop(a0Pts m d (coreShare c) ∗ bigSep Finset.univ fun i : Fin 16 => rowPts d (wid c i) (outArr m d)))

/-! ## The second kernel's region, as @main meets it

What the region's proof is asked for: from the second argument whole at its launch contents and the result array
whole at any contents, beside the region boundary, the level facts and the pipeline's ghost state `Gd d`, the
region's call runs and gives the second argument back and the result array at `clsOut`. -/

/-- What the TensorCore owes after the call: nothing, its recorded pairs all at low levels. -/
abbrev owesTc' (d : Dev nD) : sProp 𝕄 :=
  iprop(∃ W, ⌜(K (F := F)).WBelow (SparseCore.T d) W 8⌝ ∗ owes (SparseCore.T d) (0 : CellTallies nD τ sig (HIx 1)) W)

/-- What the region is entered with, and what it leaves. -/
abbrev regPre (d : Dev nD) : sProp 𝕄 :=
  iprop((a1Loc d ↦{fullShare} m (a1Loc d)) ∗ (v1Loc d ↦{fullShare} m (v1Loc d)) ∗ owesTc' (F := F) d)
abbrev regPost (d : Dev nD) : sProp 𝕄 :=
  iprop((a1Loc d ↦{fullShare} m (a1Loc d)) ∗ (v1Loc d ↦{fullShare} (clsOut (m (a1Loc d)) : Buf (Elt F) (v1Loc d))) ∗ owesTc' (F := F) d)

/-- The TensorCore's launch state after the one call is what it owes (nothing) and the rest. -/
theorem tcSt_one (d : Dev nD) : ∃ R : sProp 𝕄, (K (F := F)).tcSt EH d 1 = iprop(owesTc' (F := F) d ∗ R) :=
  ⟨_, by unfold SparseCore.Cfg.tcSt; rw [(K (F := F)).Otc_end d le_rfl]⟩

/-- The region's rule over the program's own body table. -/
def RegionRule (Gd : Dev nD → sProp 𝕄) : Prop :=
  ∀ (d : Dev nD) (Φ : PUnit → sProp 𝕄),
    iprop((iprop(boundary (SparseCore.T d) ∗ regPost m d) -∗ wp frame (wpE (D (F := F)) 𝒱 (SparseCore.T d) none) Set.univ (.ret ⟨⟩) Φ)
        ∗ boundary (SparseCore.T d) ∗ regPre m d ∗ levAts (K (F := F)).L (K (F := F)).lev ∗ Gd d)
      ⊢ wp frame (wpE (D (F := F)) 𝒱 (SparseCore.T d) none) Set.univ (.op (.customCall (Pipeline.entry 0) ()) fun _ => .ret ⟨⟩) Φ

/-- The same over the extended table, where the region's call is the call of the inner label: the shape @main uses. -/
def RegionRule' (Gd : Dev nD → sProp 𝕄) : Prop :=
  ∀ (d : Dev nD) (Φ : PUnit → sProp 𝕄),
    iprop((iprop(boundary (SparseCore.T d) ∗ regPost m d) -∗ |={Set.univ}=> Φ ⟨⟩)
        ∗ boundary (SparseCore.T d) ∗ regPre m d ∗ levAts (K (F := F)).L (K (F := F)).lev ∗ Gd d)
      ⊢ wp frame (wpE ((K (F := F)).defs (D (F := F))) 𝒱 (SparseCore.T d) none) Set.univ
          (Prog.lift (.customCall (SparseCore.inner (Pipeline.entry 0)) ())) Φ

/-- The call of the inner label is the region's call, lifted. -/
theorem lift_call :
    (SparseCore.liftProg (Q := 1) (.op (.customCall (Pipeline.entry 0) ()) fun _ => .ret ⟨⟩)
        : Prog (TpuEff nD τ sig (Elt F) (SparseCore.Sig (ΛP (F := F)) 1) .tc) PUnit)
      = Prog.lift (.customCall (SparseCore.inner (Pipeline.entry 0)) ()) := rfl

theorem RegionRule.lift {Gd : Dev nD → sProp 𝕄} (h : RegionRule m Gd) : RegionRule' m Gd := by
  intro d Φ
  have h1 := h d Φ
  rw [wp_ret] at h1
  refine h1.trans ?_
  rw [← lift_call]
  exact (K (F := F)).wp_liftProg (D (F := F)) 𝒱 (SparseCore.T d) Set.univ none _ Φ

/-! ## @main -/

/-- What @main leaves for the claim: the three results at the host operations' functions of the kernels' arrays,
    the two arguments at their launch contents. -/
abbrev FIN (d : Dev nD) : sProp 𝕄 :=
  iprop(((SparseCore.T d).loc main_v6 ↦{fullShare} totOf (outArr m d) (clsOut (m (a1Loc d))))
    ∗ ((SparseCore.T d).loc main_v3 ↦{fullShare} locOf (outArr m d))
    ∗ ((SparseCore.T d).loc main_v5 ↦{fullShare} clsOf (clsOut (m (a1Loc d))))
    ∗ (a0Loc d ↦{fullShare} m (a0Loc d)) ∗ (a1Loc d ↦{fullShare} m (a1Loc d)))

theorem op1_sub : (op1 : HloOp τ sig (Elt F)).bufs ⊆ S10 := by simp only [StableHlo.nullary_bufs]; decide
theorem op2_sub : (op2 : HloOp τ sig (Elt F)).bufs ⊆ S10 := by simp only [StableHlo.binary_bufs]; decide
theorem op3_sub : (op3 : HloOp τ sig (Elt F)).bufs ⊆ S10 := by simp only [StableHlo.nullary_bufs]; decide
theorem op4_sub : (op4 : HloOp τ sig (Elt F)).bufs ⊆ S10 := by simp only [StableHlo.binary_bufs]; decide
theorem op5_sub : (op5 : HloOp τ sig (Elt F)).bufs ⊆ S10 := by simp only [StableHlo.reshape_bufs]; decide
theorem op6_sub : (op6 : HloOp τ sig (Elt F)).bufs ⊆ S10 := by simp only [StableHlo.nullary_bufs]; decide
theorem op7_sub : (op7 : HloOp τ sig (Elt F)).bufs ⊆ S10 := by simp only [StableHlo.binary_bufs]; decide
theorem op8_sub : (op8 : HloOp τ sig (Elt F)).bufs ⊆ S10 := by simp only [StableHlo.binary_bufs]; decide

/-- The buffers' contents after each host operation. -/
abbrev W1 (d : Dev nD) : Valuation τ sig (Elt F) := (op1 : HloOp τ sig (Elt F)).result (V2 m d)
abbrev W2 (d : Dev nD) : Valuation τ sig (Elt F) := (op2 : HloOp τ sig (Elt F)).result (W1 m d)
abbrev W3 (d : Dev nD) : Valuation τ sig (Elt F) := (op3 : HloOp τ sig (Elt F)).result (W2 m d)
abbrev W4 (d : Dev nD) : Valuation τ sig (Elt F) := (op4 : HloOp τ sig (Elt F)).result (W3 m d)
abbrev W5 (d : Dev nD) : Valuation τ sig (Elt F) := (op5 : HloOp τ sig (Elt F)).result (W4 m d)
abbrev W6 (d : Dev nD) : Valuation τ sig (Elt F) := (op6 : HloOp τ sig (Elt F)).result (W5 m d)
abbrev W7 (d : Dev nD) : Valuation τ sig (Elt F) := (op7 : HloOp τ sig (Elt F)).result (W6 m d)
abbrev W8 (d : Dev nD) : Valuation τ sig (Elt F) := (op8 : HloOp τ sig (Elt F)).result (W7 m d)
theorem W8_eq (d : Dev nD) : W8 m d = after tailOps (V2 m d) := rfl

set_option maxHeartbeats 1600000 in
theorem hmain (Gd : Dev nD → sProp 𝕄) (hreg : RegionRule' m Gd) (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_one (F := F) d
  have e6 : ((op8 : HloOp τ sig (Elt F)).result (W7 m d)) v6' = totOf (outArr m d) (clsOut (m (a1Loc d))) := by
    have h := after_v6 (F := F) (V2 m d); rw [V2_v0, V2_v1] at h; exact h
  have e3 : ((op8 : HloOp τ sig (Elt F)).result (W7 m d)) v3' = locOf (outArr m d) := by
    have h := after_v3 (F := F) (V2 m d); rw [V2_v0] at h; exact h
  have e5 : ((op8 : HloOp τ sig (Elt F)).result (W7 m d)) v5' = clsOf (clsOut (m (a1Loc d))) := by
    have h := after_v5 (F := F) (V2 m d); rw [V2_v1] at h; exact h
  unfold SparseCore.Cfg.tcRes
  rw [unscopedBufs_eq]
  simp only [main, wp_bind, wp_pure]
  iintro ⟨#Hctx, Hst, ⟨Hb, ⟨Ha0, Ha1, Hv0, Hv1, Hcst, Hv2, Hcst0, Hv3, Hv4, Hcst1, Hv5, Hv6⟩, -, -⟩, HG⟩
  -- the first argument: a read share for each core; the array of partial sums: its rows, core by core
  ihave Ha0' := (pointsTo_toks_split fullShare 2) $$ Ha0
  icases Ha0' with ⟨Hdrop, Htoks⟩
  ihave Hrows := (Entails.of_eq ((v0_rows (F := F) d _).trans (bigSep_wid (F := F) _))) $$ Hv0
  iapply ((K (F := F)).wp_run (D (F := F)) 𝒱 (EH := EH) (P := P m) κ d 0) $$ [Hst Htoks Hrows Hb Hdrop Ha1 Hv1 Hcst Hv2 Hcst0 Hv3 Hv4 Hcst1 Hv5 Hv6 HG]
  isplitr; · iexact Hctx
  isplitl [Hst]; · iexact Hst
  isplitl [Htoks Hrows]
  · rw [st0_eq]
    isplitl [Htoks]; · iexact Htoks
    iexact Hrows
  iintro ⟨Hst, Hdn⟩
  ihave Hst' := (Entails.of_eq (show (K (F := F)).tcSt EH d ((0 : Fin 1).val + 1) = iprop(owesTc' (F := F) d ∗ R) from hR)) $$ Hst
  icases Hst' with ⟨Howes, HR⟩
  ihave Hdn' := (Entails.of_eq (dn0_eq m d)) $$ Hdn
  icases Hdn' with ⟨Htoks, Hrows⟩
  ihave Ha0 := (pointsTo_toks_join fullShare 2) $$ [Hdrop Htoks]
  · isplitl [Hdrop]; · iexact Hdrop
    iexact Htoks
  ihave Hv0 := (Entails.of_eq ((v0_rows (F := F) d (outArr m d)).trans (bigSep_wid (F := F) _)).symm) $$ Hrows
  -- the second kernel's region
  ihave Hlev := ((K (F := F)).ctx_levAts (EH := EH) (P := P m) κ) $$ Hctx
  iapply (hreg d _)
  isplitr [Hb Ha1 Hv1 Howes Hlev HG]
  rotate_left
  · isplitl [Hb]; · iexact Hb
    isplitl [Ha1 Hv1 Howes]
    · isplitl [Ha1]; · iexact Ha1
      isplitl [Hv1]; · iexact Hv1
      iexact Howes
    isplitl [Hlev]; · iexact Hlev
    iexact HG
  iintro ⟨Hb, Ha1, Hv1, Howes⟩
  ihave Hst := (Entails.of_eq hR.symm) $$ [Howes HR]
  · isplitl [Howes]; · iexact Howes
    iexact HR
  imodintro
  -- the host operations, over the ten buffers they touch
  ihave Hheld := (Entails.of_eq (show iprop((v0Loc d ↦{fullShare} outArr m d) ∗ (v1Loc d ↦{fullShare} clsOut (m (a1Loc d)))
      ∗ ((SparseCore.T d).loc main_cst ↦{fullShare} V0 m d cst') ∗ ((SparseCore.T d).loc main_v2 ↦{fullShare} V0 m d v2')
      ∗ ((SparseCore.T d).loc main_cst_0 ↦{fullShare} V0 m d cst0') ∗ ((SparseCore.T d).loc main_v3 ↦{fullShare} V0 m d v3')
      ∗ ((SparseCore.T d).loc main_v4 ↦{fullShare} V0 m d v4') ∗ ((SparseCore.T d).loc main_cst_1 ↦{fullShare} V0 m d cst1')
      ∗ ((SparseCore.T d).loc main_v5 ↦{fullShare} V0 m d v5') ∗ ((SparseCore.T d).loc main_v6 ↦{fullShare} V0 m d v6'))
      = (held (SparseCore.T d) S10 (V2 m d) : sProp 𝕄) from by
    rw [held_S10, V2_v0, V2_v1, V2_of_ne m d cst' (by decide) (by decide), V2_of_ne m d v2' (by decide) (by decide),
      V2_of_ne m d cst0' (by decide) (by decide), V2_of_ne m d v3' (by decide) (by decide), V2_of_ne m d v4' (by decide) (by decide),
      V2_of_ne m d cst1' (by decide) (by decide), V2_of_ne m d v5' (by decide) (by decide), V2_of_ne m d v6' (by decide) (by decide)])) $$ [Hv0 Hv1 Hcst Hv2 Hcst0 Hv3 Hv4 Hcst1 Hv5 Hv6]
  · isplitl [Hv0]; · iexact Hv0
    isplitl [Hv1]; · iexact Hv1
    isplitl [Hcst]; · iexact Hcst
    isplitl [Hv2]; · iexact Hv2
    isplitl [Hcst0]; · iexact Hcst0
    isplitl [Hv3]; · iexact Hv3
    isplitl [Hv4]; · iexact Hv4
    isplitl [Hcst1]; · iexact Hcst1
    isplitl [Hv5]; · iexact Hv5
    iexact Hv6
  iapply (wp_hlo_within 𝒱 (SparseCore.T d) none Set.univ (op := op1) (S := S10) op1_sub (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S10) op2_sub (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S10) op3_sub (V := W2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S10) op4_sub (V := W3 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S10) op5_sub (V := W4 m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := S10) op6_sub (V := W5 m d)) $$ [Hb Hheld]
  · isplitl [Hb]; · iexact Hb
    iexact Hheld
  iintro ⟨Hb, Hheld⟩
  rw [wp_ret]; imodintro
  iapply (wp_hlo_within 𝒱 (SparseCore.T d) none Set.univ (op := op7) (S := S10) op7_sub (V := W6 m d)) $$ [Hb Hheld]
  · isplitl [Hb]; · iexact Hb
    iexact Hheld
  iintro ⟨Hb, Hheld⟩
  rw [wp_ret]; imodintro
  iapply (wp_hlo_within 𝒱 (SparseCore.T d) none Set.univ (op := op8) (S := S10) op8_sub (V := W7 m d)) $$ [Hb Hheld]
  · isplitl [Hb]; · iexact Hb
    iexact Hheld
  iintro ⟨Hb, Hheld⟩
  rw [wp_ret]; imodintro
  ihave Hh := (Entails.of_eq (held_S10 (F := F) d ((op8 : HloOp τ sig (Elt F)).result (W7 m d)))) $$ Hheld
  icases Hh with ⟨-, -, -, -, -, Hv3, -, -, Hv5, Hv6⟩
  imodintro
  isplitl [Hst]; · iexact Hst
  rw [e6, e3, e5]
  isplitl [Hv6]; · iexact Hv6
  isplitl [Hv3]; · iexact Hv3
  isplitl [Hv5]; · iexact Hv5
  isplitl [Ha0]; · iexact Ha0
  iexact Ha1

end Cert.Proof.KernelIdeal

end
-- ==== Proof.Final.lean ====
/-
  The run of the whole program: the launch theorem of a SparseCore program applied to the task's proof, the split
  of a core's operands among its tasks, @main's proof and the launch element; what the final memory then holds.
-/
import proofs.«219810_g10299331576301_week1_w1_912_40_alg».proof.Proof.Main

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## What the final memory holds -/

/-- The three results at the host operations' functions of the two kernels' arrays, the arguments unchanged. -/
def fq (d : Dev nD) (s' : Phys nD τ sig (Elt F)) : Prop :=
  s'.mem.mem ((SparseCore.T d).loc main_v6) = totOf (outArr m d) (clsOut (m (a1Loc d)))
  ∧ s'.mem.mem ((SparseCore.T d).loc main_v3) = locOf (outArr m d)
  ∧ s'.mem.mem ((SparseCore.T d).loc main_v5) = clsOf (clsOut (m (a1Loc d)))
  ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H6, H3, H5, H0, H1⟩, HSI⟩
  ihave H := (persistent_entails_right (SI_pointsTo_agree (st := s') (ℓ := (SparseCore.T d).loc main_v6) (I := Finset.univ) (q := fullShare)
    (f := totOf (outArr m d) (clsOut (m (a1Loc d)))))) $$ [HSI H6]
  · isplitl [HSI] <;> iassumption
  icases H with ⟨%h6, HSI, -⟩
  ihave H := (persistent_entails_right (SI_pointsTo_agree (st := s') (ℓ := (SparseCore.T d).loc main_v3) (I := Finset.univ) (q := fullShare)
    (f := locOf (outArr m d)))) $$ [HSI H3]
  · isplitl [HSI] <;> iassumption
  icases H with ⟨%h3, HSI, -⟩
  ihave H := (persistent_entails_right (SI_pointsTo_agree (st := s') (ℓ := (SparseCore.T d).loc main_v5) (I := Finset.univ) (q := fullShare)
    (f := clsOf (clsOut (m (a1Loc d)))))) $$ [HSI H5]
  · isplitl [HSI] <;> iassumption
  icases H with ⟨%h5, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (SI_pointsTo_agree (st := s') (ℓ := a1Loc d) (I := Finset.univ) (q := fullShare) (f := m (a1Loc d))) $$ [HSI H1]
  · isplitl [HSI] <;> iassumption
  icases H with %h1
  ipureintro
  exact ⟨funext fun i => h6 i (Finset.mem_univ i), funext fun i => h3 i (Finset.mem_univ i), funext fun i => h5 i (Finset.mem_univ i),
    funext fun i => h0 i (Finset.mem_univ i), funext fun i => h1 i (Finset.mem_univ i)⟩

/-- The claim's reading of the final memory. -/
def QC : PUnit × MemSt nD τ sig (Elt F) → Prop := fun r => ∀ c : Dev nD,
  r.2.mem ((SparseCore.T c).loc main_v6) = totOf (outArr m c) (clsOut (m (a1Loc c)))
  ∧ r.2.mem ((SparseCore.T c).loc main_v3) = locOf (outArr m c)
  ∧ r.2.mem ((SparseCore.T c).loc main_v5) = clsOf (clsOut (m (a1Loc c)))
  ∧ r.2.mem (a0Loc c) = m (a0Loc c) ∧ r.2.mem (a1Loc c) = m (a1Loc c)

end Cert.Proof.KernelIdeal

end
-- ==== Proof.LaunchElem.lean ====
/-
  The launch element of the ghost state, and what it funds. The ghost state is a triple: the launch handshakes' rounds,
  the rounds of the TensorCore pipeline's staging cells, and the counters of the vector subcores' own local copies. Its
  launch element is the handshakes' launch element, the staging cells' launch element, and the unit of the counters.
  Owning it gives the handshakes' element as it is, and, through the funding of the staging cells, each device's cells'
  ghost state and duty tokens; the counters' unit is dropped. No thread is handed anything else.
-/
import proofs.«219810_g10299331576301_week1_w1_912_40_alg».proof.Proof.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The one admissible contents of each pipeline's (empty) prefetched tables. -/
abbrev admX : (p : Fin 1) → (pcfgs (F := F) p).Adm := fun p => (cfgs p).toPCfg_adm
/-- The pipelines at those contents: the printed configurations again. -/
abbrev pcfgX : Fin 1 → Pipeline.Cfg sig Λ₀ := Pipeline.pin (pcfgs (F := F)) admX

/-- The staging cells of the pipelines at those contents are pairwise distinct. -/
theorem cellOf_injX : Function.Injective (Pipeline.cellOf (nD := nD) (τ := τ) (pcfgX (F := F))) := cellOf_inj

/-- What device d is dealt for the TensorCore pipeline: its staging cells' ghost state and its duty tokens. -/
def Gd (d : Dev nD) : sProp 𝕄 :=
  iprop(Pipeline.cellsGhost (pcfgX (F := F)) EP 0 d ∗ Pipeline.toksInit (pcfgX (F := F)) EP 0 d)

/-- The launch element. -/
def u₀ : UU :=
  (initOf (K (F := F)).hsCells (K (F := F)).hsToks,
    (initOf (Pipeline.cells (pcfgX (F := F)) cellOf_injX) (Pipeline.launchToks (pcfgX (F := F)) cellOf_injX), 1))

/-- Owning a triple of the ghost state is owning its first two components through their embeddings. -/
theorem ownU_split (a : UH) (b : UP) (c : Counters) :
    (ownU ((a, (b, c)) : UU) : sProp 𝕄) ⊢ iprop(BI.own (EH a) ∗ BI.own (EP b)) := by
  iintro Hu
  ihave H := (ownU_pair a (b, c)) $$ Hu
  icases H with ⟨HH, HR⟩
  ihave H2 := (own_pair_emb (embR : Emb (UP × Counters) 𝕄) b c) $$ HR
  icases H2 with ⟨HP, -⟩
  isplitl [HH]; · iexact HH
  iexact HP

/-- The devices' shares of the pipeline's ghost state, as the funding gives them. -/
theorem Gd_eq :
    (bigSep Finset.univ fun d : Dev nD => Gd (F := F) d)
      = iprop((bigSep Finset.univ fun c : Dev nD => bigSep Finset.univ fun p : Fin 1 => Pipeline.cellsGhost (pcfgX (F := F)) EP p c)
          ∗ (bigSep Finset.univ fun c : Dev nD => bigSep Finset.univ fun p : Fin 1 => (Pipeline.toksInit (pcfgX (F := F)) EP p c : sProp 𝕄))) := by
  unfold Gd
  rw [bigSep_sep']
  congr 1
  · exact bigSep_congr fun c _ =>
      (bigSep_univ_of_subsingleton (0 : Fin 1) (Φ := fun p : Fin 1 => Pipeline.cellsGhost (pcfgX (F := F)) EP p c)).symm
  · exact bigSep_congr fun c _ =>
      (bigSep_univ_of_subsingleton (0 : Fin 1)
        (Φ := fun p : Fin 1 => (Pipeline.toksInit (pcfgX (F := F)) EP p c : sProp 𝕄))).symm

theorem bigSep_emp' {I : Type} (s : Finset I) : (bigSep s fun _ => iprop(emp)) = (iprop(emp) : sProp 𝕄) := bigSep_emp_const s

variable [FloatOps F]
variable (m : (ℓ : Loc nD τ sig) → Buf (Elt F) ℓ)

/-- THE LAUNCH ELEMENT funds the handshakes' element, every device's share of the pipeline's ghost state, and nothing
    for the threads. -/
theorem hu₀ : (ownU (u₀ (F := F)) : sProp 𝕄)
    ⊢ |={Set.univ}=> iprop(BI.own (EH (initOf (K (F := F)).hsCells (K (F := F)).hsToks))
        ∗ (bigSep Finset.univ fun d : Dev nD => Gd (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Pipeline.fund_ghost (pcfgX (F := F)) EP cellOf_injX) $$ HP with HG
  imodintro
  isplitl [HH]; · iexact HH
  isplitl [HG]
  · rw [Gd_eq]; iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KernelIdeal

end
-- ==== Proof.ClsBody.lean ====
/-
  The class-loss kernel's body at one grid point, on any whole staging memrefs.
  The body loads the two staged blocks A and B, computes the value of each (k1_pay2), and adds their sum to the word of
  the 1 x 1 accumulator block; where the grid coordinate is 0 it first stores the zero word into that block. So the
  block ends at  acc + (k1_pay2 A + k1_pay2 B),  acc the zero word at the first point and the block's word elsewhere.
-/
import proofs.«219810_g10299331576301_week1_w1_912_40_alg».proof.Proof.ClsVal
import Idealize.ShloMosaic.Lib.Pipeline.Frame
import Idealize.ShloMosaic.Lib.Pipeline.FrameBody
import Idealize.ShloMosaic.Lib.Pipeline.Value
import Idealize.ShloMosaic.Lib.WritesUnit
import Idealize.ShloMosaic.Lib.WholeRead

set_option maxRecDepth 16384

noncomputable section

namespace Cert.Proof.KernelIdeal

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The body's branch condition: the grid coordinate, as a 32-bit word, is zero. -/
abbrev cond1 (i : grid1.Coords) : Prop := (Scalar.cmpi .ne (Scalar.extui (Scalar.cmpi .eq (BitVec.ofNat 32 (i 0).val) 0#32)) 0#32) = 1#1

/-- The stored word: the second block's chain of operations is the first block's, so both halves are values of k1_pay2. -/
theorem pay1_eq (xA xB : Vec F S1x12328x81 .f32) (acc : Elt F .f32) :
    k1_pay1 (k1_pay2 xA) (k1_pay3 xB) (iota .tc S81x128 32 [0] iota_S81x128_d0_w32) (iota .tc S81x128 32 [1] iota_S81x128_d1_w32) k1_pay4 acc
      = Scalar.addf acc (Scalar.addf (k1_pay2 xA) (k1_pay2 xB)) := rfl

/-- A load of a whole memref through the full rectangle at offsets zero reads the memref's contents. -/
theorem readAt_whole_unread {κ : Kind} {sp : Space} {s : Shape} {e : EltTy} {m : Memref sig κ sp s e} (h : m.IsWhole) (X : s.Idx → Elt F e)
    {off : Fin s.rank → ℕ} (hoff : off = fun _ => 0) (inb : ∀ a, off a + s.size a ≤ s.size a) :
    View.readAt (Elt F) m.view (Rect.unit off s.size inb).toLoadRect (h.unread X) = X := by
  funext x
  rw [h.readAt_unread]
  exact congrFun (View.ld_unit_zero hoff inb X) x

theorem off3_zero : (![0, 0, 0] : Fin 3 → ℕ) = fun _ => 0 := by funext a; fin_cases a <;> rfl
theorem off2_zero : (![0, 0] : Fin 2 → ℕ) = fun _ => 0 := by funext a; fin_cases a <;> rfl

/-- Every index of the 1 x 1 block lies in the rectangle of sizes 1 x 1 at offsets 0, 0. -/
theorem mem1x1 (y : S1x1.Idx) : ∀ a : Fin S1x1.rank, (![0, 0] : Fin 2 → ℕ) a ≤ (y a).val ∧ (y a).val < (![0, 0] : Fin 2 → ℕ) a + S1x1.size a := by
  intro a
  have h := (y a).isLt
  have h0 : (![0, 0] : Fin 2 → ℕ) a = 0 := congrFun off2_zero a
  rw [h0]; omega

/-- The body at the first point (the coordinate is 0): the accumulator block, whatever it held, ends at zero + (value of A + value of B). -/
theorem clsBody_first (c : Dev nD) (i : grid1.Coords) (arg1 : Memref sig .tc .vmem S1x12328x81 .f32) (harg1 : arg1.IsWhole) (arg2 : Memref sig .tc .vmem S1x12328x81 .f32) (harg2 : arg2.IsWhole) (arg3 : Memref sig .tc .smem S1x1 .f32) (harg3 : arg3.IsWhole)
    (hc : cond1 i) (xA xB : Vec F S1x12328x81 .f32) (E : Set ℕ) (K : PUnit → sProp 𝕄) :
    iprop(owns (c.tc : Thread nD τ) arg1 fullShare xA ∗ owns (c.tc : Thread nD τ) arg2 fullShare xB ∗ (∃ d, owns (c.tc : Thread nD τ) arg3 fullShare d)
        ∗ (iprop(owns (c.tc : Thread nD τ) arg1 fullShare xA ∗ owns (c.tc : Thread nD τ) arg2 fullShare xB
              ∗ owns (c.tc : Thread nD τ) arg3 fullShare (fun _ => Scalar.addf (Scalar.ofBits .f32 0x00000000#32) (Scalar.addf (k1_pay2 xA) (k1_pay2 xB)))) -∗ K ⟨⟩))
      ⊢ wp frame (wpE (defs₀ (F := F)) 𝒱₀ (c.tc : Thread nD τ) none) E (cc1__cls_body i arg1 harg1 arg2 harg2 arg3 harg3) K := by
  simp only [cc1__cls_body_eq_skeleton]; unfold cc1__cls_body_skel
  simp only [k1_part1_eq_skeleton]; unfold k1_part1_skel
  unfold owns
  iintro ⟨⟨%f1, %hf1, H1⟩, ⟨%f2, %hf2, H2⟩, ⟨%d3, %f3, -, H3⟩, Hk⟩
  obtain rfl := harg1.eq_unread hf1
  obtain rfl := harg2.eq_unread hf2
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  iexists _; isplitr; swap; · iexact H3
  ipureintro
  funext y
  rw [View.read_writes_cons_unit arg3.view f3 inb_S1x1_S1x1_0_0 _ _ y rfl]
  sl_unfold_run_names
  rw [dif_pos (mem1x1 y), readAt_whole_unread harg1 xA off3_zero, readAt_whole_unread harg2 xB off3_zero]
  exact pay1_eq xA xB _

/-- The body at a later point (the coordinate is not 0): the accumulator block, holding acc, ends at acc + (value of A + value of B). -/
theorem clsBody_rest (c : Dev nD) (i : grid1.Coords) (arg1 : Memref sig .tc .vmem S1x12328x81 .f32) (harg1 : arg1.IsWhole) (arg2 : Memref sig .tc .vmem S1x12328x81 .f32) (harg2 : arg2.IsWhole) (arg3 : Memref sig .tc .smem S1x1 .f32) (harg3 : arg3.IsWhole)
    (hc : ¬ cond1 i) (xA xB : Vec F S1x12328x81 .f32) (acc : Elt F .f32) (E : Set ℕ) (K : PUnit → sProp 𝕄) :
    iprop(owns (c.tc : Thread nD τ) arg1 fullShare xA ∗ owns (c.tc : Thread nD τ) arg2 fullShare xB ∗ owns (c.tc : Thread nD τ) arg3 fullShare (fun _ => acc)
        ∗ (iprop(owns (c.tc : Thread nD τ) arg1 fullShare xA ∗ owns (c.tc : Thread nD τ) arg2 fullShare xB
              ∗ owns (c.tc : Thread nD τ) arg3 fullShare (fun _ => Scalar.addf acc (Scalar.addf (k1_pay2 xA) (k1_pay2 xB)))) -∗ K ⟨⟩))
      ⊢ wp frame (wpE (defs₀ (F := F)) 𝒱₀ (c.tc : Thread nD τ) none) E (cc1__cls_body i arg1 harg1 arg2 harg2 arg3 harg3) K := by
  simp only [cc1__cls_body_eq_skeleton]; unfold cc1__cls_body_skel
  simp only [k1_part1_eq_skeleton]; unfold k1_part1_skel
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  iexists _; isplitr; swap; · iexact H3
  ipureintro
  funext y
  rw [View.read_writes_cons_unit arg3.view _ inb_S1x1_S1x1_0_0 _ _ y rfl]
  sl_unfold_run_names
  rw [dif_pos (mem1x1 y), readAt_whole_unread harg1 xA off3_zero, readAt_whole_unread harg2 xB off3_zero, harg3.readAt_unread]
  exact pay1_eq xA xB _

end Cert.Proof.KernelIdeal

end
-- ==== Proof.ClsRegion.lean ====
/-
  The class-loss pallas_call as one kernel region of the main program: the proof data of its pipeline (what each
  staging buffer holds after the body at each grid point), the body obligation at every point, and the region's
  record: entered holding the second argument and the result array, left holding the second argument unchanged and the
  result array at the 16-fold accumulation.
-/
import proofs.«219810_g10299331576301_week1_w1_912_40_alg».proof.Proof.ClsBody
import Idealize.ShloMosaic.Lib.Pipeline.Frame
import Idealize.ShloMosaic.Lib.Pipeline.FrameBody
import Idealize.ShloMosaic.Lib.Pipeline.Value
import Idealize.ShloMosaic.Lib.WritesUnit
import Idealize.ShloMosaic.Lib.WholeRead

set_option maxRecDepth 16384

noncomputable section

namespace Cert.Proof.KernelIdeal

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- No prefetched table: the one admissible choice. -/
abbrev adm : (p : Fin 1) → (pcfgs (F := F) p).Adm := fun p => (cfgs p).toPCfg_adm

variable (m : (ℓ : Loc nD τ sig) → Buf (Elt F) ℓ)

/-- The second argument on device c, as the memory m holds it. -/
abbrev x1At (c : Dev nD) : S16x24656x81.Idx → Elt F .f32 := m (a1Loc c)

/-- A grid point as a number below 16. -/
def pt16 (t : Fin cfg1.N) : Fin 16 := ⟨t.val, lt_of_lt_of_eq t.isLt N_1⟩

/-- The proof data: the arrays as m holds them; after the body at point t the two input buffers hold the two halves of
    batch entry t and the accumulator block holds the sum over points 0..t; nothing owed, and the pairs the core's waits
    have recorded all at level at most 8; the second argument is read at the two halves of the full share, one per
    input window. -/
def dat1 (c : Dev nD) : Pipeline.Dat τ (Elt F) (HIx 1) ℕ UU ℕ cfg1 c where
  A w := m ((cfg1.win w).arr.view.loc (c.tc : Thread nD τ))
  after w t := match w with
    | ⟨0, _⟩ => clsBlock (x1At m c) (pt16 t) 0
    | ⟨1, _⟩ => clsBlock (x1At m c) (pt16 t) 1
    | ⟨2, _⟩ => fun _ => clsAcc (x1At m c) (t.val + 1)
  Φ _ := iprop(emp)
  q w := match w with
    | ⟨0, _⟩ => fullShare.left
    | ⟨1, _⟩ => fullShare.right
    | ⟨2, _⟩ => fullShare
  owed _ := 0
  recorded _ := {p | (K (F := F)).lev (SparseCore.T c, p.1) p.2 ≤ 8}

def pdats : (p : Fin 1) → (c : Dev nD) → Pipeline.Dat τ (Elt F) (HIx 1) ℕ UU ℕ (Pipeline.pin (pcfgs (F := F)) adm p) c
  | 0 => dat1 m

theorem after1_0 (c : Dev nD) (t : Fin cfg1.N) : (dat1 m c).after 0 t = clsBlock (x1At m c) (pt16 t) 0 := by dsimp only [dat1]
theorem after1_1 (c : Dev nD) (t : Fin cfg1.N) : (dat1 m c).after 1 t = clsBlock (x1At m c) (pt16 t) 1 := by dsimp only [dat1]
theorem after1_2 (c : Dev nD) (t : Fin cfg1.N) : (dat1 m c).after 2 t = fun _ => clsAcc (x1At m c) (t.val + 1) := by dsimp only [dat1]

/-- The grid is one axis of 16 points: a point's coordinate is its number. -/
theorem coords_val : ∀ t : Fin grid1.N, (grid1.coords t 0).val = t.val := by decide +kernel

/-- The branch is taken at point 0 only. -/
theorem hcond1 : ∀ t : Fin grid1.N, cond1 (grid1.coords t) ↔ t.val = 0 := by decide +kernel

/-- The block indices of the three windows at point t. -/
theorem index0 : ∀ t : Fin grid1.N, cc1_transform_0 (grid1.coords t) = ![t.val, 0, 0] := by decide +kernel
theorem index1 : ∀ t : Fin grid1.N, cc1_transform_1 (grid1.coords t) = ![t.val, 1, 0] := by decide +kernel

theorem blockOf0 (c : Dev nD) (t : Fin cfg1.N) : (dat1 m c).blockOf 0 t = clsBlock (x1At m c) (pt16 t) 0 := by
  funext j
  unfold Pipeline.Dat.blockOf
  rw [View.read_apply]
  show x1At m c ((Memref.whole main_arg1).view.emb (((cfg1.win 0).rect t).emb j)) = _
  unfold clsBlock
  congr 1
  funext a
  apply Fin.ext
  have hi : (cfg1.win 0).index t = ![t.val, 0, 0] := index0 t
  have hj0 : (j 0).val < 1 := (j 0).isLt
  have key : ∀ a : Fin 3, (((cfg1.win 0).rect t).emb j a).val = (ValueIdx.ix3 (pt16 t) (⟨(0 : Fin 2).val * 12328 + (j 1).val, by have h1 : (j 1).val < 12328 := (j 1).isLt; have h2 := (0 : Fin 2).isLt; omega⟩ : Fin 24656) ((j 2 : Fin 81)) a).val := by
    intro a
    rw [(cfg1.win 0).rect_emb_val t j a, hi]
    fin_cases a
    · show t.val * 1 + (j 0).val = t.val; omega
    · show 0 * 12328 + (j 1).val = 0 * 12328 + (j 1).val; rfl
    · show 0 * 81 + (j 2).val = (j 2).val; omega
  exact key a

theorem blockOf1 (c : Dev nD) (t : Fin cfg1.N) : (dat1 m c).blockOf 1 t = clsBlock (x1At m c) (pt16 t) 1 := by
  funext j
  unfold Pipeline.Dat.blockOf
  rw [View.read_apply]
  show x1At m c ((Memref.whole main_arg1).view.emb (((cfg1.win 1).rect t).emb j)) = _
  unfold clsBlock
  congr 1
  funext a
  apply Fin.ext
  have hi : (cfg1.win 1).index t = ![t.val, 1, 0] := index1 t
  have hj0 : (j 0).val < 1 := (j 0).isLt
  have key : ∀ a : Fin 3, (((cfg1.win 1).rect t).emb j a).val = (ValueIdx.ix3 (pt16 t) (⟨(1 : Fin 2).val * 12328 + (j 1).val, by have h1 : (j 1).val < 12328 := (j 1).isLt; have h2 := (1 : Fin 2).isLt; omega⟩ : Fin 24656) ((j 2 : Fin 81)) a).val := by
    intro a
    rw [(cfg1.win 1).rect_emb_val t j a, hi]
    fin_cases a
    · show t.val * 1 + (j 0).val = t.val; omega
    · show 1 * 12328 + (j 1).val = 1 * 12328 + (j 1).val; rfl
    · show 0 * 81 + (j 2).val = (j 2).val; omega
  exact key a

/-- Each input window's current staging buffer holds its half of batch entry t at every point. -/
theorem before1_0 (c : Dev nD) (t : Fin cfg1.N) (d) : (dat1 m c).before 0 t d = clsBlock (x1At m c) (pt16 t) 0 :=
  ((dat1 m c).before_in_eq_fetched 0 rfl (fun _ => rfl) (fun _ _ _ => rfl) (fun t => by rw [after1_0, blockOf0]; try rfl) t d).trans
    (by unfold Pipeline.Dat.fetched; rw [blockOf0]; try rfl)
theorem before1_1 (c : Dev nD) (t : Fin cfg1.N) (d) : (dat1 m c).before 1 t d = clsBlock (x1At m c) (pt16 t) 1 :=
  ((dat1 m c).before_in_eq_fetched 1 rfl (fun _ => rfl) (fun _ _ _ => rfl) (fun t => by rw [after1_1, blockOf1]; try rfl) t d).trans
    (by unfold Pipeline.Dat.fetched; rw [blockOf1]; try rfl)

/-- The accumulator block at the first point holds whatever the buffer held; -/
theorem before1_2_first (c : Dev nD) (t : Fin cfg1.N) (h0 : t.val = 0) (d) : (dat1 m c).before 2 t d = d :=
  (dat1 m c).before_out_reset 2 rfl t (.inl h0) d
/-- at a later point what the body left at the point before: the block is written back after the last point only. -/
theorem before1_2_rest (c : Dev nD) (t : Fin cfg1.N) (h0 : t.val ≠ 0) (d) : (dat1 m c).before 2 t d = fun _ => clsAcc (x1At m c) t.val := by
  have hN : t.val < 16 := lt_of_lt_of_eq t.isLt N_1
  rw [Pipeline.Dat.before_out_kept _ 2 rfl t h0 (Bool.eq_false_iff.mpr fun h => by have := (flush1_2 _).mp h; dsimp only at this; omega)
    (fun _ => rfl) (fun _ _ => rfl), after1_2]
  have e : t.val - 1 + 1 = t.val := by omega
  funext _
  show clsAcc (x1At m c) (t.val - 1 + 1) = _
  rw [e]

/-- One point's addition. -/
theorem acc_step (c : Dev nD) (t : Fin cfg1.N) :
    clsAcc (x1At m c) (t.val + 1) = Scalar.addf (clsAcc (x1At m c) t.val)
      (Scalar.addf (k1_pay2 (clsBlock (x1At m c) (pt16 t) 0)) (k1_pay2 (clsBlock (x1At m c) (pt16 t) 1))) :=
  clsAcc_succ _ _ (lt_of_lt_of_eq t.isLt N_1)

/-- The body at any point: the inputs hold their blocks, the closed form of the branch says which case the point is in,
    the accumulator block holds what the point before left (or anything, at the first); the core owes nothing throughout. -/
theorem sound_body (c : Dev nD) (t : Fin cfg1.N) :
    iprop((dat1 m c).Φ t.castSucc ∗ (dat1 m c).owesAt (none : HIx 1) t.castSucc
        ∗ (∃ d, owns (c.tc : Thread nD τ) (st1_0 t) fullShare ((dat1 m c).before 0 t d))
        ∗ (∃ d, owns (c.tc : Thread nD τ) (st1_1 t) fullShare ((dat1 m c).before 1 t d))
        ∗ (∃ d, owns (c.tc : Thread nD τ) (st1_2 t) fullShare ((dat1 m c).before 2 t d)))
      ⊢ wp frame (wpE (defs₀ (F := F)) 𝒱₀ (c.tc : Thread nD τ) none) Set.univ (bodyAt1 t) (fun _ =>
          iprop((dat1 m c).Φ t.succ ∗ (dat1 m c).owesAt (none : HIx 1) t.succ
            ∗ owns (c.tc : Thread nD τ) (st1_0 t) fullShare ((dat1 m c).after 0 t)
            ∗ owns (c.tc : Thread nD τ) (st1_1 t) fullShare ((dat1 m c).after 1 t)
            ∗ owns (c.tc : Thread nD τ) (st1_2 t) fullShare ((dat1 m c).after 2 t))) := by
  simp only [before1_0, before1_1]
  rw [show (dat1 m c).Φ t.succ = (dat1 m c).Φ t.castSucc from rfl,
    show (dat1 m c).owesAt (none : HIx 1) t.succ = (dat1 m c).owesAt (none : HIx 1) t.castSucc from rfl,
    after1_0, after1_1, after1_2, acc_step]
  by_cases h0 : t.val = 0
  · simp only [before1_2_first m c t h0]
    have hz : clsAcc (x1At m c) t.val = Scalar.ofBits .f32 0x00000000#32 := by rw [h0]; rfl
    rw [hz]
    iintro ⟨HΦ, Ho, ⟨%d0, H0⟩, ⟨%d1, H1⟩, ⟨%d2, H2⟩⟩
    iapply (clsBody_first c (grid1.coords t) _ _ _ _ _ _ ((hcond1 t).mpr h0) (clsBlock (x1At m c) (pt16 t) 0) (clsBlock (x1At m c) (pt16 t) 1) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before1_2_rest m c t h0]
    iintro ⟨HΦ, Ho, ⟨%d0, H0⟩, ⟨%d1, H1⟩, ⟨%d2, H2⟩⟩
    iapply (clsBody_rest c (grid1.coords t) _ _ _ _ _ _ (fun h => h0 ((hcond1 t).mp h)) (clsBlock (x1At m c) (pt16 t) 0) (clsBlock (x1At m c) (pt16 t) 1) (clsAcc (x1At m c) t.val) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat1 (F := F) m c) (defs₀ (F := F)) 𝒱₀ (none : HIx 1) Set.univ := fun t => by
  rw [bigSep_W1, bigSep_W1]
  exact sound_body m c t

/-! ## The region -/

/-- What the TensorCore owes while the region runs: nothing, every pair its waits have recorded at level at most 8. -/
abbrev owesTc (c : Dev nD) : sProp 𝕄 :=
  iprop(∃ W, ⌜(K (F := F)).WBelow (SparseCore.T c) W 8⌝ ∗ owes (SparseCore.T c) (0 : CellTallies nD τ sig (HIx 1)) W)

/-- The thread state the region is entered from: the second argument and the result array whole, as m holds them. -/
def clsPre (c : Dev nD) : sProp 𝕄 :=
  iprop((a1Loc c ↦{fullShare} m (a1Loc c)) ∗ (v1Loc c ↦{fullShare} m (v1Loc c)) ∗ owesTc c)

/-- The thread state it leaves: the second argument as it was, the result array at the 16-fold accumulation. -/
def clsPost (c : Dev nD) : sProp 𝕄 :=
  iprop((a1Loc c ↦{fullShare} m (a1Loc c)) ∗ (v1Loc c ↦{fullShare} (clsOut (x1At m c) : Buf (Elt F) (v1Loc c))) ∗ owesTc c)

/-- The pipeline's arrays: the second argument at the two halves of the full share, the result array whole. -/
theorem arrays_eq1 (c : Dev nD) (Fa) :
    ((pdats (F := F) m 0 c).arrays Fa : sProp 𝕄)
      = iprop((a1Loc c ↦{fullShare.left} Fa 0) ∗ (a1Loc c ↦{fullShare.right} Fa 1) ∗ (v1Loc c ↦{fullShare} Fa 2)) := by
  unfold Pipeline.Dat.arrays
  rw [bigSep_W1, (arr_whole1 0).set_eq_univ, (arr_whole1 2).set_eq_univ]
  rfl

/-- No prefetched table is held. -/
theorem prefHeld1 (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld; rw [show (Finset.univ : Finset (Fin 0)) = ∅ from rfl, BI.bigSep_empty]

/-- The inputs' array is never written. -/
theorem arrAt_a0 (c : Dev nD) (n : ℕ) : (pdats (F := F) m 0 c).arrAt 0 n = m (a1Loc c) := (dat1 (F := F) m c).arrAt_in 0 rfl _
theorem arrAt_a1 (c : Dev nD) (n : ℕ) : (pdats (F := F) m 0 c).arrAt 1 n = m (a1Loc c) := (dat1 (F := F) m c).arrAt_in 1 rfl _

/-- The result array after the one write-back (after the last point) holds the accumulation. -/
theorem arrAt_v1 (c : Dev nD) : (pdats (F := F) m 0 c).arrAt 2 (Pipeline.pin (pcfgs (F := F)) adm 0).N = (clsOut (x1At m c) : Buf (Elt F) (v1Loc c)) :=
  (dat1 (F := F) m c).arrAt_eq_of_cover 2 (clsOut (x1At m c))
    (fun t hf => by
      have ht : t.val = 15 := by have h1 := (flush1_2 t).mp hf; have h2 := lt_of_lt_of_eq t.isLt N_1; omega
      funext y
      rw [View.read_apply]
      show clsAcc (x1At m c) (t.val + 1) = clsAcc (x1At m c) 16
      rw [ht])
    (fun i => ⟨t1_15, (flush1_2 _).mpr rfl, by
      revert i
      show ∀ i : S1x1.Idx, i ∈ ((cfg1.win 2).blk t1_15).view.set
      decide +kernel⟩)

/-- THE REGION: the two arrays into the pipeline, nothing in its invariant, nothing bypassing. -/
def clsRegion : Pipeline.RegionSeg (pcfgs (F := F)) adm (pdats m) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody c := (body_obligation m c).loose
  hwaits := Pipeline.hwaits_of_owed_zero _ _ _ _ (K (F := F)).L (K (F := F)).lev 0 fun _ _ => rfl
  pre := clsPre m
  post := clsPost m
  X _ := iprop(emp)
  Y _ := iprop(emp)
  Z _ := iprop(emp)
  hentry c := by
    rw [Pipeline.ownSems0_none, arrays_eq1, prefHeld1]
    unfold clsPre
    iintro ⟨⟨Ha, Hv, ⟨%W, %hW, HO⟩⟩, -, -⟩
    ihave Hs := (pointsTo_share (PosShare.mem_left_op_right fullShare)).1 $$ Ha
    icases Hs with ⟨Hl, Hr⟩
    imodintro
    isplitl [Hl Hr Hv]
    · isplitl [Hl]; · iexact Hl
      isplitl [Hr]; · iexact Hr
      iexact Hv
    isplitr; · iempintro
    isplitl [HO]
    · unfold Pipeline.Dat.owesAt Pipeline.owesWithin
      iexists W; isplitr; · ipureintro; exact fun p hp => Or.inl (hW p (Finset.mem_coe.mp hp))
      iexact HO
    isplitr <;> iempintro
  hin c := by iintro -; iempintro
  hout c := by
    rw [Pipeline.ownSems0_none, scopedRest1_eq]
    iintro -; isplitr; · iempintro
    isplitr <;> iempintro
  hexit c := by
    rw [arrays_eq1, arrAt_a0, arrAt_a1, arrAt_v1]
    unfold clsPost
    iintro ⟨⟨Hl, Hr, Hv⟩, HO, -, -⟩
    imodintro
    isplitl [Hl Hr]
    · iapply (pointsTo_share (PosShare.mem_left_op_right fullShare)).2
      isplitl [Hl]; · iexact Hl
      iexact Hr
    isplitl [Hv]; · iexact Hv
    unfold Pipeline.Dat.owesAt Pipeline.owesWithin
    icases HO with ⟨%W, %hW, HO⟩
    iexists W; isplitr
    · ipureintro
      intro p hp
      rcases hW (Finset.mem_coe.mpr hp) with h | ⟨w, s, rfl⟩
      · exact h
      · exact Nat.zero_le _
    iexact HO

theorem clsRegion_pre : (clsRegion m).pre = clsPre m := rfl
theorem clsRegion_post : (clsRegion m).post = clsPost m := rfl

set_option backward.isDefEq.respectTransparency.types false in
set_option maxHeartbeats 1000000 in
/-- The region's rule: from the boundary, the entry state, the level facts and the staging cells' ghost state, the call of
    the pipeline's entry runs to the boundary and the exit state. -/
theorem cls_region_rule_lib (d : Dev nD) (Φ : PUnit → sProp 𝕄) :
    iprop((iprop(boundary (d.tc : Thread nD τ) ∗ clsPost m d) -∗ wp frame (wpE (Pipeline.defs (pcfgs (F := F)) defs₀) 𝒱₀.lift (d.tc : Thread nD τ) none) Set.univ (.ret ⟨⟩) Φ)
        ∗ boundary (d.tc : Thread nD τ) ∗ clsPre m d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) 𝒱₀.lift (d.tc : Thread nD τ) none) Set.univ (.op (.customCall (Pipeline.entry 0) ()) fun _ => .ret ⟨⟩) Φ := by
  have h := Pipeline.RegionSeg.wp (pcfgs (F := F)) adm (pdats m) (none : HIx 1) cellOf_inj EP defs₀ 𝒱₀ (K (F := F)).L (K (F := F)).lev (clsRegion m) d none
    (fun _ h => by cases h) (fun _ => .ret ⟨⟩) Φ
  rw [clsRegion_pre, clsRegion_post] at h
  exact h

set_option maxHeartbeats 1000000 in
/-- The same, spelt over the main program's thread, body table and variants. -/
theorem cls_region_rule (d : Dev nD) (Φ : PUnit → sProp 𝕄) :
    iprop((iprop(boundary (SparseCore.T d) ∗ clsPost m d) -∗ wp frame (wpE (D (F := F)) 𝒱 (SparseCore.T d) none) Set.univ (.ret ⟨⟩) Φ)
        ∗ boundary (SparseCore.T d) ∗ clsPre m d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d) none) Set.univ (.op (.customCall (Pipeline.entry 0) ()) fun _ => .ret ⟨⟩) Φ :=
  cls_region_rule_lib m d Φ

end Cert.Proof.KernelIdeal

end
-- ==== Proof.TileSetup.lean ====
/-
  One vector subcore's task: its thread, its three scoped DMA semaphores and two scratch buffers taken out of the
  thread's scoped resources, the arrays as the task's memrefs address them, and the row of the 32 x 16 result array
  the task writes.
-/
import proofs.«219810_g10299331576301_week1_w1_912_40_alg».proof.Proof.TileVal

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)

/-- The thread of the task at grid coordinates L = (core, subcore). -/
abbrev cV (L : grid0.Coords) : Fin τ.nSC := (L 0).castLE hcore0
abbrev jV (L : grid0.Coords) : Fin τ.nSub := (L 1).castLE hsub0

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)

/-- The three scoped semaphores are among the subcore's own: they are them, and the rest. -/
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped2.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as the task's memrefs address them -/

abbrev a0V : Memref sig .scVector .hbm S16x24656x4 .f32 := Memref.whole main_arg0_scv
abbrev o0V : Memref sig .scVector .hbm S32x16 .f32 := Memref.whole main_v0_scv
abbrev s0V : Memref sig .scVector .vmem S512x4 .f32 := Memref.whole cc0_scratch0
abbrev s1V : Memref sig .scVector .vmem S16 .f32 := Memref.whole cc0_scratch1

/-- The row of the result array the task writes, as the task slices it. -/
abbrev oRect (L : grid0.Coords) : Rect S32x16 := Rect.unit (s := S32x16) (k0_off3 L) S1x16.size (k0_off3_inb L)
abbrev oRow (L : grid0.Coords) : Memref sig .scVector .hbm S16 .f32 :=
  ((o0V : Memref sig .scVector .hbm S32x16 .f32).slice (oRect L) (fun _ => rfl)).squeeze S16 squeezes_S1x16_S16
/-- The indices of that row. -/
abbrev rowSet (L : grid0.Coords) : Finset S32x16.Idx := ((o0V : Memref sig .scVector .hbm S32x16 .f32).view.slice (oRect L)).set

theorem set_oRow : (oRow L).view.set = rowSet L := by
  show (((o0V : Memref sig .scVector .hbm S32x16 .f32).view.slice (oRect L)).reshape S16 squeezes_S1x16_S16.numel_eq).set = _
  rw [View.set_reshape]

/-- The row's indices are those whose first coordinate is 2 s + c. -/
theorem mem_rowSet (j : S32x16.Idx) : j ∈ rowSet L ↔ (j 0).val = 2 * (L 1).val + (L 0).val := by
  show j ∈ ((View.whole main_v0_scv : View sig .scVector _ _ _).slice (oRect L)).set ↔ _
  rw [View.set_slice_whole, Rect.mem_set_unit, k0_off3_eq]
  constructor
  · intro h; have h0 := h 0
    simp only [Matrix.cons_val_zero] at h0
    have : S1x16.size 0 = 1 := rfl
    omega
  · intro h a
    match a with
    | 0 =>
      simp only [Matrix.cons_val_zero]
      have : S1x16.size 0 = 1 := rfl
      omega
    | 1 =>
      have h1 : (j 1).val < 16 := (j 1).isLt
      have : S1x16.size 1 = 16 := rfl
      simp only [Matrix.cons_val_one, Matrix.cons_val_zero]
      omega

theorem pts_a0 (q : PosShare TreeShare) (f : Buf (Elt F) (a0Loc d)) :
    ((a0V : Memref sig .scVector .hbm S16x24656x4 .f32).view.loc (V d (cV L) (jV L)) ↦{q} f : sProp 𝕄) = a0Loc d ↦{q} f := by
  simp only [Memref.view_whole, View.set_whole]
theorem pts_oRow (f : Buf (Elt F) (v0Loc d)) :
    ((oRow L).view.loc (V d (cV L) (jV L)) ↦[(oRow L).view.set]{fullShare} f : sProp 𝕄) = v0Loc d ↦[rowSet L]{fullShare} f := by
  rw [set_oRow]
theorem pts_s0 (f : Buf (Elt F) ((V d (cV L) (jV L)).loc cc0_scratch0)) :
    ((s0V : Memref sig .scVector .vmem S512x4 .f32).view.loc (V d (cV L) (jV L)) ↦[(s0V : Memref sig .scVector .vmem S512x4 .f32).view.set]{fullShare} f : sProp 𝕄)
      = (V d (cV L) (jV L)).loc cc0_scratch0 ↦{fullShare} f := by
  simp only [Memref.view_whole, View.set_whole]
theorem pts_s0_univ (f : Buf (Elt F) ((V d (cV L) (jV L)).loc cc0_scratch0)) :
    ((s0V : Memref sig .scVector .vmem S512x4 .f32).view.loc (V d (cV L) (jV L)) ↦{fullShare} f : sProp 𝕄) = (V d (cV L) (jV L)).loc cc0_scratch0 ↦{fullShare} f := rfl
theorem pts_s0_access (f : Buf (Elt F) ((V d (cV L) (jV L)).loc cc0_scratch0)) :
    (((s0V : Memref sig .scVector .vmem S512x4 .f32).access (.whole S512x4)).loc (V d (cV L) (jV L)) ↦{fullShare} f : sProp 𝕄) = (V d (cV L) (jV L)).loc cc0_scratch0 ↦{fullShare} f := rfl
theorem pts_s1 (f : Buf (Elt F) ((V d (cV L) (jV L)).loc cc0_scratch1)) :
    ((s1V : Memref sig .scVector .vmem S16 .f32).view.loc (V d (cV L) (jV L)) ↦[(s1V : Memref sig .scVector .vmem S16 .f32).view.set]{fullShare} f : sProp 𝕄)
      = (V d (cV L) (jV L)).loc cc0_scratch1 ↦{fullShare} f := by
  simp only [Memref.view_whole, View.set_whole]
theorem pts_s1_univ (f : Buf (Elt F) ((V d (cV L) (jV L)).loc cc0_scratch1)) :
    ((s1V : Memref sig .scVector .vmem S16 .f32).view.loc (V d (cV L) (jV L)) ↦{fullShare} f : sProp 𝕄) = (V d (cV L) (jV L)).loc cc0_scratch1 ↦{fullShare} f := rfl

end Tile

end Cert.Proof.KernelIdeal

end
-- ==== Proof.TileIdx.lean ====
/-
  Pure facts about the task's index vectors and what the indexed loads read.
  Lane x of the row-index vector of gather number 4 t + u is 4 (4 t + u) + x / 4, of the column-index vector x % 4;
  both are inside the 512 x 4 scratch at every trip; and an indexed load of a scratch whose first R rows hold the rows of
  batch entry s from row `base` on is the gather of the value function.
-/
import proofs.«219810_g10299331576301_week1_w1_912_40_alg».proof.Proof.TileVal

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The index vectors -/

theorem pay3_toNat : ∀ x : S16.Idx, (k0_pay3 x).toNat = (x 0).val % 4 := by decide +kernel

theorem pay5_toNat : ∀ (t : Fin k0_t2_loop.trips) (x : S16.Idx), (k0_pay5 t x).toNat = 4 * (4 * t.val + 0) + (x 0).val / 4 := by decide +kernel
theorem pay7_toNat : ∀ (t : Fin k0_t2_loop.trips) (x : S16.Idx), (k0_pay7 t x).toNat = 4 * (4 * t.val + 1) + (x 0).val / 4 := by decide +kernel
theorem pay9_toNat : ∀ (t : Fin k0_t2_loop.trips) (x : S16.Idx), (k0_pay9 t x).toNat = 4 * (4 * t.val + 2) + (x 0).val / 4 := by decide +kernel
theorem pay11_toNat : ∀ (t : Fin k0_t2_loop.trips) (x : S16.Idx), (k0_pay11 t x).toNat = 4 * (4 * t.val + 3) + (x 0).val / 4 := by decide +kernel
theorem pay14_toNat : ∀ (t : Fin k0_t3_loop.trips) (x : S16.Idx), (k0_pay14 t x).toNat = 4 * (4 * t.val + 0) + (x 0).val / 4 := by decide +kernel
theorem pay16_toNat : ∀ (t : Fin k0_t3_loop.trips) (x : S16.Idx), (k0_pay16 t x).toNat = 4 * (4 * t.val + 1) + (x 0).val / 4 := by decide +kernel
theorem pay18_toNat : ∀ (t : Fin k0_t3_loop.trips) (x : S16.Idx), (k0_pay18 t x).toNat = 4 * (4 * t.val + 2) + (x 0).val / 4 := by decide +kernel
theorem pay20_toNat : ∀ (t : Fin k0_t3_loop.trips) (x : S16.Idx), (k0_pay20 t x).toNat = 4 * (4 * t.val + 3) + (x 0).val / 4 := by decide +kernel

theorem trips2 : k0_t2_loop.trips = 32 := by decide +kernel
theorem trips3 : k0_t3_loop.trips = 5 := by decide +kernel
theorem trips1 : k0_t1_loop.trips = 24 := by decide +kernel

/-- An index pair whose rows are 4 j + x / 4 and whose columns are x % 4 lies inside the 512 x 4 scratch when the four
    rows do. -/
theorem idx_inb (r c : IVec S16 32) (j : ℕ) (hj : 4 * j + 4 ≤ 512) (h0 : ∀ x, (r x).toNat = 4 * j + (x 0).val / 4)
    (h1 : ∀ x, (c x).toNat = (x 0).val % 4) : ∀ a x, ((![r, c] : Fin 2 → IVec S16 32) a x).toNat < S512x4.size a := by
  intro a x
  have hx : (x 0).val < 16 := (x 0).isLt
  match a with
  | 0 => show (r x).toNat < 512; rw [h0]; omega
  | 1 => show (c x).toNat < 4; rw [h1]; omega

/-! ## What the indexed loads read -/

/-- The first R rows of a 512 x 4 scratch hold the rows of batch entry s of the array from row `base` on. -/
def Holds (x0 : S16x24656x4.Idx → Elt F .f32) (s : Fin 16) (base R : ℕ) (f : Vec F S512x4 .f32) : Prop :=
  ∀ i : S512x4.Idx, (i 0).val < R → f i = rowAt x0 s (base + (i 0).val) ⟨(i 1).val, (i 1).isLt⟩

/-- The indexed load of such a scratch at rows 4 j + x / 4, columns x % 4 is gather number j of the array. -/
theorem loadIdx_gath {x0 : S16x24656x4.Idx → Elt F .f32} {s : Fin 16} {base R : ℕ} {f : Vec F S512x4 .f32} (hf : Holds x0 s base R f)
    (r c : IVec S16 32) (h : ∀ a x, ((![r, c] : Fin 2 → IVec S16 32) a x).toNat < S512x4.size a) (j : ℕ) (hj : 4 * j + 4 ≤ R)
    (h0 : ∀ x, (r x).toNat = 4 * j + (x 0).val / 4) (h1 : ∀ x, (c x).toNat = (x 0).val % 4) :
    loadIdx f (![r, c] : Fin 2 → IVec S16 32) h = gath x0 s base j := by
  funext x
  have hx : (x 0).val < 16 := (x 0).isLt
  show f (idxAt (s := S512x4) (![r, c] : Fin 2 → IVec S16 32) h x) = _
  rw [hf _ (show (r x).toNat < R by rw [h0]; omega)]
  unfold gath
  have e0 : base + ((idxAt (s := S512x4) (![r, c] : Fin 2 → IVec S16 32) h x) 0).val = base + 4 * j + (x 0).val / 4 := by
    show base + (r x).toNat = _; rw [h0]; omega
  have e1 : (⟨((idxAt (s := S512x4) (![r, c] : Fin 2 → IVec S16 32) h x) 1).val, ((idxAt (s := S512x4) (![r, c] : Fin 2 → IVec S16 32) h x) 1).isLt⟩ : Fin 4)
      = ⟨(x 0).val % 4, Nat.mod_lt _ (by decide)⟩ := Fin.ext (h1 x)
  rw [e0, e1]

/-- Gathers from a row 4 a further on are the gathers a further on. -/
theorem gath_shift (x0 : S16x24656x4.Idx → Elt F .f32) (s : Fin 16) (r0 a j : ℕ) : gath x0 s (r0 + 4 * a) j = gath x0 s r0 (a + j) := by
  funext x; unfold gath
  rw [show r0 + 4 * a + 4 * j + (x 0).val / 4 = r0 + 4 * (a + j) + (x 0).val / 4 by omega]

/-- One trip of the main part: block k, trip t adds gather number 4 t + u of the block, which is gather number
    4 (32 k + t) + u of the whole range. -/
theorem acc_step_main (x0 : S16x24656x4.Idx → Elt F .f32) (s : Fin 16) (r0 u k t : ℕ) :
    addf (acc x0 s r0 u (32 * k + t)) (absf (gath x0 s (r0 + 512 * k) (4 * t + u))) = acc x0 s r0 u (32 * k + (t + 1)) := by
  rw [show 32 * k + (t + 1) = (32 * k + t) + 1 by omega, acc_succ, show 512 * k = 4 * (128 * k) by omega, gath_shift,
    show 128 * k + (4 * t + u) = 4 * (32 * k + t) + u by omega]

/-- One gather's step of a main accumulator, through the indexed load of a scratch holding block k. -/
theorem step_main {x0 : S16x24656x4.Idx → Elt F .f32} {s : Fin 16} {r0 k t : ℕ} {g g' : Vec F S512x4 .f32} (hg : Holds x0 s (r0 + 512 * k) 512 g)
    (e : g' = g) (ht : t < 32) (u : ℕ) (hu : u < 4) (r c : IVec S16 32) (h : ∀ a x, ((![r, c] : Fin 2 → IVec S16 32) a x).toNat < S512x4.size a)
    (h0 : ∀ x, (r x).toNat = 4 * (4 * t + u) + (x 0).val / 4) (h1 : ∀ x, (c x).toNat = (x 0).val % 4) :
    addf (acc x0 s r0 u (32 * k + t)) (absf (loadIdx g' (![r, c] : Fin 2 → IVec S16 32) h)) = acc x0 s r0 u (32 * k + (t + 1)) := by
  subst e
  rw [loadIdx_gath hg r c h (4 * t + u) (by omega) h0 h1, acc_step_main]

/-- One gather's step of a tail accumulator, through the indexed load of a scratch whose first 80 rows hold the tail. -/
theorem step_tail {x0 : S16x24656x4.Idx → Elt F .f32} {s : Fin 16} {r0 t : ℕ} {g g' : Vec F S512x4 .f32} (hg : Holds x0 s r0 80 g)
    (e : g' = g) (ht : t < 5) (u : ℕ) (hu : u < 4) (r c : IVec S16 32) (h : ∀ a x, ((![r, c] : Fin 2 → IVec S16 32) a x).toNat < S512x4.size a)
    (h0 : ∀ x, (r x).toNat = 4 * (4 * t + u) + (x 0).val / 4) (h1 : ∀ x, (c x).toNat = (x 0).val % 4) :
    addf (acc x0 s r0 u (0 + t)) (absf (loadIdx g' (![r, c] : Fin 2 → IVec S16 32) h)) = acc x0 s r0 u (0 + (t + 1)) := by
  subst e
  rw [loadIdx_gath hg r c h (4 * t + u) (by omega) h0 h1, show 0 + (t + 1) = (0 + t) + 1 by omega, acc_succ, Nat.zero_add]

theorem trips1' : Scf.trips k0_t1_loop.lb k0_t1_loop.ub k0_t1_loop.st = 24 := trips1
theorem trips2' : Scf.trips k0_t2_loop.lb k0_t2_loop.ub k0_t2_loop.st = 32 := trips2
theorem trips3' : Scf.trips k0_t3_loop.lb k0_t3_loop.ub k0_t3_loop.st = 5 := trips3

/-! ## The side conditions of the indexed loads: the indices are inside the scratch at every trip -/

theorem chk1_ok (t : Fin k0_t2_loop.trips) : k0_chk1 k0_pay3 (k0_pay5 t) :=
  idx_inb _ _ (4 * t.val + 0) (by have := lt_of_lt_of_eq t.isLt trips2; omega) (pay5_toNat t) pay3_toNat
theorem chk2_ok (t : Fin k0_t2_loop.trips) : k0_chk2 k0_pay3 (k0_pay7 t) :=
  idx_inb _ _ (4 * t.val + 1) (by have := lt_of_lt_of_eq t.isLt trips2; omega) (pay7_toNat t) pay3_toNat
theorem chk3_ok (t : Fin k0_t2_loop.trips) : k0_chk3 k0_pay3 (k0_pay9 t) :=
  idx_inb _ _ (4 * t.val + 2) (by have := lt_of_lt_of_eq t.isLt trips2; omega) (pay9_toNat t) pay3_toNat
theorem chk4_ok (t : Fin k0_t2_loop.trips) : k0_chk4 k0_pay3 (k0_pay11 t) :=
  idx_inb _ _ (4 * t.val + 3) (by have := lt_of_lt_of_eq t.isLt trips2; omega) (pay11_toNat t) pay3_toNat
theorem chk5_ok (t : Fin k0_t3_loop.trips) : k0_chk5 k0_pay3 (k0_pay14 t) :=
  idx_inb _ _ (4 * t.val + 0) (by have := lt_of_lt_of_eq t.isLt trips3; omega) (pay14_toNat t) pay3_toNat
theorem chk6_ok (t : Fin k0_t3_loop.trips) : k0_chk6 k0_pay3 (k0_pay16 t) :=
  idx_inb _ _ (4 * t.val + 1) (by have := lt_of_lt_of_eq t.isLt trips3; omega) (pay16_toNat t) pay3_toNat
theorem chk7_ok (t : Fin k0_t3_loop.trips) : k0_chk7 k0_pay3 (k0_pay18 t) :=
  idx_inb _ _ (4 * t.val + 2) (by have := lt_of_lt_of_eq t.isLt trips3; omega) (pay18_toNat t) pay3_toNat
theorem chk8_ok (t : Fin k0_t3_loop.trips) : k0_chk8 k0_pay3 (k0_pay20 t) :=
  idx_inb _ _ (4 * t.val + 3) (by have := lt_of_lt_of_eq t.isLt trips3; omega) (pay20_toNat t) pay3_toNat

end Cert.Proof.KernelIdeal

end
-- ==== Proof.TileLoops.lean ====
/-
  The two loops of indexed loads, each proved once for any contents of the scratch that hold the rows they read.
  The invariant: the scratch keeps its contents, and after t trips each of the four accumulators is the fold of the
  value function over the gathers of the trips so far.
-/
import proofs.«219810_g10299331576301_week1_w1_912_40_alg».proof.Proof.TileSetup
import proofs.«219810_g10299331576301_week1_w1_912_40_alg».proof.Proof.TileIdx

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The subcore's number, as an index of the first axis of the array. -/
abbrev sL (L : grid0.Coords) : Fin 16 := ⟨(L 1).val, (L 1).isLt⟩

/-- Four accumulators after n trips. -/
abbrev accs4 (x0 : S16x24656x4.Idx → Elt F .f32) (s : Fin 16) (r0 n : ℕ) : FVec F S16 .f32 × FVec F S16 .f32 × FVec F S16 .f32 × FVec F S16 .f32 :=
  (acc x0 s r0 0 n, acc x0 s r0 1 n, acc x0 s r0 2 n, acc x0 s r0 3 n)

section Loops

variable (d : Dev nD) (L : grid0.Coords)

/-- The inner loop's invariant: the scratch at its contents g, the accumulators after n0 + t trips. -/
def invG (x0 : S16x24656x4.Idx → Elt F .f32) (r0 n0 : ℕ) (g : Buf (Elt F) ((V d (cV L) (jV L)).loc cc0_scratch0)) (t : Nat)
    (a : FVec F S16 .f32 × FVec F S16 .f32 × FVec F S16 .f32 × FVec F S16 .f32) : sProp 𝕄 :=
  iprop((((s0V : Memref sig .scVector .vmem S512x4 .f32).access (.whole S512x4)).loc (V d (cV L) (jV L)) ↦{fullShare} g)
    ∗ ⌜a = accs4 x0 (sL L) r0 (n0 + t)⌝)

/-- The 32 trips over block k of the main part: the accumulators go from 32 k trips to 32 k + 32. -/
theorem gather_loop_main (x0 : S16x24656x4.Idx → Elt F .f32) (r0 k : ℕ) (g : Buf (Elt F) ((V d (cV L) (jV L)).loc cc0_scratch0))
    (hg : Holds x0 (sL L) (r0 + 512 * k) 512 g)
    (a : FVec F S16 .f32 × FVec F S16 .f32 × FVec F S16 .f32 × FVec F S16 .f32) (ha : a = accs4 x0 (sL L) r0 (32 * k))
    {β : Type} {kk : FVec F S16 .f32 × FVec F S16 .f32 × FVec F S16 .f32 × FVec F S16 .f32 → Prog (TpuEff nD τ sig (Elt F) Λ₀ (.scVector (cV L) (jV L))) β}
    {Q : β → sProp 𝕄} :
    ((((s0V : Memref sig .scVector .vmem S512x4 .f32).access (.whole S512x4)).loc (V d (cV L) (jV L)) ↦{fullShare} g : sProp 𝕄))
      ⊢ iprop((∀ a', invG d L x0 r0 (32 * k) g k0_t2_loop.trips a'
            -∗ wp frame (wpE (defs₀ (F := F)) 𝒱₀ (V d (cV L) (jV L)) none) Set.univ (kk a') Q)
        -∗ wp frame (wpE (defs₀ (F := F)) 𝒱₀ (V d (cV L) (jV L)) none) Set.univ
            (k0_t2_loop.for k0_t2_ok a (k0_t2_body L (Memref.whole main_arg0_scv) (Memref.isWhole_whole _) (Memref.whole main_v0_scv) (Memref.isWhole_whole _)
              (Memref.whole cc0_scratch0) (Memref.isWhole_whole _) (Memref.whole cc0_scratch1) (Memref.isWhole_whole _) cc0_scoped0 cc0_scoped1 cc0_scoped2 k0_pay3) >>= kk) Q) := by
  subst ha
  iintro Hs Hk
  sl_for (invG d L x0 r0 (32 * k) g) $$ [Hs]
  case region =>
    intro t ⟨a0, a1, a2, a3⟩
    unfold invG
    iintro ⟨Hs, %h⟩
    have ht : t.val < 32 := lt_of_lt_of_eq t.isLt trips2'
    have hr : View.read (Elt F) ((s0V : Memref sig .scVector .vmem S512x4 .f32).access (Rect.whole S512x4)) g = g :=
      Memref.read_access_whole (Elt F) cc0_scratch0 g
    sl_exec
    rw [wp_assume_of _ _ _ _ (chk1_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk2_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk3_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk4_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    sl_step
    isplitl [Hs]; · iexact Hs
    ipureintro
    simp only [accs4, Prod.mk.injEq] at h ⊢
    obtain ⟨rfl, rfl, rfl, rfl⟩ := h
    exact ⟨step_main hg hr ht 0 (by omega) _ _ _ (pay5_toNat t) pay3_toNat, step_main hg hr ht 1 (by omega) _ _ _ (pay7_toNat t) pay3_toNat,
      step_main hg hr ht 2 (by omega) _ _ _ (pay9_toNat t) pay3_toNat, step_main hg hr ht 3 (by omega) _ _ _ (pay11_toNat t) pay3_toNat⟩
  · unfold invG
    isplitl [Hs]; · iexact Hs
    ipureintro; rfl
  iexact Hk

/-- The 5 trips over the 80 rows of the tail: the accumulators go from zero to 5 trips. -/
theorem gather_loop_tail (x0 : S16x24656x4.Idx → Elt F .f32) (r0 : ℕ) (g : Buf (Elt F) ((V d (cV L) (jV L)).loc cc0_scratch0))
    (hg : Holds x0 (sL L) r0 80 g)
    (a : FVec F S16 .f32 × FVec F S16 .f32 × FVec F S16 .f32 × FVec F S16 .f32) (ha : a = accs4 x0 (sL L) r0 0)
    {β : Type} {kk : FVec F S16 .f32 × FVec F S16 .f32 × FVec F S16 .f32 × FVec F S16 .f32 → Prog (TpuEff nD τ sig (Elt F) Λ₀ (.scVector (cV L) (jV L))) β}
    {Q : β → sProp 𝕄} :
    ((((s0V : Memref sig .scVector .vmem S512x4 .f32).access (.whole S512x4)).loc (V d (cV L) (jV L)) ↦{fullShare} g : sProp 𝕄))
      ⊢ iprop((∀ a', invG d L x0 r0 0 g k0_t3_loop.trips a'
            -∗ wp frame (wpE (defs₀ (F := F)) 𝒱₀ (V d (cV L) (jV L)) none) Set.univ (kk a') Q)
        -∗ wp frame (wpE (defs₀ (F := F)) 𝒱₀ (V d (cV L) (jV L)) none) Set.univ
            (k0_t3_loop.for k0_t3_ok a (k0_t3_body L (Memref.whole main_arg0_scv) (Memref.isWhole_whole _) (Memref.whole main_v0_scv) (Memref.isWhole_whole _)
              (Memref.whole cc0_scratch0) (Memref.isWhole_whole _) (Memref.whole cc0_scratch1) (Memref.isWhole_whole _) cc0_scoped0 cc0_scoped1 cc0_scoped2 k0_pay3) >>= kk) Q) := by
  subst ha
  iintro Hs Hk
  sl_for (invG d L x0 r0 0 g) $$ [Hs]
  case region =>
    intro t ⟨a0, a1, a2, a3⟩
    unfold invG
    iintro ⟨Hs, %h⟩
    have ht : t.val < 5 := lt_of_lt_of_eq t.isLt trips3'
    have hr : View.read (Elt F) ((s0V : Memref sig .scVector .vmem S512x4 .f32).access (Rect.whole S512x4)) g = g :=
      Memref.read_access_whole (Elt F) cc0_scratch0 g
    sl_exec
    rw [wp_assume_of _ _ _ _ (chk5_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk6_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk7_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk8_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    sl_step
    isplitl [Hs]; · iexact Hs
    ipureintro
    simp only [accs4, Prod.mk.injEq] at h ⊢
    obtain ⟨rfl, rfl, rfl, rfl⟩ := h
    exact ⟨step_tail hg hr ht 0 (by omega) _ _ _ (pay14_toNat t) pay3_toNat, step_tail hg hr ht 1 (by omega) _ _ _ (pay16_toNat t) pay3_toNat,
      step_tail hg hr ht 2 (by omega) _ _ _ (pay18_toNat t) pay3_toNat, step_tail hg hr ht 3 (by omega) _ _ _ (pay20_toNat t) pay3_toNat⟩
  · unfold invG
    isplitl [Hs]; · iexact Hs
    ipureintro; rfl
  iexact Hk

end Loops

end Cert.Proof.KernelIdeal

end
-- ==== Proof.TileLand.lean ====
/-
  What the scratch holds after each of the task's two kinds of copies has landed, and what the copy out writes.
  The views the task slices out of the array are read by coordinates: element (i0, i1) of block k is the array's
  element (s, 12288 c + 512 k + i0, i1); of the tail, (s, 12288 c + 12288 + i0, i1).
-/
import proofs.«219810_g10299331576301_week1_w1_912_40_alg».proof.Proof.TileLoops

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Land

variable (d : Dev nD) (L : grid0.Coords)

/-- Two indices of the array with the same three coordinates are equal. -/
theorem idx3_ext (p q : S16x24656x4.Idx) (h0 : (p 0).val = (q 0).val) (h1 : (p 1).val = (q 1).val) (h2 : (p 2).val = (q 2).val) : p = q := by
  funext a; apply Fin.ext
  match a with
  | 0 => exact h0
  | 1 => exact h1
  | 2 => exact h2

/-- Dropping the leading axis of size one: the index (i0, i1) of the 512 x 4 shape is (0, i0, i1) of the 1 x 512 x 4 shape. -/
theorem reshape_512 (h : S512x4.numel = S1x512x4.numel) (i : S512x4.Idx) :
    ((Shape.reshapeEquiv h i) 0).val = 0 ∧ ((Shape.reshapeEquiv h i) 1).val = (i 0).val ∧ ((Shape.reshapeEquiv h i) 2).val = (i 1).val := by
  have hy : ((((Shape.reshapeEquiv h i) 0).val * 512 + ((Shape.reshapeEquiv h i) 1).val) * 4 + ((Shape.reshapeEquiv h i) 2).val : ℕ)
      = (i 0).val * 4 + (i 1).val := by
    have := Shape.rowMajor_reshapeEquiv h i
    rw [Shape.rowMajor_val_three, Shape.rowMajor_val_two] at this
    exact this
  have h0 : ((Shape.reshapeEquiv h i) 0).val < 1 := ((Shape.reshapeEquiv h i) 0).isLt
  have h1 : ((Shape.reshapeEquiv h i) 1).val < 512 := ((Shape.reshapeEquiv h i) 1).isLt
  have h2 : ((Shape.reshapeEquiv h i) 2).val < 4 := ((Shape.reshapeEquiv h i) 2).isLt
  have hi0 : (i 0).val < 512 := (i 0).isLt
  have hi1 : (i 1).val < 4 := (i 1).isLt
  omega

theorem reshape_80 (h : S80x4.numel = S1x80x4.numel) (i : S80x4.Idx) :
    ((Shape.reshapeEquiv h i) 0).val = 0 ∧ ((Shape.reshapeEquiv h i) 1).val = (i 0).val ∧ ((Shape.reshapeEquiv h i) 2).val = (i 1).val := by
  have hy : ((((Shape.reshapeEquiv h i) 0).val * 80 + ((Shape.reshapeEquiv h i) 1).val) * 4 + ((Shape.reshapeEquiv h i) 2).val : ℕ)
      = (i 0).val * 4 + (i 1).val := by
    have := Shape.rowMajor_reshapeEquiv h i
    rw [Shape.rowMajor_val_three, Shape.rowMajor_val_two] at this
    exact this
  have h0 : ((Shape.reshapeEquiv h i) 0).val < 1 := ((Shape.reshapeEquiv h i) 0).isLt
  have h1 : ((Shape.reshapeEquiv h i) 1).val < 80 := ((Shape.reshapeEquiv h i) 1).isLt
  have h2 : ((Shape.reshapeEquiv h i) 2).val < 4 := ((Shape.reshapeEquiv h i) 2).isLt
  have hi0 : (i 0).val < 80 := (i 0).isLt
  have hi1 : (i 1).val < 4 := (i 1).isLt
  omega

/-- Block k of the main part, as the task slices it out of the array: 512 rows of batch entry s from row 12288 c + 512 k. -/
abbrev blkRect (L : grid0.Coords) (k : Fin k0_t1_loop.trips) : Rect S16x24656x4 :=
  Rect.unit (s := S16x24656x4) (k0_off1 L k) S1x512x4.size (k0_off1_inb L k)
abbrev blk (L : grid0.Coords) (k : Fin k0_t1_loop.trips) : Memref sig .scVector .hbm S512x4 .f32 :=
  ((a0V : Memref sig .scVector .hbm S16x24656x4 .f32).slice (blkRect L k) (fun _ => rfl)).squeeze S512x4 squeezes_S1x512x4_S512x4

theorem read_blk (x0 : S16x24656x4.Idx → Elt F .f32) (k : Fin k0_t1_loop.trips) (i : S512x4.Idx) :
    (blk L k).view.read (Elt F) x0 i = rowAt x0 (sL L) (12288 * (L 0).val + 512 * k.val + (i 0).val) ⟨(i 1).val, (i 1).isLt⟩ := by
  have hk : k.val < 24 := lt_of_lt_of_eq k.isLt trips1
  have hc : (L 0).val < 2 := (L 0).isLt
  have hi : (i 0).val < 512 := (i 0).isLt
  rw [View.read_apply, rowAt_of_lt _ _ (by omega)]
  refine (cast_eq _ _).trans (congrArg x0 (idx3_ext _ _ ?_ ?_ ?_))
  · show (k0_off1 L k) 0 + 1 * ((Shape.reshapeEquiv squeezes_S1x512x4_S512x4.numel_eq i) 0).val = (L 1).val
    rw [(reshape_512 _ i).1, k0_off1_eq]; simp
  · show (k0_off1 L k) 1 + 1 * ((Shape.reshapeEquiv squeezes_S1x512x4_S512x4.numel_eq i) 1).val = 12288 * (L 0).val + 512 * k.val + (i 0).val
    rw [(reshape_512 _ i).2.1, k0_off1_eq]; simp
  · show (k0_off1 L k) 2 + 1 * ((Shape.reshapeEquiv squeezes_S1x512x4_S512x4.numel_eq i) 2).val = (i 1).val
    rw [(reshape_512 _ i).2.2, k0_off1_eq]; simp

/-- After block k has landed, the scratch holds the 512 rows of batch entry s from row 12288 c + 512 k. -/
theorem holds_main (x0 : S16x24656x4.Idx → Elt F .f32) (k : Fin k0_t1_loop.trips) (f : Buf (Elt F) ((V d (cV L) (jV L)).loc cc0_scratch0))
    (w : S512x4.Idx → Elt F .f32) (hw : w = (blk L k).view.read (Elt F) x0) :
    Holds x0 (sL L) (12288 * (L 0).val + 512 * k.val) 512
      ((s0V : Memref sig .scVector .vmem S512x4 .f32).view.writes (Elt F) f [⟨Rect.whole S512x4, w⟩]) := by
  intro i _
  have e : (s0V : Memref sig .scVector .vmem S512x4 .f32).view.writes (Elt F) f [⟨Rect.whole S512x4, w⟩] i = w i := by
    have := View.read_writes_cons_emb (v := (s0V : Memref sig .scVector .vmem S512x4 .f32).view) f (Rect.whole S512x4) w [] i
    rw [Rect.emb_whole_apply] at this
    exact this
  rw [e, hw, read_blk]

/-- The 80 rows of the tail, as the task slices them out of the array: rows of batch entry s from row 12288 c + 12288. -/
abbrev tailRect (L : grid0.Coords) : Rect S16x24656x4 := Rect.unit (s := S16x24656x4) (k0_off2 L) S1x80x4.size (k0_off2_inb L)
abbrev tailSrc (L : grid0.Coords) : Memref sig .scVector .hbm S80x4 .f32 :=
  ((a0V : Memref sig .scVector .hbm S16x24656x4 .f32).slice (tailRect L) (fun _ => rfl)).squeeze S80x4 squeezes_S1x80x4_S80x4
/-- The first 80 rows of the scratch. -/
abbrev dstRect : Rect S512x4 := Rect.unit (s := S512x4) ![0, 0] S80x4.size inb_S512x4_S80x4_0_0

theorem read_tail (x0 : S16x24656x4.Idx → Elt F .f32) (i : S80x4.Idx) :
    (tailSrc L).view.read (Elt F) x0 i = rowAt x0 (sL L) (12288 * (L 0).val + 12288 + (i 0).val) ⟨(i 1).val, (i 1).isLt⟩ := by
  have hc : (L 0).val < 2 := (L 0).isLt
  have hi : (i 0).val < 80 := (i 0).isLt
  rw [View.read_apply, rowAt_of_lt _ _ (by omega)]
  refine (cast_eq _ _).trans (congrArg x0 (idx3_ext _ _ ?_ ?_ ?_))
  · show (k0_off2 L) 0 + 1 * ((Shape.reshapeEquiv squeezes_S1x80x4_S80x4.numel_eq i) 0).val = (L 1).val
    rw [(reshape_80 _ i).1, k0_off2_eq]; simp
  · show (k0_off2 L) 1 + 1 * ((Shape.reshapeEquiv squeezes_S1x80x4_S80x4.numel_eq i) 1).val = 12288 * (L 0).val + 12288 + (i 0).val
    rw [(reshape_80 _ i).2.1, k0_off2_eq]; simp
  · show (k0_off2 L) 2 + 1 * ((Shape.reshapeEquiv squeezes_S1x80x4_S80x4.numel_eq i) 2).val = (i 1).val
    rw [(reshape_80 _ i).2.2, k0_off2_eq]; simp

/-- After the tail has landed, the first 80 rows of the scratch hold the rows of batch entry s from row 12288 c + 12288. -/
theorem holds_tail (x0 : S16x24656x4.Idx → Elt F .f32) (f : Buf (Elt F) ((V d (cV L) (jV L)).loc cc0_scratch0))
    (w : S80x4.Idx → Elt F .f32) (hw : w = (tailSrc L).view.read (Elt F) x0) :
    Holds x0 (sL L) (12288 * (L 0).val + 12288) 80
      ((s0V : Memref sig .scVector .vmem S512x4 .f32).view.writes (Elt F) f [⟨dstRect, w⟩]) := by
  intro i hi
  have hx : dstRect.emb (ValueIdx.ix2 (⟨(i 0).val, hi⟩ : Fin 80) (⟨(i 1).val, (i 1).isLt⟩ : Fin 4)) = i := by
    funext a; apply Fin.ext
    match a with
    | 0 => show 0 + 1 * (i 0).val = (i 0).val; omega
    | 1 => show 0 + 1 * (i 1).val = (i 1).val; omega
  have e : (s0V : Memref sig .scVector .vmem S512x4 .f32).view.writes (Elt F) f [⟨dstRect, w⟩] i
      = w (ValueIdx.ix2 (⟨(i 0).val, hi⟩ : Fin 80) (⟨(i 1).val, (i 1).isLt⟩ : Fin 4)) := by
    have := View.read_writes_cons_emb (v := (s0V : Memref sig .scVector .vmem S512x4 .f32).view) f dstRect w []
      (ValueIdx.ix2 (⟨(i 0).val, hi⟩ : Fin 80) (⟨(i 1).val, (i 1).isLt⟩ : Fin 4))
    rw [hx] at this
    exact this
  rw [e, hw, read_tail]

/-! ## The copy out -/

/-- The core's number, as a number below 2. -/
abbrev cL (L : grid0.Coords) : Fin 2 := ⟨(L 0).val, (L 0).isLt⟩

/-- On the task's row, the array of all results is the task's result. -/
theorem tileOut_row (x0 : S16x24656x4.Idx → Elt F .f32) (j : S32x16.Idx) (hj : j ∈ rowSet L) :
    tileOut x0 j = tileRow x0 (cL L) (sL L) (ValueIdx.ix1 (⟨(j 1).val, (j 1).isLt⟩ : Fin 16)) := by
  have h := (mem_rowSet L j).mp hj
  have hc : (L 0).val < 2 := (L 0).isLt
  unfold tileOut
  have e1 : (⟨(j 0).val % 2, Nat.mod_lt _ (by decide)⟩ : Fin 2) = cL L := Fin.ext (by show (j 0).val % 2 = (L 0).val; omega)
  have e2 : (⟨(j 0).val / 2, by have h : (j 0).val < 32 := (j 0).isLt; omega⟩ : Fin 16) = sL L := Fin.ext (by show (j 0).val / 2 = (L 1).val; omega)
  rw [e1, e2]

/-- The written row's index number x is the result array's index (2 s + c, x). -/
theorem oRow_emb (x : S16.Idx) : ((oRow L).view.emb x 0).val = 2 * (L 1).val + (L 0).val ∧ ((oRow L).view.emb x 1).val = (x 0).val := by
  have hy : ((((Shape.reshapeEquiv squeezes_S1x16_S16.numel_eq x) 0).val * 16 + ((Shape.reshapeEquiv squeezes_S1x16_S16.numel_eq x) 1).val : ℕ)) = (x 0).val := by
    have := Shape.rowMajor_reshapeEquiv squeezes_S1x16_S16.numel_eq x
    rw [Shape.rowMajor_val_two, Shape.rowMajor_val_one] at this
    exact this
  have h0 : ((Shape.reshapeEquiv squeezes_S1x16_S16.numel_eq x) 0).val < 1 := ((Shape.reshapeEquiv squeezes_S1x16_S16.numel_eq x) 0).isLt
  have h1 : ((Shape.reshapeEquiv squeezes_S1x16_S16.numel_eq x) 1).val < 16 := ((Shape.reshapeEquiv squeezes_S1x16_S16.numel_eq x) 1).isLt
  have hx : (x 0).val < 16 := (x 0).isLt
  constructor
  · show (k0_off3 L) 0 + 1 * ((Shape.reshapeEquiv squeezes_S1x16_S16.numel_eq x) 0).val = _
    rw [k0_off3_eq]; simp; omega
  · show (k0_off3 L) 1 + 1 * ((Shape.reshapeEquiv squeezes_S1x16_S16.numel_eq x) 1).val = _
    rw [k0_off3_eq]; simp; omega

/-- After the copy out has landed, the task's row of the result array holds the task's result: the stored vector v is
    the payload of the stored lanes, read back whole from the second scratch and written through the row's view. -/
theorem out_row (x0 : S16x24656x4.Idx → Elt F .f32) (f0 : Buf (Elt F) (v0Loc d)) (fs1 : Buf (Elt F) ((V d (cV L) (jV L)).loc cc0_scratch1))
    (w v : S16.Idx → Elt F .f32) (pcs : List (View.Piece (Elt F) S16 .f32))
    (hp : pcs = [⟨Rect.unit (s := S16) ![0] S16.size inb_S16_S16_0, v⟩])
    (hw : w = (s1V : Memref sig .scVector .vmem S16 .f32).view.read (Elt F) ((s1V : Memref sig .scVector .vmem S16 .f32).view.writes (Elt F) fs1 pcs))
    (hv : v = tileRow x0 (cL L) (sL L)) :
    ∀ j ∈ rowSet L, (oRow L).view.writes (Elt F) f0 [⟨Rect.whole S16, w⟩] j = tileOut x0 j := by
  intro j hj
  have hj' : j ∈ (oRow L).view.set := by rw [set_oRow]; exact hj
  obtain ⟨x, -, rfl⟩ := Finset.mem_map.mp hj'
  have e : (oRow L).view.writes (Elt F) f0 [⟨Rect.whole S16, w⟩] ((oRow L).view.emb x) = w x := by
    have := View.read_writes_cons_emb (v := (oRow L).view) f0 (Rect.whole S16) w [] x
    rw [Rect.emb_whole_apply, View.read_apply] at this
    exact (cast_eq _ _).symm.trans this
  have hwx : w x = v x := by
    subst hw hp
    have := View.read_writes_cons_emb (v := (s1V : Memref sig .scVector .vmem S16 .f32).view) fs1 (Rect.unit (s := S16) ![0] S16.size inb_S16_S16_0) v [] x
    have hx : (Rect.unit (s := S16) ![0] S16.size inb_S16_S16_0).emb x = x := by
      funext a; apply Fin.ext
      match a with
      | 0 => show 0 + 1 * (x 0).val = (x 0).val; omega
    rw [hx] at this
    exact this
  rw [e, hwx, hv, tileOut_row L x0 _ hj]
  congr 1
  funext a; apply Fin.ext
  match a with
  | 0 => exact ((oRow_emb L x).2).symm

end Land

end Cert.Proof.KernelIdeal

end
-- ==== Proof.TileBody.lean ====
/-
  One vector subcore's task, run once at a symbolic place: from a read share of the first argument array, the task's row
  of the 32 x 16 result array and the thread's scoped scratch buffers and semaphores, to the same with the row holding
  the task's result, tileOut of the array restricted to the row.
  The main part is a loop over 24 blocks: each block is copied into the scratch and waited for, then 32 trips of four
  indexed loads add absolute values into four accumulators; the invariant says the accumulators are the value
  function's folds after 32 k trips. The tail is copied into the first 80 rows of the scratch and folded by 5 trips into
  four fresh accumulators. The combined vector is stored into the second scratch and copied out to row 2 s + c.
-/
import proofs.«219810_g10299331576301_week1_w1_912_40_alg».proof.Proof.TileLand

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Before block k of the main part: the array (a read share), the scratch at some contents, the copy's semaphore at
    zero, what the thread owes, and the four accumulators after 32 k trips. -/
def inv1 (m : (ℓ : Loc nD τ sig) → Buf (Elt F) ℓ) (d : Dev nD) (L : grid0.Coords) (q : PosShare TreeShare)
    (O : CellTallies nD τ sig (HIx 1)) (W : Waits sig (HIx 1)) (k : Nat)
    (a : FVec F S16 .f32 × FVec F S16 .f32 × FVec F S16 .f32 × FVec F S16 .f32) : sProp 𝕄 :=
  iprop(Transfers.MayWaits (V d (cV L) (jV L)) (none : HIx 1) O
    ∗ ((a0V : Memref sig .scVector .hbm S16x24656x4 .f32).view.loc (V d (cV L) (jV L)) ↦{q} m (a0Loc d))
    ∗ (∃ f, (s0V : Memref sig .scVector .vmem S512x4 .f32).view.loc (V d (cV L) (jV L)) ↦[(s0V : Memref sig .scVector .vmem S512x4 .f32).view.set]{fullShare} f)
    ∗ semVal (c0cell d (cV L) (jV L)) 0
    ∗ (∃ W', ⌜∀ p ∈ W', p ∈ W ∨ p.2 = none⌝ ∗ owes (V d (cV L) (jV L)) O W')
    ∗ ⌜a = accs4 (m (a0Loc d)) (sL L) (12288 * (L 0).val) (32 * k)⌝)

theorem tile_body (hF : (K (F := F)).Facts) (m : (ℓ : Loc nD τ sig) → Buf (Elt F) ℓ) (d : Dev nD) (L : grid0.Coords) (q : PosShare TreeShare)
    (f0 : Buf (Elt F) (v0Loc d)) (O : CellTallies nD τ sig (HIx 1)) (W : Waits sig (HIx 1)) (hO : ∀ g, O g none = 0) :
    iprop((levAts (K (F := F)).L (K (F := F)).lev : sProp 𝕄) ∗ (a0Loc d ↦{q} m (a0Loc d)) ∗ (v0Loc d ↦[rowSet L]{fullShare} f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__loc_body L (Memref.whole main_arg0_scv) (Memref.isWhole_whole _) (Memref.whole main_v0_scv) (Memref.isWhole_whole _)
            (Memref.whole cc0_scratch0) (Memref.isWhole_whole _) (Memref.whole cc0_scratch1) (Memref.isWhole_whole _) cc0_scoped0 cc0_scoped1 cc0_scoped2)
          fun _ => iprop(((a0Loc d ↦{q} m (a0Loc d)) ∗ (v0Loc d ↦[rowSet L]{fullShare} tileOut (m (a0Loc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__loc_body_eq_skeleton]; unfold cc0__loc_body_skel
  simp only [k0_part1_eq_skeleton]; unfold k0_part1_skel
  simp only [Prog.bind_assoc]
  rw [(K (F := F)).scopedBufs_V hF d (cV L) (jV L), SparseCore.Cfg.scopedSems0_V (Val := Elt F) d (cV L) (jV L), ownSems0_V, ownBufs_V]
  iintro ⟨#Hlv, Ha, Ho, ⟨⟨%fs0, Hs0⟩, ⟨%fs1, Hs1⟩, Hbufs⟩, ⟨Hsem0, Hsem1, Hsem2, Hsems⟩, HO⟩
  ihave Hmw := ((K (F := F)).mayWaits_none (thr := V d (cV L) (jV L)) hO) $$ Hlv
  ihave Ha' := (Entails.of_eq (pts_a0 (F := F) d L q _).symm) $$ Ha
  ihave Hs0' := (Entails.of_eq (pts_s0 (F := F) d L _).symm) $$ Hs0
  sl_for (inv1 m d L q O W) $$ [Hmw Ha' Hs0' Hsem0 HO]
  case region =>
    intro k ⟨a0, a1, a2, a3⟩
    unfold inv1
    iintro ⟨#Hmw, Ha, ⟨%f, Hs0⟩, Hsem, ⟨%W', %hW', HO⟩, %hacc⟩
    -- the block's copy and its wait
    sl_exec
    ihave Hs := (Entails.of_eq ((pts_s0 (F := F) d L _).trans (pts_s0_access (F := F) d L _).symm)) $$ Hs0
    -- the 32 trips of indexed loads over the block
    iapply (gather_loop_main d L (m (a0Loc d)) (12288 * (L 0).val) k.val _ ?hg1 _ hacc) $$ Hs
    case hg1 => exact holds_main d L (m (a0Loc d)) k _ _ rfl
    iintro %a' HI
    unfold invG
    icases HI with ⟨Hs, %ha'⟩
    subst ha'
    sl_exec
    sl_step
    isplitr; · iexact Hmw
    isplitl [Ha]; · iexact Ha
    isplitl [Hs]
    · iexists _; iapply (Entails.of_eq ((pts_s0_access (F := F) d L _).trans (pts_s0 (F := F) d L _).symm)); iexact Hs
    isplitl [Hsem]; · iexact Hsem
    isplitl [HO]
    · iexists (insert (SemLoc.dma cc0_scoped0.sem, (default : HIx 1)) W'); isplitr
      · ipureintro; intro p hp
        rcases Finset.mem_insert.mp hp with hp | hp
        · exact .inr (hp ▸ rfl)
        · exact hW' p hp
      · iexact HO
    ipureintro
    rw [trips2, show 32 * (k.val + 1) = 32 * k.val + 32 by omega]
  · unfold inv1
    isplitl [Hmw]; · iexact Hmw
    isplitl [Ha']; · iexact Ha'
    isplitl [Hs0']; · iexists _; iexact Hs0'
    isplitl [Hsem0]; · iexact Hsem0
    isplitl [HO]
    · iexists W; isplitr
      · ipureintro; exact fun p hp => .inl hp
      · iexact HO
    · ipureintro; rfl
  iintro %acc HI
  unfold inv1
  icases HI with ⟨#Hmw', Ha, ⟨%f, Hs0⟩, Hsem0, ⟨%W', %hW', HO⟩, %hacc⟩
  rw [trips1'] at hacc
  -- the tail's copy and its wait
  sl_exec
  ihave Hs := (Entails.of_eq ((pts_s0 (F := F) d L _).trans (pts_s0_access (F := F) d L _).symm)) $$ Hs0
  -- the 5 trips of indexed loads over the tail
  iapply (gather_loop_tail d L (m (a0Loc d)) (12288 * (L 0).val + 12288) _ ?hg2 _ rfl) $$ Hs
  case hg2 => exact holds_tail d L (m (a0Loc d)) _ _ rfl
  iintro %a' HI
  unfold invG
  icases HI with ⟨Hs, %ha'⟩
  rw [trips3] at ha'
  subst ha' hacc
  ihave Hs1' := (Entails.of_eq (pts_s1 (F := F) d L _).symm) $$ Hs1
  ihave Ho' := (Entails.of_eq (pts_oRow (F := F) d L _).symm) $$ Ho
  -- the result stored into the second scratch, copied out to the task's row, the copy waited for
  sl_exec
  sl_step
  ihave Ho2 := (Entails.of_eq (pts_oRow (F := F) d L _)) $$ Ho'
  ihave Ho3 := (Entails.of_eq (pointsTo_congr (out_row d L (m (a0Loc d)) f0 fs1 _ _ _ rfl rfl rfl))) $$ Ho2
  isplitl [Ha Ho3]
  · isplitl [Ha]
    · iapply (Entails.of_eq (pts_a0 (F := F) d L q _)); iexact Ha
    · iexact Ho3
  isplitl [Hs Hs1' Hbufs]
  · isplitl [Hs]
    · iexists _; iapply (Entails.of_eq (pts_s0_access (F := F) d L _)); iexact Hs
    isplitl [Hs1']
    · iexists _; iapply (Entails.of_eq (pts_s1 (F := F) d L _)); iexact Hs1'
    · iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, (default : HIx 1)) (insert (SemLoc.dma cc0_scoped1.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Cert.Proof.KernelIdeal

end
-- ==== Proof.TileObl.lean ====
/-
  The launch theorem's obligation for the vector-subcore kernel: the task of subcore i of core c, from the task's
  operands (its read share of the first argument and its row of the result array at the launch contents) to its results
  (the same share, the row at the one whole-array function of every task's sixteen lanes).
-/
import proofs.«219810_g10299331576301_week1_w1_912_40_alg».proof.Proof.TileBody
import proofs.«219810_g10299331576301_week1_w1_912_40_alg».proof.Proof.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Row w of the result array, cut as one of 32 parts, is the indices whose first coordinate is w. -/
theorem mem_rowSetW (w : Fin 32) (j : S32x16.Idx) : j ∈ rowSetW w ↔ (j 0).val = w.val := by
  simp only [rowSetW, rowW, Rect.part, Rect.block, Rect.mem_set_unit]
  constructor
  · intro h
    have h0 := h 0
    simp [Shape.partIx, Shape.partSize] at h0
    omega
  · intro h a
    match a with
    | 0 => simp [Shape.partIx, Shape.partSize]; omega
    | 1 =>
      have h1 : (j 1).val < 16 := (j 1).isLt
      simp [Shape.partIx, Shape.partSize]
      exact h1

/-- The row the task slices out of the result array is row 2 s + c of the 32. -/
theorem rowSet_eq_W (L : grid0.Coords) : rowSet L = rowSetW (wid (cL L) (sL L)) := by
  ext j
  rw [mem_rowSet, mem_rowSetW]
  exact Iff.rfl

/-- The grid coordinates of the task of subcore s of core c. -/
def taskAt (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__loc_body (taskAt c s)
          (Memref.whole main_arg0_scv) (Memref.isWhole_whole _) (Memref.whole main_v0_scv) (Memref.isWhole_whole _)
          (Memref.whole cc0_scratch0) (Memref.isWhole_whole _) (Memref.whole cc0_scratch1) (Memref.isWhole_whole _)
          cc0_scoped0 cc0_scoped1 cc0_scoped2) ⟨⟩ c s := rfl

omit [FloatOps F] in
theorem obl_pre {A₀ X A B C D E : sProp 𝕄} (hX : X = iprop(emp)) :
    iprop(A₀ ∗ X ∗ (A ∗ B) ∗ C ∗ D ∗ E) ⊢ iprop(A₀ ∗ A ∗ B ∗ C ∗ D ∗ E) := by
  subst hX
  iintro ⟨H0, -, ⟨HA, HB⟩, HC, HD, HE⟩
  isplitl [H0]; · iexact H0
  isplitl [HA]; · iexact HA
  isplitl [HB]; · iexact HB
  isplitl [HC]; · iexact HC
  isplitl [HD]; · iexact HD
  iexact HE

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation at call 0: the task of subcore i of core c runs the body at the coordinates (c, i). -/
theorem tileObl (m : (ℓ : Loc nD τ sig) → Buf (Elt F) ℓ) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := tile_body facts m d (taskAt ⟨_, hc.1⟩ ⟨_, hc.2⟩) (taskShare (Fin.cast nCore_zero c) (Fin.cast nSub_zero i)) (m (v0Loc d)) O W hO
  rw [show rowSet (taskAt ⟨_, hc.1⟩ ⟨_, hc.2⟩) = rowSetW (wid (Fin.cast nCore_zero c) (Fin.cast nSub_zero i)) from rowSet_eq_W _] at hb
  exact (obl_pre rfl).trans (hb.trans (wp_mono frame _ _ fun _ => obl_post))

end Cert.Proof.KernelIdeal

end
-- ==== Proof.RunMain.lean ====
/-
  The run of the whole program, from the launch theorem of a SparseCore program: the task's proof, the split of a
  core's operands among its tasks, @main's proof with the second kernel's region, the launch element, and the reading
  of the final memory. Every weakly fair execution terminates, and at the end the three result buffers hold the host
  operations' functions of the two kernels' result arrays, the arguments being unchanged.
-/
import proofs.«219810_g10299331576301_week1_w1_912_40_alg».proof.Proof.Final
import proofs.«219810_g10299331576301_week1_w1_912_40_alg».proof.Proof.LaunchElem
import proofs.«219810_g10299331576301_week1_w1_912_40_alg».proof.Proof.ClsRegion
import proofs.«219810_g10299331576301_week1_w1_912_40_alg».proof.Proof.TileObl

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The second kernel's region, in the shape @main's proof asks for. -/
theorem cls_rule : RegionRule m (Gd (F := F)) := by
  intro d Φ
  have h := cls_region_rule (F := F) m d Φ
  unfold clsPre clsPost at h
  unfold Gd
  exact h

/-- The program's run. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (Gd (F := F)) (FIN m) (u₀ (F := F)) (sep_elim_left.trans (hu₀ m)) (hmain m ρ (Gd (F := F)) (cls_rule m).lift)
    (fq m) (hfin m) (QC m) (fun _ h => h)

end Cert.Proof.KernelIdeal

end
-- ==== Proof.FrameOfRun.lean ====
/-
  The frame from the run: when every run of the program ends in a memory that holds the three results and the two
  arguments unchanged, it ends in particular with the two arguments unchanged.
-/
import proofs.«219810_g10299331576301_week1_w1_912_40_alg».proof.Proof.Final

noncomputable section

namespace Cert.Proof.KernelIdeal

open Cert.KernelIdeal Cert.KernelIdeal.Gen
open Idealize.ShloMosaic Idealize.SL.Sem

/-- The arguments end unchanged, from any memory and any generator state. -/
theorem frame_of_run {F : FTy → Type} [FloatOps F]
    (hrun : ∀ (m : (ℓ : Loc nD τ sig) → Buf (Elt F) ℓ) (ρ : Dev nD → PrngReg),
      θ_run (Cert.KernelIdeal.defs (F := F)) (Cert.KernelIdeal.threads (F := F)) ⟨m, fun _ => 0, ρ⟩ (QC m))
    (m : (ℓ : Loc nD τ sig) → Buf (Elt F) ℓ) (g : Dev nD → PrngReg) :
    θ_run (Cert.KernelIdeal.defs (F := F)) (Cert.KernelIdeal.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.KernelIdeal.defs (F := F)) _ _).mono (fun _ h c => ⟨(h c).2.2.2.1, (h c).2.2.2.2⟩) (hrun m g)

end Cert.Proof.KernelIdeal

end
-- ==== Proof.Spec.lean ====
/-
  What the three results are, as functions of the two argument arrays read as arrays of extended reals.
  The first array has shape 16 x 24656 x 4, the second 16 x 24656 x 81.
  * absSum: the sum over every entry of the first array of its absolute value max x (-x).
  * rowLoss b a: for the row (b, a) of the second array, the logarithm of the sum of the exponentials of its 81
    entries, minus its entry 0: minus the log-softmax of the row at class 0.
  * loc: absSum divided by the number of entries 16 * 24656 * 4 = 1577984 (the float 0x49C0A000);
    cls: the sum of rowLoss over the 16 * 24656 = 394496 rows divided by that number (the float 0x48C0A000);
    total: their sum.
-/
import Idealize.ShloMosaic.PureOps.Ideal
import Idealize.ShloMosaic.Lib.ValueIdx

noncomputable section

namespace Cert.Spec

open Idealize.ShloMosaic Idealize.ShloMosaic.ValueIdx

/-- The shape of the first argument. -/
abbrev A0 : Shape := ⟨3, ![16, 24656, 4]⟩
/-- The shape of the second argument. -/
abbrev A1 : Shape := ⟨3, ![16, 24656, 81]⟩

/-- The sum of the absolute values of every entry. -/
def absSum (x0 : A0.Idx → EReal) : EReal := ∑ i : A0.Idx, max (x0 i) (-(x0 i))

/-- log (sum_j exp x[b, a, j]) - x[b, a, 0]. -/
def rowLoss (x1 : A1.Idx → EReal) (b : Fin 16) (a : Fin 24656) : EReal :=
  Ideal.log (∑ j : Fin 81, Ideal.exp (x1 (ix3 b a j))) - x1 (ix3 b a (0 : Fin 81))

/-- The sum of rowLoss over all rows. -/
def lossSum (x1 : A1.Idx → EReal) : EReal := ∑ b : Fin 16, ∑ a : Fin 24656, rowLoss x1 b a

/-- The mean absolute value of the first array. -/
def loc (x0 : A0.Idx → EReal) : EReal := Ideal.div (absSum x0) (Ideal.ofBits .f32 0x49C0A000#32)

/-- The mean over rows of minus the log-softmax at class 0. -/
def cls (x1 : A1.Idx → EReal) : EReal := Ideal.div (lossSum x1) (Ideal.ofBits .f32 0x48C0A000#32)

/-- The sum of the two. -/
def total (x0 : A0.Idx → EReal) (x1 : A1.Idx → EReal) : EReal := loc x0 + cls x1

end Cert.Spec

end
-- ==== Proof.RealsIdeal.lean ====
/-
  Small facts about extended reals that are real numbers, and about comparing two small numbers held in 32-bit words.
-/
import proofs.«219810_g10299331576301_week1_w1_912_40_alg».proof.Proof.Common
import proofs.«219810_g10299331576301_week1_w1_912_40_alg».proof.Proof.Spec
import Idealize.ShloMosaic.Lib.StackMember
import Idealize.ShloMosaic.Lib.ValueLayout
import Idealize.ShloMosaic.PureOps.Ideal.Laws

noncomputable section

namespace Cert.Proof.KernelIdeal

open Cert.KernelIdeal Cert.KernelIdeal.Gen

open Idealize.ShloMosaic Idealize.ShloMosaic.ValueIdx

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A select on "the word of n equals the word of k", both numbers below 2^32, is the if on n = k. -/
theorem select_cmpi_eq {α : Type} (n k : ℕ) (hn : n < 2 ^ 32) (hk : k < 2 ^ 32) (A B : α) :
    Scalar.select (IntOp.cmpi .eq (BitVec.ofNat 32 n) (BitVec.ofNat 32 k)) A B = if n = k then A else B := by
  by_cases h : n = k
  · subst h
    rw [if_pos rfl]
    exact if_pos (IntOp.cmpi_eq.mpr rfl)
  · rw [if_neg h]
    refine if_neg fun hc => ?_
    apply h
    have e := congrArg BitVec.toNat (IntOp.cmpi_eq.mp hc)
    rw [BitVec.toNat_ofNat, BitVec.toNat_ofNat, Nat.mod_eq_of_lt hn, Nat.mod_eq_of_lt hk] at e
    exact e

/-- The float words of one, of minus one and of zero. -/
theorem ofBits_one_f32 : Ideal.ofBits .f32 0x3F800000#32 = 1 := by
  simp [Ideal.ofBits, Ideal.ieee, -EReal.coe_mul]; norm_num
theorem ofBits_negOne_f32 : Ideal.ofBits .f32 0xBF800000#32 = -1 := by
  simp [Ideal.ofBits, Ideal.ieee, -EReal.coe_mul]; norm_num

end Cert.Proof.KernelIdeal

end
-- ==== Proof.RowLawIdeal.lean ====
/-
  The law of one row. For a row x of 81 real numbers, let m[c] (c < 128) be the product of the row of exponentials
  exp x[k] with column c of the 81 x 128 matrix of zeros and ones whose column 1 has a single one, at k = 0, and whose
  other columns are all ones; so m[1] = exp x[0] and m[c] = sum_k exp x[k] for c ≠ 1. Weighting log m[c] by +1 at
  c = 0, by -1 at c = 1 and by 0 elsewhere and summing over c gives log (sum_k exp x[k]) - x[0]: column 0 gives the
  logarithm of the sum, column 1 gives -log (exp x[0]) = -x[0], and every other column is a real number times zero.
-/
import proofs.«219810_g10299331576301_week1_w1_912_40_alg».proof.Proof.Common
import proofs.«219810_g10299331576301_week1_w1_912_40_alg».proof.Proof.Spec
import proofs.«219810_g10299331576301_week1_w1_912_40_alg».proof.Proof.RealsIdeal
import Idealize.ShloMosaic.Lib.StackMember
import Idealize.ShloMosaic.Lib.ValueLayout
import Idealize.ShloMosaic.PureOps.Ideal.Laws

noncomputable section

namespace Cert.Proof.KernelIdeal

open Cert.KernelIdeal Cert.KernelIdeal.Gen

open Idealize.ShloMosaic Idealize.ShloMosaic.ValueIdx

/-- Entry (k, c) of the 81 x 128 matrix of zeros and ones. -/
def wsel (k : Fin 81) (c : Fin 128) : EReal := if c.val = 1 then (if k.val = 0 then 1 else 0) else 1

/-- Entry c of the row of weights. -/
def wrow (c : Fin 128) : EReal := if c.val = 0 then 1 else if c.val = 1 then -1 else 0

theorem row_law (x : Fin 81 → ℝ) :
    ∑ c : Fin 128, Ideal.log (∑ k : Fin 81, Ideal.exp (x k : EReal) * wsel k c) * wrow c
      = Ideal.log (∑ k : Fin 81, Ideal.exp (x k : EReal)) - (x 0 : EReal) := by
  have hS : (∑ k : Fin 81, Ideal.exp (x k : EReal)) = ((∑ k : Fin 81, Real.exp (x k) : ℝ) : EReal) := by
    rw [coe_finset_sum]; rfl
  have hpos : 0 < ∑ k : Fin 81, Real.exp (x k) :=
    Finset.sum_pos (fun k _ => Real.exp_pos _) Finset.univ_nonempty
  have hlogS : Ideal.log (∑ k : Fin 81, Ideal.exp (x k : EReal))
      = ((Real.log (∑ k : Fin 81, Real.exp (x k)) : ℝ) : EReal) := by
    rw [hS, Ideal.log_coe, if_neg (not_le.mpr hpos)]
  have hcol : ∀ c : Fin 128, c.val ≠ 1 →
      (∑ k : Fin 81, Ideal.exp (x k : EReal) * wsel k c) = ∑ k : Fin 81, Ideal.exp (x k : EReal) := by
    intro c hc
    refine Finset.sum_congr rfl fun k _ => ?_
    rw [wsel, if_neg hc, mul_one]
  have hcol1 : (∑ k : Fin 81, Ideal.exp (x k : EReal) * wsel k 1) = Ideal.exp (x 0 : EReal) := by
    rw [Finset.sum_eq_single (0 : Fin 81)]
    · rw [wsel, if_pos (show (1 : Fin 128).val = 1 from rfl), if_pos (show (0 : Fin 81).val = 0 from rfl), mul_one]
    · intro k _ hk
      rw [wsel, if_pos (show (1 : Fin 128).val = 1 from rfl), if_neg (show ¬ k.val = 0 from fun h => hk (Fin.ext h)), mul_zero]
    · intro h; exact absurd (Finset.mem_univ _) h
  have hlog1 : Ideal.log (Ideal.exp (x 0 : EReal)) = (x 0 : EReal) := by
    rw [Ideal.exp_coe, Ideal.log_coe, if_neg (not_le.mpr (Real.exp_pos _)), Real.log_exp]
  rw [Finset.sum_eq_add (0 : Fin 128) 1 (by decide) ?_ (fun h => absurd (Finset.mem_univ _) h)
    (fun h => absurd (Finset.mem_univ _) h)]
  · rw [hcol 0 (by decide), hcol1, hlog1, hlogS]
    rw [show wrow 0 = 1 from if_pos rfl, show wrow 1 = -1 from rfl, mul_one, mul_neg, mul_one, sub_eq_add_neg]
  · intro c _ hc
    have h0 : ¬ c.val = 0 := fun h => hc.1 (Fin.ext h)
    have h1 : ¬ c.val = 1 := fun h => hc.2 (Fin.ext h)
    rw [wrow, if_neg h0, if_neg h1, mul_zero]

end Cert.Proof.KernelIdeal

end
-- ==== Proof.HalfIdeal.lean ====
/-
  The value of one half-block of the class-loss kernel at the extended reals.

  The block x is 1 x 12328 x 81. The kernel takes exp entrywise, multiplies the 12328 x 81 result by the 81 x 128 matrix
  of zeros and ones (column 1 picks class 0, every other column sums the 81 classes), takes log entrywise, multiplies
  by the row of weights (+1 at column 0, -1 at column 1, 0 elsewhere) and sums all 12328 x 128 entries. Row by row this is
  the law of one row: log (sum_k exp x[r,k]) - x[r,0]; the value of the block is the sum of that over the 12328 rows.
-/
import proofs.«219810_g10299331576301_week1_w1_912_40_alg».proof.Proof.Common
import proofs.«219810_g10299331576301_week1_w1_912_40_alg».proof.Proof.Spec
import proofs.«219810_g10299331576301_week1_w1_912_40_alg».proof.Proof.RealsIdeal
import proofs.«219810_g10299331576301_week1_w1_912_40_alg».proof.Proof.RowLawIdeal
import Idealize.ShloMosaic.Lib.StackMember
import Idealize.ShloMosaic.Lib.ValueLayout
import Idealize.ShloMosaic.PureOps.Ideal.Laws

noncomputable section

namespace Cert.Proof.KernelIdeal

open Cert.KernelIdeal Cert.KernelIdeal.Gen

open Idealize.ShloMosaic Idealize.ShloMosaic.ValueIdx

/-- Entry (k, c) of the kernel's 81 x 128 matrix of zeros and ones, read off its two iotas and two selects. -/
theorem wmat_apply (h0 : S81x128.Iotas .tc 32 [0]) (h1 : S81x128.Iotas .tc 32 [1]) (hb : FTy.bits .bf16 < FTy.bits .f32)
    (k : Fin 81) (c : Fin 128) :
    (truncf .bf16
      (select (cmpi .eq (iota .tc S81x128 32 [1] h1) (broadcast S81x128 1#32))
        (select (cmpi .eq (iota .tc S81x128 32 [0] h0) (broadcast S81x128 0#32))
          (broadcast S81x128 (FloatOps.ofBits (F := Ideal) .f32 0x3F800000#32))
          (broadcast S81x128 (FloatOps.ofBits (F := Ideal) .f32 0x00000000#32)))
        (broadcast S81x128 (FloatOps.ofBits (F := Ideal) .f32 0x3F800000#32))) hb : FVec Ideal S81x128 .bf16) (ix2 k c)
      = wsel k c := by
  rw [truncf_apply, select_apply, select_apply]
  show Scalar.select (IntOp.cmpi .eq (iota .tc S81x128 32 [1] h1 (ix2 k c)) (BitVec.ofNat 32 1))
      (Scalar.select (IntOp.cmpi .eq (iota .tc S81x128 32 [0] h0 (ix2 k c)) (BitVec.ofNat 32 0))
        (Ideal.ofBits .f32 0x3F800000#32) (Ideal.ofBits .f32 0x00000000#32)) (Ideal.ofBits .f32 0x3F800000#32) = _
  rw [iota_single_apply, iota_single_apply]
  show Scalar.select (IntOp.cmpi .eq (BitVec.ofNat 32 c.val) (BitVec.ofNat 32 1))
      (Scalar.select (IntOp.cmpi .eq (BitVec.ofNat 32 k.val) (BitVec.ofNat 32 0))
        (Ideal.ofBits .f32 0x3F800000#32) (Ideal.ofBits .f32 0x00000000#32)) (Ideal.ofBits .f32 0x3F800000#32) = _
  rw [select_cmpi_eq _ _ (by have := c.isLt; omega) (by omega), select_cmpi_eq _ _ (by have := k.isLt; omega) (by omega),
    ofBits_one_f32, Ideal.ofBits_zero_f32]
  rfl

/-- Entry (r, c) of the kernel's 12328 x 128 array of weights: it depends on the column only. -/
theorem wts_apply (h1 : S12328x128.Iotas .tc 32 [1]) (r : Fin 12328) (c : Fin 128) :
    (select (cmpi .eq (iota .tc S12328x128 32 [1] h1) (broadcast S12328x128 0#32))
      (broadcast S12328x128 (FloatOps.ofBits (F := Ideal) .f32 0x3F800000#32))
      (select (cmpi .eq (iota .tc S12328x128 32 [1] h1) (broadcast S12328x128 1#32))
        (broadcast S12328x128 (FloatOps.ofBits (F := Ideal) .f32 0xBF800000#32))
        (broadcast S12328x128 (FloatOps.ofBits (F := Ideal) .f32 0x00000000#32))) : FVec Ideal S12328x128 .f32) (ix2 r c)
      = wrow c := by
  rw [select_apply, select_apply]
  show Scalar.select (IntOp.cmpi .eq (iota .tc S12328x128 32 [1] h1 (ix2 r c)) (BitVec.ofNat 32 0))
      (Ideal.ofBits .f32 0x3F800000#32)
      (Scalar.select (IntOp.cmpi .eq (iota .tc S12328x128 32 [1] h1 (ix2 r c)) (BitVec.ofNat 32 1))
        (Ideal.ofBits .f32 0xBF800000#32) (Ideal.ofBits .f32 0x00000000#32)) = _
  rw [iota_single_apply]
  show Scalar.select (IntOp.cmpi .eq (BitVec.ofNat 32 c.val) (BitVec.ofNat 32 0))
      (Ideal.ofBits .f32 0x3F800000#32)
      (Scalar.select (IntOp.cmpi .eq (BitVec.ofNat 32 c.val) (BitVec.ofNat 32 1))
        (Ideal.ofBits .f32 0xBF800000#32) (Ideal.ofBits .f32 0x00000000#32)) = _
  rw [select_cmpi_eq _ _ (by have := c.isLt; omega) (by omega), select_cmpi_eq _ _ (by have := c.isLt; omega) (by omega),
    ofBits_one_f32, ofBits_negOne_f32, Ideal.ofBits_zero_f32]
  rfl

/-- Entry (r, k) of the exponentials: the exponential of entry (0, r, k) of the block (no rounding at the extended reals). -/
theorem expo_apply (v0 : Vec Ideal S1x12328x81 .f32) (h : S1x12328x81.ShapeCasts S12328x81)
    (hb : FTy.bits .bf16 < FTy.bits .f32) (r : Fin 12328) (k : Fin 81) :
    (truncf .bf16 (exp (shapeCast S12328x81 v0 h)) hb : FVec Ideal S12328x81 .bf16) (ix2 r k)
      = Ideal.exp (v0 (ix3 0 r k)) := by
  rw [truncf_apply]
  show Ideal.exp (shapeCast S12328x81 v0 h (ix2 r k)) = _
  rw [shapeCast_1ab_ab_apply]

/-- The kernel's matrix product into the zero accumulator, at entry (r, c): the sum over k of the products. -/
theorem mm_apply (A : FVec Ideal S12328x81 .bf16) (B : FVec Ideal S81x128 .bf16) (r : Fin 12328) (c : Fin 128) :
    matmul dot_S12328x81_S81x128_S12328x128_1_0_0_1_n_n none A B (constant S12328x128 .f32 0x00000000#32) (ix2 r c)
      = ∑ k : Fin 81, A (ix2 r k) * B (ix2 k c) := by
  rw [matmul_zero_eq_dotGeneral]
  exact StackMember.dotGeneral_plain_apply (m := 12328) (n := 128) (k := 81) none A B r c

/-- A shape cast keeps the elements, so it keeps their sum. -/
theorem sum_shapeCast {s t : Shape} (P : s.Idx → EReal) (h : s.ShapeCasts t) :
    ∑ i : t.Idx, shapeCast t P h i = ∑ j : s.Idx, P j :=
  Equiv.sum_comp (Shape.reshapeEquiv h) P

/-- THE HALF-SUM: on a block of real numbers the kernel's value is the sum over the 12328 rows of
    log (sum_j exp x[0, r, j]) - x[0, r, 0]. -/
theorem k1_pay2_ideal (v0 : Vec Ideal S1x12328x81 .f32) (hfin : ∀ i, ∃ r : ℝ, v0 i = (r : EReal)) :
    k1_pay2 (F := Ideal) v0
      = ∑ r : Fin 12328, (Ideal.log (∑ j : Fin 81, Ideal.exp (v0 (ix3 0 r j))) - v0 (ix3 0 r 0)) := by
  choose x hx using hfin
  unfold k1_pay2
  dsimp only
  unfold extractAt
  rw [shapeCast_apply _ _ _ (ix1 (0 : Fin 1)) (by rw [Shape.rowMajor_val_one, Shape.rowMajor_val_three]; rfl)]
  refine (Ideal.multiReduction_add_total (φ := .f32) _ 0x00000000#32 reduces_S1x12328x128_S1 (by decide) _ _
    (ix1 (0 : Fin 1))).trans ?_
  rw [sum_shapeCast, sum_idx2]
  refine Finset.sum_congr rfl fun r _ => ?_
  trans ∑ c : Fin 128, Ideal.log (∑ k : Fin 81, Ideal.exp ((x (ix3 0 r k) : ℝ) : EReal) * wsel k c) * wrow c
  · refine Finset.sum_congr rfl fun c _ => ?_
    rw [mulf_apply, wts_apply]
    show Ideal.log (matmul (F := Ideal) dot_S12328x81_S81x128_S12328x128_1_0_0_1_n_n none _ _
      (constant S12328x128 .f32 0x00000000#32) (ix2 r c)) * wrow c = _
    rw [mm_apply]
    refine congrArg (fun t => Ideal.log t * wrow c) (Finset.sum_congr rfl fun k _ => ?_)
    rw [expo_apply, wmat_apply, hx]
  · rw [row_law (fun k => x (ix3 0 r k))]
    simp only [hx]

end Cert.Proof.KernelIdeal

end
-- ==== Proof.ClsIdeal.lean ====
/-
  The class-loss kernel's 1 x 1 result at the extended reals, on an array x1 (16 x 24656 x 81) of real numbers: the sum
  over the 16 batch entries t and the 24656 rows a of log (sum_j exp x1[t, a, j]) - x1[t, a, 0].

  Grid point t adds the values of the two halves of batch entry t. The value of half h is the sum of the row term over
  rows 12328 h + r, r < 12328; the two halves together are the sum over all 24656 rows. The accumulator starts at zero and
  after n points holds the sum over the first n batch entries.
-/
import proofs.«219810_g10299331576301_week1_w1_912_40_alg».proof.Proof.ClsVal
import proofs.«219810_g10299331576301_week1_w1_912_40_alg».proof.Proof.HalfIdeal

noncomputable section

namespace Cert.Proof.KernelIdeal

open Cert.KernelIdeal Cert.KernelIdeal.Gen

open Idealize.ShloMosaic Idealize.ShloMosaic.ValueIdx

/-- The sum of the row terms of batch entry t. -/
def entrySum (x1 : S16x24656x81.Idx → EReal) (t : Fin 16) : EReal := ∑ a : Fin 24656, Cert.Spec.rowLoss x1 t a

/-- The value of half h of batch entry t: the row terms of rows 12328 h + r. -/
theorem clsHalf_ideal (x1 : S16x24656x81.Idx → EReal) (hfin : ∀ i, ∃ r : ℝ, x1 i = (r : EReal)) (t : Fin 16) (h : Fin 2) :
    k1_pay2 (F := Ideal) (clsBlock (F := Ideal) x1 t h)
      = ∑ r : Fin 12328, Cert.Spec.rowLoss x1 t
          ⟨h.val * 12328 + r.val, by have h1 := r.isLt; have h2 := h.isLt; omega⟩ := by
  rw [k1_pay2_ideal (clsBlock (F := Ideal) x1 t h) (fun i => hfin _)]
  rfl

/-- What grid point t adds: the sum of the row terms over all rows of batch entry t. -/
theorem clsPoint_ideal (x1 : S16x24656x81.Idx → EReal) (hfin : ∀ i, ∃ r : ℝ, x1 i = (r : EReal)) (t : Fin 16) :
    clsPoint (F := Ideal) x1 t = entrySum x1 t := by
  unfold clsPoint
  rw [clsHalf_ideal x1 hfin t 0, clsHalf_ideal x1 hfin t 1]
  refine Eq.trans ?_ (Fin.sum_univ_add (a := 12328) (b := 12328) (fun a : Fin (12328 + 12328) => Cert.Spec.rowLoss x1 t a)).symm
  show (∑ r : Fin 12328, _) + (∑ r : Fin 12328, _) = _
  refine congrArg₂ (· + ·) (Finset.sum_congr rfl fun r _ => ?_) (Finset.sum_congr rfl fun r _ => ?_)
  · exact congrArg (Cert.Spec.rowLoss x1 t) (Fin.ext (by show 0 * 12328 + r.val = r.val; omega))
  · exact congrArg (Cert.Spec.rowLoss x1 t) (Fin.ext (by show 1 * 12328 + r.val = 12328 + r.val; omega))

/-- The accumulator after n points: the sum over the first n batch entries. -/
theorem clsAcc_ideal (x1 : S16x24656x81.Idx → EReal) (hfin : ∀ i, ∃ r : ℝ, x1 i = (r : EReal)) :
    ∀ (n : ℕ) (hn : n ≤ 16), clsAcc (F := Ideal) x1 n = ∑ t : Fin n, entrySum x1 ⟨t.val, lt_of_lt_of_le t.isLt hn⟩
  | 0, _ => by
      rw [clsAcc_zero (F := Ideal) x1, Fin.sum_univ_zero]
      exact Ideal.ofBits_zero_f32
  | n + 1, hn => by
      refine Eq.trans ?_ (Fin.sum_univ_castSucc (n := n) (fun t => entrySum x1 ⟨t.val, lt_of_lt_of_le t.isLt hn⟩)).symm
      rw [clsAcc_succ (F := Ideal) x1 n (by omega)]
      show clsAcc (F := Ideal) x1 n + clsPoint (F := Ideal) x1 ⟨n, by omega⟩ = _
      rw [clsAcc_ideal x1 hfin n (by omega), clsPoint_ideal x1 hfin]
      rfl

/-- THE CLASS-LOSS KERNEL'S RESULT on an array of real numbers: the specification's sum of the row terms. -/
theorem clsOut_ideal (x1 : S16x24656x81.Idx → EReal) (hfin : ∀ i, ∃ r : ℝ, x1 i = (r : EReal)) :
    clsOut (F := Ideal) x1 = fun _ => Cert.Spec.lossSum x1 := by
  funext _
  show clsAcc (F := Ideal) x1 16 = _
  rw [clsAcc_ideal x1 hfin 16 le_rfl]
  rfl

end Cert.Proof.KernelIdeal

end
-- ==== Proof.LocIdeal.lean ====
/-
  The sum of the 32 x 16 array of partial sums at the extended reals is the sum of the absolute values of all the
  16 x 24656 x 4 entries of the first argument.

  Lane b of an accumulator number u after n trips from row r0 holds the sum over m < n of |x0[s, r0 + 4 (4 m + u) + b / 4, b % 4]|.
  As b runs over 16 lanes, u over 4 accumulators and m over n trips, the pair (row offset 4 (4 m + u) + b / 4, column b % 4)
  runs exactly once over the 16 n row offsets and the 4 columns: so the 16 lanes of the four accumulators together hold the sum
  of |x0[s, r0 + ρ, col]| over ρ < 16 n and col < 4. The task of core 0 keeps its main part only (rows 0 .. 12287: its tail
  is multiplied by the mask 0, and anything times 0 is 0 on the extended reals); the task of core 1 keeps its main part
  (rows 12288 .. 24575) and its tail (rows 24576 .. 24655). Together they cover every row of batch entry s once, and the
  16 subcores cover the 16 batch entries.
-/
import proofs.«219810_g10299331576301_week1_w1_912_40_alg».proof.Proof.TileVal
import proofs.«219810_g10299331576301_week1_w1_912_40_alg».proof.Proof.RealsIdeal
import proofs.«219810_g10299331576301_week1_w1_912_40_alg».proof.Proof.Spec

noncomputable section

namespace Cert.Proof.KernelIdeal

open Cert.KernelIdeal Cert.KernelIdeal.Gen

open Idealize.ShloMosaic Idealize.ShloMosaic.ValueIdx

/-- The absolute value on the extended reals. -/
def absv (y : EReal) : EReal := max y (-y)

/-- Every index of a rank-3 array is its three coordinates … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over them is the triple sum over the coordinates. -/
theorem sum_idx3 {n0 n1 n2 : Nat} (f : (⟨3, ![n0, n1, n2]⟩ : Shape).Idx → EReal) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The absolute value of entry (s, r, col), the row given as a number. -/
def rowAbs (x0 : S16x24656x4.Idx → EReal) (s : Fin 16) (r : ℕ) (col : Fin 4) : EReal :=
  absv (rowAt (F := Ideal) x0 s r col)

theorem rowAbs_eq (x0 : S16x24656x4.Idx → EReal) (s : Fin 16) (r : ℕ) (r' : Fin 24656) (hr : r = r'.val) (col : Fin 4) :
    rowAbs x0 s r col = absv (x0 (ix3 s r' col)) := by
  subst hr
  unfold rowAbs
  rw [rowAt_of_lt (F := Ideal) x0 s r'.isLt col]

/-- Lane b of accumulator u after n trips from row r0: the sum over the trips of the absolute values gathered. -/
theorem acc_ideal (x0 : S16x24656x4.Idx → EReal) (s : Fin 16) (r0 u : ℕ) (b : Fin 16) :
    ∀ n : ℕ, acc (F := Ideal) x0 s r0 u n (ix1 b)
      = ∑ m : Fin n, rowAbs x0 s (r0 + 4 * (4 * m.val + u) + b.val / 4) ⟨b.val % 4, Nat.mod_lt _ (by decide)⟩
  | 0 => by
      rw [acc_zero, Fin.sum_univ_zero]
      exact Ideal.ofBits_zero_f32
  | n + 1 => by
      rw [acc_succ, Fin.sum_univ_castSucc]
      exact congrArg₂ (· + ·) (acc_ideal x0 s r0 u b n) rfl

/-- (lane, accumulator, trip) against (row offset, column): each pair is met once. -/
def blkEquiv (n : ℕ) : Fin 16 × Fin 4 × Fin n ≃ Fin (16 * n) × Fin 4 where
  toFun p := (⟨4 * (4 * p.2.2.val + p.2.1.val) + p.1.val / 4, by
      have h1 := p.1.isLt; have h2 := p.2.1.isLt; have h3 := p.2.2.isLt; omega⟩,
    ⟨p.1.val % 4, Nat.mod_lt _ (by decide)⟩)
  invFun q := (⟨4 * (q.1.val % 4) + q.2.val, by have := q.2.isLt; omega⟩, ⟨q.1.val / 4 % 4, Nat.mod_lt _ (by decide)⟩,
    ⟨q.1.val / 16, by have := q.1.isLt; omega⟩)
  left_inv := by
    rintro ⟨b, u, m⟩
    have h1 := b.isLt; have h2 := u.isLt; have h3 := m.isLt
    refine Prod.ext (Fin.ext ?_) (Prod.ext (Fin.ext ?_) (Fin.ext ?_))
    · show 4 * ((4 * (4 * m.val + u.val) + b.val / 4) % 4) + b.val % 4 = b.val
      omega
    · show (4 * (4 * m.val + u.val) + b.val / 4) / 4 % 4 = u.val
      omega
    · show (4 * (4 * m.val + u.val) + b.val / 4) / 16 = m.val
      omega
  right_inv := by
    rintro ⟨ρ, col⟩
    have h1 := ρ.isLt; have h2 := col.isLt
    refine Prod.ext (Fin.ext ?_) (Fin.ext ?_)
    · show 4 * (4 * (ρ.val / 16) + ρ.val / 4 % 4) + (4 * (ρ.val % 4) + col.val) / 4 = ρ.val
      omega
    · show (4 * (ρ.val % 4) + col.val) % 4 = col.val
      omega

/-- The 16 lanes of four accumulators after n trips from row r0 hold the sum over 16 n rows from r0 and the 4 columns. -/
theorem blk_sum (G : ℕ → Fin 4 → EReal) (r0 n : ℕ) :
    ∑ b : Fin 16, ∑ u : Fin 4, ∑ m : Fin n,
        G (r0 + 4 * (4 * m.val + u.val) + b.val / 4) ⟨b.val % 4, Nat.mod_lt _ (by decide)⟩
      = ∑ ρ : Fin (16 * n), ∑ col : Fin 4, G (r0 + ρ.val) col := by
  have e := Fintype.sum_equiv (blkEquiv n)
    (fun p : Fin 16 × Fin 4 × Fin n =>
      G (r0 + 4 * (4 * p.2.2.val + p.2.1.val) + p.1.val / 4) ⟨p.1.val % 4, Nat.mod_lt _ (by decide)⟩)
    (fun q : Fin (16 * n) × Fin 4 => G (r0 + q.1.val) q.2)
    (fun p => congrArg (fun t => G t _) (Nat.add_assoc _ _ _))
  simp only [Fintype.sum_prod_type] at e
  exact e

/-- The mask of core 0 is zero, of core 1 one. -/
theorem cmask_zero : cmask (F := Ideal) 0 = 0 := by
  show (if (0 : Fin 2).val = 1 then _ else _) = _
  rw [if_neg (by decide)]
  exact Ideal.ofBits_zero_f32
theorem cmask_one : cmask (F := Ideal) 1 = 1 := by
  show (if (1 : Fin 2).val = 1 then _ else _) = _
  rw [if_pos (show (1 : Fin 2).val = 1 from rfl)]
  exact ofBits_one_f32

/-- A lane of the task of core 0: its four main accumulators (the tail is multiplied by zero). -/
theorem lane_core0 (x0 : S16x24656x4.Idx → EReal) (s : Fin 16) (b : Fin 16) :
    tileRow (F := Ideal) x0 0 s (ix1 b) = ∑ u : Fin 4, acc (F := Ideal) x0 s 0 u.val 768 (ix1 b) := by
  rw [tileRow_apply]
  simp only [Ideal.addf_def, Ideal.mulf_def, cmask_zero, mul_zero, add_zero]
  rw [Fin.sum_univ_four]
  show Ideal.ofBits .f32 0x00000000#32 + _ + _ + _ + _ = _
  rw [Ideal.ofBits_zero_f32, zero_add]
  rfl

/-- A lane of the task of core 1: its four main accumulators and its four tail accumulators. -/
theorem lane_core1 (x0 : S16x24656x4.Idx → EReal) (s : Fin 16) (b : Fin 16) :
    tileRow (F := Ideal) x0 1 s (ix1 b)
      = ∑ u : Fin 4, acc (F := Ideal) x0 s 12288 u.val 768 (ix1 b)
        + ∑ u : Fin 4, acc (F := Ideal) x0 s 24576 u.val 5 (ix1 b) := by
  rw [tileRow_apply]
  simp only [Ideal.addf_def, Ideal.mulf_def, cmask_one, mul_one]
  rw [Fin.sum_univ_four, Fin.sum_univ_four]
  show Ideal.ofBits .f32 0x00000000#32 + _ + _ + _ + _ + _ + _ + _ + _ = _
  rw [Ideal.ofBits_zero_f32, zero_add]
  simp only [add_assoc]
  rfl

/-- Row w = 2 s + c of the 32 rows is the task of core c, subcore s. -/
def tileEquiv : Fin 16 × Fin 2 ≃ Fin 32 where
  toFun p := ⟨2 * p.1.val + p.2.val, by have h1 := p.1.isLt; have h2 := p.2.isLt; omega⟩
  invFun w := (⟨w.val / 2, by have := w.isLt; omega⟩, ⟨w.val % 2, Nat.mod_lt _ (by decide)⟩)
  left_inv := by
    rintro ⟨s, c⟩
    have h2 := c.isLt
    refine Prod.ext (Fin.ext ?_) (Fin.ext ?_)
    · show (2 * s.val + c.val) / 2 = s.val
      omega
    · show (2 * s.val + c.val) % 2 = c.val
      omega
  right_inv := by
    intro w
    refine Fin.ext ?_
    show 2 * (w.val / 2) + w.val % 2 = w.val
    omega

theorem half_lt (a : Fin 32) : a.val / 2 < 16 := by have := a.isLt; omega

theorem tileOut_apply (x0 : S16x24656x4.Idx → EReal) (a : Fin 32) (b : Fin 16) (c : Fin 2) (s : Fin 16)
    (hc : a.val % 2 = c.val) (hs : a.val / 2 = s.val) :
    tileOut (F := Ideal) x0 (ix2 a b) = tileRow (F := Ideal) x0 c s (ix1 b) := by
  obtain rfl : c = ⟨a.val % 2, Nat.mod_lt _ (by decide)⟩ := Fin.ext hc.symm
  obtain rfl : s = ⟨a.val / 2, half_lt a⟩ := Fin.ext hs.symm
  rfl

theorem tileOut_wid (x0 : S16x24656x4.Idx → EReal) (s : Fin 16) (c : Fin 2) (b : Fin 16) :
    tileOut (F := Ideal) x0 (ix2 (tileEquiv (s, c)) b) = tileRow (F := Ideal) x0 c s (ix1 b) := by
  have h2 := c.isLt
  refine tileOut_apply x0 _ b c s ?_ ?_
  · show (2 * s.val + c.val) % 2 = c.val
    omega
  · show (2 * s.val + c.val) / 2 = s.val
    omega

/-- The two tasks of subcore s together hold the sum over all the rows and columns of batch entry s. -/
theorem entry_rows (x0 : S16x24656x4.Idx → EReal) (s : Fin 16) :
    (∑ b : Fin 16, tileRow (F := Ideal) x0 0 s (ix1 b)) + (∑ b : Fin 16, tileRow (F := Ideal) x0 1 s (ix1 b))
      = ∑ r : Fin 24656, ∑ col : Fin 4, absv (x0 (ix3 s r col)) := by
  simp only [lane_core0, lane_core1, acc_ideal]
  rw [Finset.sum_add_distrib, blk_sum, blk_sum, blk_sum]
  refine Eq.trans ?_ (Fin.sum_univ_add (a := 12288) (b := 12288 + 80)
    (fun r : Fin (12288 + (12288 + 80)) => ∑ col : Fin 4, absv (x0 (ix3 s r col)))).symm
  refine congrArg₂ (· + ·) ?_ ?_
  · refine Finset.sum_congr rfl fun ρ _ => Finset.sum_congr rfl fun col _ => ?_
    exact rowAbs_eq x0 s _ _ (by show 0 + ρ.val = ρ.val; omega) col
  · refine Eq.trans ?_ (Fin.sum_univ_add (a := 12288) (b := 80)
      (fun r : Fin (12288 + 80) => ∑ col : Fin 4, absv (x0 (ix3 s (Fin.natAdd 12288 r) col)))).symm
    refine congrArg₂ (· + ·) ?_ ?_
    · refine Finset.sum_congr rfl fun ρ _ => Finset.sum_congr rfl fun col _ => ?_
      exact rowAbs_eq x0 s _ _ (by show 12288 + ρ.val = 12288 + ρ.val; rfl) col
    · refine Finset.sum_congr rfl fun ρ _ => Finset.sum_congr rfl fun col _ => ?_
      exact rowAbs_eq x0 s _ _ (by show 24576 + ρ.val = 12288 + (12288 + ρ.val); omega) col

/-- THE SUM OF THE PARTIAL SUMS: the sum of the absolute values of every entry of the first argument. -/
theorem tileOut_sum_ideal (x0 : S16x24656x4.Idx → EReal) :
    (∑ j : S32x16.Idx, tileOut (F := Ideal) x0 j) = Cert.Spec.absSum x0 := by
  rw [sum_idx2, ← Equiv.sum_comp tileEquiv (fun a : Fin 32 => ∑ b : Fin 16, tileOut (F := Ideal) x0 (ix2 a b)),
    Fintype.sum_prod_type]
  unfold Cert.Spec.absSum
  rw [sum_idx3]
  refine Finset.sum_congr rfl fun s _ => ?_
  rw [Fin.sum_univ_two]
  simp only [tileOut_wid]
  exact entry_rows x0 s

/-- The same with the zero the host's sum starts from. -/
theorem zero_add_tileOut_sum_ideal (x0 : S16x24656x4.Idx → EReal) :
    Ideal.ofBits .f32 0x00000000#32 + (∑ j : S32x16.Idx, tileOut (F := Ideal) x0 j) = Cert.Spec.absSum x0 := by
  rw [Ideal.ofBits_zero_f32, zero_add, tileOut_sum_ideal]

end Cert.Proof.KernelIdeal

end
-- ==== Proof.HostIdeal.lean ====
/-
  The last operations of the program at the extended reals: the 32 x 16 array of partial sums is summed from zero and
  divided by the number of entries of the first argument (the float 0x49C0A000); the 1 x 1 class sum is read as a scalar
  and divided by the number of rows (the float 0x48C0A000); the total is the sum of the two quotients. On the arrays the
  two kernels produce these are the specification's three results.
-/
import proofs.«219810_g10299331576301_week1_w1_912_40_alg».proof.Proof.Tail
import proofs.«219810_g10299331576301_week1_w1_912_40_alg».proof.Proof.ClsIdeal
import proofs.«219810_g10299331576301_week1_w1_912_40_alg».proof.Proof.LocIdeal

noncomputable section

namespace Cert.Proof.KernelIdeal

open Cert.KernelIdeal Cert.KernelIdeal.Gen

open Idealize.ShloMosaic Idealize.ShloMosaic.ValueIdx

/-- The sum from an initial scalar of a 32 x 16 array, into a scalar: the initial value plus the sum of all the entries. -/
theorem hostSum_ideal (v0 : FVec Ideal S32x16 .f32) (init : S_.Idx → Ideal .f32) (h : S32x16.ReducesTo [0, 1] S_)
    (hu : 0 < S_.numel) (j : S_.Idx) :
    Host.reduceAdd (F := Ideal) v0 init h hu j = init (Shape.Idx.first hu) + ∑ i : S32x16.Idx, v0 i :=
  Ideal.hostReduceAdd_total h (fun b => b.elim0) v0 _ j

/-- The location loss: the sum of the partial sums from zero, divided by the number of entries. -/
theorem hostLoc_ideal (x0 : S16x24656x4.Idx → EReal) (h : S32x16.ReducesTo [0, 1] S_) (hu : 0 < S_.numel) :
    Host.divf (F := Ideal) (Host.reduceAdd (F := Ideal) (tileOut (F := Ideal) x0) (constant (F := Ideal) S_ .f32 0x00000000#32) h hu)
        (constant (F := Ideal) S_ .f32 0x49C0A000#32)
      = fun _ => Cert.Spec.loc x0 := by
  funext j
  show Ideal.div (Host.reduceAdd (F := Ideal) (tileOut (F := Ideal) x0) (constant (F := Ideal) S_ .f32 0x00000000#32) h hu j)
    (Ideal.ofBits .f32 0x49C0A000#32) = _
  rw [hostSum_ideal]
  show Ideal.div (Ideal.ofBits .f32 0x00000000#32 + ∑ i : S32x16.Idx, tileOut (F := Ideal) x0 i) _ = _
  rw [zero_add_tileOut_sum_ideal]
  rfl

/-- The class loss: the 1 x 1 class sum read as a scalar, divided by the number of rows. -/
theorem hostCls_ideal (x1 : S16x24656x81.Idx → EReal) (hfin : ∀ i, ∃ r : ℝ, x1 i = (r : EReal))
    (h : S1x1.ShapeCasts S_) :
    Host.divf (F := Ideal) (shapeCast S_ (clsOut (F := Ideal) x1) h) (constant (F := Ideal) S_ .f32 0x48C0A000#32)
      = fun _ => Cert.Spec.cls x1 := by
  funext j
  rw [clsOut_ideal x1 hfin]
  rfl

/-- The total: the sum of the two. -/
theorem hostTotal_ideal (x0 : S16x24656x4.Idx → EReal) (x1 : S16x24656x81.Idx → EReal) :
    addf (F := Ideal) (s := S_) (φ := .f32) (fun _ => Cert.Spec.loc x0) (fun _ => Cert.Spec.cls x1)
      = fun _ => Cert.Spec.total x0 x1 := rfl

/-- The three results of the program, from the arrays the two kernels produce. -/
theorem locOf_ideal (x0 : S16x24656x4.Idx → EReal) :
    locOf (F := Ideal) (tileOut (F := Ideal) x0) = fun _ => Cert.Spec.loc x0 :=
  hostLoc_ideal x0 _ _

theorem clsOf_ideal (x1 : S16x24656x81.Idx → EReal) (hfin : ∀ i, ∃ r : ℝ, x1 i = (r : EReal)) :
    clsOf (F := Ideal) (clsOut (F := Ideal) x1) = fun _ => Cert.Spec.cls x1 :=
  hostCls_ideal x1 hfin _

theorem totOf_ideal (x0 : S16x24656x4.Idx → EReal) (x1 : S16x24656x81.Idx → EReal)
    (hfin : ∀ i, ∃ r : ℝ, x1 i = (r : EReal)) :
    totOf (F := Ideal) (tileOut (F := Ideal) x0) (clsOut (F := Ideal) x1) = fun _ => Cert.Spec.total x0 x1 := by
  unfold totOf
  rw [locOf_ideal, clsOf_ideal x1 hfin]
  rfl

end Cert.Proof.KernelIdeal

end
-- ==== Proof.Finite.lean ====
/-
  Finiteness of the inputs, read off the precondition.
  The precondition function compares the absolute value of every entry of both argument arrays with +infinity
  (strictly below), and conjoins all the answers into one bit. When that bit is one, every comparison answered
  one, so |x| < +infinity for every entry x of either array; an extended real whose absolute value max x (-x) is
  below +infinity is neither +infinity nor -infinity, hence a real number.
-/
import proofs.«219810_g10299331576301_week1_w1_912_40_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.Proof.Finite

open Idealize.ShloMosaic Cert.Pre_finite_inputs Cert.Pre_finite_inputs.Gen

/-- The rank-0 shape has one index. -/
instance : Subsingleton S_.Idx := ⟨fun a b => funext fun d => d.elim0⟩

/-- The word 0x7F800000 denotes +infinity. -/
theorem inf_word : Ideal.ofBits .f32 0x7F800000#32 = (⊤ : EReal) := by
  simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison "|x| < +infinity" answering one says x is a real number. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  have h0 : Ideal.cmp .olt (max x (-x)) (Ideal.ofBits .f32 0x7F800000#32) = 0#1 := by
    rw [inf_word]
    simp only [Ideal.cmp, decide_eq_false hn]
    rfl
  rw [h0] at h
  exact absurd h (by decide)

/-- When the precondition function answers one, every entry of both arrays is a real number. -/
theorem finite_of_pre (x0 : FVec Ideal S16x24656x4 .f32) (x1 : FVec Ideal S16x24656x81 .f32)
    (h : Cert.Pre_finite_inputs.fn (F := Ideal) x0 x1 = (fun _ => 1#1)) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    have eb : broadcastInDim S16x24656x4 ![] bcast_S_S16x24656x4 (constant (F := Ideal) S_ .f32 0x7F800000#32) i
        = Ideal.ofBits .f32 0x7F800000#32 :=
      broadcastInDim_apply _ bcast_S_S16x24656x4 _ i ValueIdx.ix0 (fun a => a.elim0)
    refine real_of_cmp (x0 i) ?_
    rw [← eb]
    exact e
  · have e := Host.reduce_andi_all _ _ _ _ _ hb i
    have eb : broadcastInDim S16x24656x81 ![] bcast_S_S16x24656x81 (constant (F := Ideal) S_ .f32 0x7F800000#32) i
        = Ideal.ofBits .f32 0x7F800000#32 :=
      broadcastInDim_apply _ bcast_S_S16x24656x81 _ i ValueIdx.ix0 (fun a => a.elim0)
    refine real_of_cmp (x1 i) ?_
    rw [← eb]
    exact e

end Cert.Proof.Finite

end
-- ==== Proof.RefMath.lean ====
/-
  The real-analysis facts behind the reference's cross-entropy, on extended reals whose entries are real numbers.
  * A finite sum of real numbers, read in the extended reals, is the real sum.
  * The maximum of finitely many real numbers (folded from -infinity) is a real number.
  * Log-softmax does not depend on the shift: for a row r of real numbers and ANY real M,
      (r i0 - M) - log (0 + sum_k exp (r k - M)) = -(log (sum_k exp (r k)) - r i0),
    because sum_k exp (r k - M) = exp (-M) * sum_k exp (r k), a positive number, and log (exp (-M) * S) = -M + log S.
  * Minus (the sum of the negated row losses divided by a nonzero real) is the sum of the row losses divided by it.
-/
import Idealize.ShloMosaic.PureOps.Ideal
import Idealize.ShloMosaic.PureOps.Ideal.Laws

noncomputable section

namespace Cert.Proof.RefMath

open Idealize.ShloMosaic

/-- A finite sum of reals, read in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The word 0xFF800000 denotes -infinity. -/
theorem neg_inf_word : Ideal.ofBits .f32 0xFF800000#32 = (⊥ : EReal) := by
  simp [Ideal.ofBits, Ideal.ieee]

/-- The word 0x48C0A000 denotes the real number 394496. -/
theorem rows_word : Ideal.ofBits .f32 0x48C0A000#32 = ((394496 : ℝ) : EReal) := by
  simp [Ideal.ofBits, Ideal.ieee, -EReal.coe_mul]; norm_num

theorem coe_max (a b : ℝ) : ((max a b : ℝ) : EReal) = max (a : EReal) (b : EReal) :=
  EReal.coe_strictMono.monotone.map_max

/-- The maximum of a real number and finitely many real numbers folded from -infinity is a real number. -/
theorem max_fold_real {ι : Type*} [DecidableEq ι] (g : ι → ℝ) (s : Finset ι) (c : ℝ) :
    ∃ m : ℝ, max (c : EReal) (s.fold max ⊥ (fun k => ((g k : ℝ) : EReal))) = (m : EReal) := by
  induction s using Finset.induction_on generalizing c with
  | empty => exact ⟨c, by rw [Finset.fold_empty, max_bot_right]⟩
  | insert a s ha ih =>
    obtain ⟨m, hm⟩ := ih (max c (g a))
    refine ⟨m, ?_⟩
    rw [Finset.fold_insert ha, ← max_assoc, ← coe_max, hm]

/-- The maximum of finitely many (at least one) real numbers folded from -infinity is a real number. -/
theorem fold_max_real {ι : Type*} [DecidableEq ι] (g : ι → ℝ) (s : Finset ι) (hs : s.Nonempty) :
    ∃ m : ℝ, s.fold max ⊥ (fun k => ((g k : ℝ) : EReal)) = (m : EReal) := by
  obtain ⟨a, ha⟩ := hs
  rw [← Finset.insert_erase ha, Finset.fold_insert (Finset.notMem_erase a s)]
  exact max_fold_real g _ (g a)

/-- The row loss of a row of real numbers is a real number. -/
theorem rowloss_real {ι : Type*} [Fintype ι] [Nonempty ι] (r : ι → ℝ) (i0 : ι) :
    Ideal.log (∑ k, Ideal.exp ((r k : ℝ) : EReal)) - ((r i0 : ℝ) : EReal)
      = ((Real.log (∑ k, Real.exp (r k)) - r i0 : ℝ) : EReal) := by
  have hpos : 0 < ∑ k, Real.exp (r k) := Finset.sum_pos (fun k _ => Real.exp_pos _) Finset.univ_nonempty
  simp only [Ideal.exp_coe]
  rw [coe_sum, Ideal.log_coe, if_neg (not_le.mpr hpos), ← EReal.coe_sub]

/-- Log-softmax at a row of real numbers, computed with any real shift M, is minus the row loss. -/
theorem logsoftmax_shift {ι : Type*} [Fintype ι] [Nonempty ι] (r : ι → ℝ) (i0 : ι) (M : ℝ) :
    (((r i0 : ℝ) : EReal) - (M : EReal)) - Ideal.log ((0 : EReal) + ∑ k, Ideal.exp (((r k : ℝ) : EReal) - (M : EReal)))
      = ((-(Real.log (∑ k, Real.exp (r k)) - r i0) : ℝ) : EReal) := by
  have hpos' : 0 < ∑ k, Real.exp (r k) := Finset.sum_pos (fun k _ => Real.exp_pos _) Finset.univ_nonempty
  have hpos : 0 < ∑ k, Real.exp (r k - M) := Finset.sum_pos (fun k _ => Real.exp_pos _) Finset.univ_nonempty
  have e1 : ∀ k, Ideal.exp (((r k : ℝ) : EReal) - (M : EReal)) = ((Real.exp (r k - M) : ℝ) : EReal) := fun k => by
    rw [← EReal.coe_sub, Ideal.exp_coe]
  simp only [e1]
  rw [coe_sum, zero_add, Ideal.log_coe, if_neg (not_le.mpr hpos), ← EReal.coe_sub, ← EReal.coe_sub]
  refine congrArg _ ?_
  have hs : ∑ k, Real.exp (r k - M) = Real.exp (-M) * ∑ k, Real.exp (r k) := by
    rw [Finset.mul_sum]
    refine Finset.sum_congr rfl fun k _ => ?_
    rw [← Real.exp_add]
    exact congrArg Real.exp (by ring)
  rw [hs, Real.log_mul (Real.exp_pos _).ne' hpos'.ne', Real.log_exp]
  ring

/-- Minus the mean of the negated losses is the mean of the losses (the divisor a nonzero real number). -/
theorem neg_mean_neg (S y : ℝ) (hy : y ≠ 0) :
    -(Ideal.div ((0 : EReal) + ((-S : ℝ) : EReal)) (y : EReal)) = Ideal.div ((S : ℝ) : EReal) (y : EReal) := by
  rw [Ideal.div_coe hy, Ideal.div_coe hy, zero_add, ← EReal.coe_mul, ← EReal.coe_neg, ← EReal.coe_mul]
  exact congrArg _ (by ring)

end Cert.Proof.RefMath

end
-- ==== Proof.RefSide.lean ====
/-
  The reference computes the specification.
  * loc: the reference forms x - 0 for every entry x of the first array, takes absolute values, sums all 1577984 of them from 0 and
    divides by the float 0x49C0A000. On the extended reals x - 0 = x and 0 + s = s, so this is Spec.loc with no hypothesis.
  * cls: the reference reshapes the second array to 394496 rows of 81 entries; row R = b * 24656 + a is the row (b, a) of the
    array, entry k of it the entry (b, a, k). For each row it takes the maximum M of the row (from -infinity), and forms
    (x_0 - M) - log (0 + sum_k exp (x_k - M)) for class 0. When every entry is a real number, M is a real number and that
    value is minus the row loss log (sum_k exp x_k) - x_0 (the shift cancels). Summing over the rows R is summing over the pairs
    (b, a); minus (the sum of the negated losses divided by 394496) is the sum of the losses divided by 394496: Spec.cls.
  * total is their sum.
  The run of the reference then ends with the three results at the specification's values and the arguments unchanged.
-/
import proofs.«219810_g10299331576301_week1_w1_912_40_alg».proof.Proof.RefReadPatched
import proofs.«219810_g10299331576301_week1_w1_912_40_alg».proof.Proof.Spec
import proofs.«219810_g10299331576301_week1_w1_912_40_alg».proof.Proof.Finite
import proofs.«219810_g10299331576301_week1_w1_912_40_alg».proof.Proof.RefMath
import proofs.«219810_g10299331576301_week1_w1_912_40_alg».proof.Defs
import Idealize.ShloMosaic.Lib.ValueIdx

noncomputable section

namespace Cert.Proof.Ref

open Cert.ReferenceIdeal Cert.ReferenceIdeal.Gen Cert.ReferenceIdeal.ReadP Cert.Proof.RefMath
open Idealize.ShloMosaic Idealize.ShloMosaic.ValueIdx Idealize.ShloMosaic.TcCoe Idealize.SL.Sem Idealize.ShloMosaic.StableHlo

/-! ## loc -/

/-- The reference's first mean is the specification's. -/
theorem loc_eq (x0 : (⟨S16x24656x4, .f32⟩ : BufTy).Contents (Elt Ideal)) (i : S_.Idx) :
    val_main_v4 (F := Ideal) x0 i = Cert.Spec.loc x0 := by
  rw [val_main_v4_apply, val_main_v3_apply, val_main_cst_1_apply, val_main_cst_0_apply]
  simp only [val_main_v2_apply, val_main_v1_apply, val_main_v0_apply, val_main_cst_apply, Ideal.ofBits_def,
    Ideal.ofBits_zero_f32, Ideal.hostDivf_def, Ideal.subf_def, sub_zero, zero_add]
  rfl

/-! ## Rows -/

/-- Row b * 24656 + a of the reshaped array. -/
def rowIx (b : Fin 16) (a : Fin 24656) : Fin 394496 :=
  ⟨b.val * 24656 + a.val, by have := b.isLt; have := a.isLt; omega⟩

/-- Entry k of row b * 24656 + a of the reshaped array is entry (b, a, k) of the array. -/
theorem idx_v5 (b : Fin 16) (a : Fin 24656) (k : Fin 81) : idx_main_v5 (ix2 (rowIx b a) k) = ix3 b a k := by
  have hb := b.isLt; have ha := a.isLt; have hk := k.isLt
  funext d
  apply Fin.ext
  match d with
  | ⟨0, _⟩ => show ((b.val * 24656 + a.val) * 81 + k.val) / 1997136 = b.val; omega
  | ⟨1, _⟩ => show ((b.val * 24656 + a.val) * 81 + k.val) / 81 % 24656 = a.val; omega
  | ⟨2, _⟩ => show ((b.val * 24656 + a.val) * 81 + k.val) % 81 = k.val; omega

/-- The rows are the pairs (b, a). -/
def rowEquiv : Fin 16 × Fin 24656 ≃ S394496.Idx where
  toFun p := ix1 (rowIx p.1 p.2)
  invFun j := (⟨(j 0).val / 24656, by have h0 : (j 0).val < 394496 := (j 0).isLt; omega⟩,
    ⟨(j 0).val % 24656, Nat.mod_lt _ (by norm_num)⟩)
  left_inv p := by
    obtain ⟨b, a⟩ := p
    have hb := b.isLt; have ha := a.isLt
    refine Prod.ext (Fin.ext ?_) (Fin.ext ?_)
    · show (b.val * 24656 + a.val) / 24656 = b.val; omega
    · show (b.val * 24656 + a.val) % 24656 = a.val; omega
  right_inv j := by
    funext d
    apply Fin.ext
    match d with
    | ⟨0, _⟩ => show (j 0).val / 24656 * 24656 + (j 0).val % 24656 = (j 0).val; omega

/-- A sum over the rows is the double sum over the pairs. -/
theorem sum_rows {M : Type*} [AddCommMonoid M] (f : S394496.Idx → M) :
    ∑ j, f j = ∑ b : Fin 16, ∑ a : Fin 24656, f (ix1 (rowIx b a)) := by
  rw [← Equiv.sum_comp rowEquiv f, Fintype.sum_prod_type]
  rfl

/-- The reference's log-softmax at class 0 of row (b, a), with the row's shift left as the reference computes it. -/
theorem v8_row (x1 : (⟨S16x24656x81, .f32⟩ : BufTy).Contents (Elt Ideal)) (b : Fin 16) (a : Fin 24656) :
    val_main_v8 (F := Ideal) x1 (ix1 (rowIx b a))
      = (x1 (ix3 b a (0 : Fin 81)) - val_main_call0_v2 (F := Ideal) x1 (ix1 (rowIx b a)))
        - Ideal.log (0 + ∑ k : Fin 81, Ideal.exp (x1 (ix3 b a k) - val_main_call0_v2 (F := Ideal) x1 (ix1 (rowIx b a)))) := by
  have i7 : idx_main_v7 (idx_main_v8 (ix1 (rowIx b a))) = ix2 (rowIx b a) (0 : Fin 81) := by
    funext d; apply Fin.ext
    match d with
    | ⟨0, _⟩ => exact Nat.div_one _
    | ⟨1, _⟩ => rfl
  have i43 : ∀ k : Fin 81, idx_main_call0_v3 (idx_main_call0_v4 (ix2 (rowIx b a) k)) = ix1 (rowIx b a) := fun k => by
    funext d; apply Fin.ext
    match d with
    | ⟨0, _⟩ => rfl
  have i108 : idx_main_call0_v8 (idx_main_call0_v10 (ix2 (rowIx b a) (0 : Fin 81))) = ix1 (rowIx b a) := by
    funext d; apply Fin.ext
    match d with
    | ⟨0, _⟩ => rfl
  have i7' : ∀ k : Fin 81, idx_main_call0_v7 (ix1 (rowIx b a)) k = ix2 (rowIx b a) k := fun k => by
    funext d; apply Fin.ext
    match d with
    | ⟨0, _⟩ => rfl
    | ⟨1, _⟩ => rfl
  simp only [val_main_v8_apply, val_main_v7_apply, val_main_v6_apply, val_main_call0_v5_apply, val_main_v5_apply,
    val_main_call0_v4_apply, val_main_call0_v3_apply, val_main_call0_v10_apply, val_main_call0_v9_apply,
    val_main_call0_v8_apply, val_main_call0_v7_apply, val_main_call0_cst_1_apply, val_main_call0_v6_apply,
    i7, i43, i108, i7', idx_v5, Ideal.subf_def, Ideal.hostUnary_exp_def, Ideal.hostUnary_log_def, Ideal.ofBits_def,
    Ideal.ofBits_zero_f32]

/-- The row's shift is a real number when every entry is. -/
theorem shift_real (x1 : (⟨S16x24656x81, .f32⟩ : BufTy).Contents (Elt Ideal)) (r : S16x24656x81.Idx → ℝ)
    (hr : ∀ i, x1 i = ((r i : ℝ) : EReal)) (j : S394496.Idx) :
    ∃ m : ℝ, val_main_call0_v2 (F := Ideal) x1 j = (m : EReal) := by
  have hred : S394496x81.Reduces [1] S394496 := by decide
  have hne : (Finset.univ : Finset (Fin (S394496x81.size 1))).Nonempty := ⟨⟨0, by decide⟩, Finset.mem_univ _⟩
  obtain ⟨m, hm⟩ := fold_max_real (fun k => r (idx_main_v5 (hred.lift j k))) Finset.univ hne
  refine ⟨m, ?_⟩
  have hf : (val_main_v5 (F := Ideal) x1 ∘ hred.lift j) = fun k => ((r (idx_main_v5 (hred.lift j k)) : ℝ) : EReal) := by
    funext k; rw [Function.comp_apply, val_main_v5_apply, hr]
  rw [val_main_call0_v2_apply, val_main_call0_v1_apply, val_main_call0_cst_0_apply]
  unfold val_main_call0_v0
  rw [Host.reduce_eq_fold_single FloatOps.maximumf _ _ reducesTo_S394496x81_S394496_d1 hred h_S_, hf]
  show max (Ideal.ofBits .f32 0xFF800000#32) (Finset.univ.fold max (Ideal.ofBits .f32 0xFF800000#32) _) = _
  rw [neg_inf_word, hm, max_bot_left]

/-! ## cls -/

/-- The reference's cross-entropy mean is the specification's, when every entry of the second array is a real number. -/
theorem cls_eq (x1 : (⟨S16x24656x81, .f32⟩ : BufTy).Contents (Elt Ideal)) (hfin : ∀ i, ∃ r : ℝ, x1 i = (r : EReal))
    (i : S_.Idx) : val_main_v11 (F := Ideal) x1 i = Cert.Spec.cls x1 := by
  choose r hr using hfin
  let l : Fin 16 → Fin 24656 → ℝ := fun b a => Real.log (∑ k : Fin 81, Real.exp (r (ix3 b a k))) - r (ix3 b a (0 : Fin 81))
  have hrow : ∀ b a, val_main_v8 (F := Ideal) x1 (ix1 (rowIx b a)) = ((-(l b a) : ℝ) : EReal) := fun b a => by
    obtain ⟨m, hm⟩ := shift_real x1 r hr (ix1 (rowIx b a))
    rw [v8_row, hm]
    simp only [hr]
    exact logsoftmax_shift (fun k : Fin 81 => r (ix3 b a k)) 0 m
  have hspec : ∀ b a, Cert.Spec.rowLoss x1 b a = ((l b a : ℝ) : EReal) := fun b a => by
    unfold Cert.Spec.rowLoss
    simp only [hr]
    exact rowloss_real (fun k : Fin 81 => r (ix3 b a k)) 0
  rw [val_main_v11_apply, val_main_v10_apply, val_main_v9_apply, val_main_cst_3_apply, val_main_cst_2_apply, sum_rows]
  simp only [hrow]
  unfold Cert.Spec.cls Cert.Spec.lossSum
  simp only [hspec]
  simp only [coe_sum, Ideal.ofBits_def, Ideal.ofBits_zero_f32, rows_word, Ideal.hostNegf_def, Ideal.negf_def,
    Ideal.hostDivf_def]
  rw [show (∑ b : Fin 16, ∑ a : Fin 24656, -(l b a)) = -(∑ b : Fin 16, ∑ a : Fin 24656, l b a) by
    simp only [Finset.sum_neg_distrib]]
  exact neg_mean_neg _ _ (by norm_num)

/-! ## total, and the run -/

/-- The reference's total is the specification's. -/
theorem total_eq (x0 : (⟨S16x24656x4, .f32⟩ : BufTy).Contents (Elt Ideal))
    (x1 : (⟨S16x24656x81, .f32⟩ : BufTy).Contents (Elt Ideal)) (hfin : ∀ i, ∃ r : ℝ, x1 i = (r : EReal)) (i : S_.Idx) :
    val_main_v12 (F := Ideal) x0 x1 i = Cert.Spec.total x0 x1 := by
  rw [val_main_v12_apply, loc_eq, cls_eq x1 hfin]
  rfl

/-- From a memory whose arguments are finite, every weakly fair execution of the reference terminates with the three results
    at the specification's total, loc and cls of the arguments, and the arguments unchanged. -/
theorem ref_run (m : (ℓ : Loc nD τ sig) → Buf (Elt Ideal) ℓ) (ρ : Dev nD → PrngReg)
    (hpre : Cert.Pre_ReferenceIdeal (hPre_finite_inputs := Cert.Pre_finite_inputs.Gen.facts) m) :
    θ_run (defs (F := Ideal)) (onTc (τ := τ) (main (F := Ideal))) ⟨m, fun _ => 0, ρ⟩ (fun r => ∀ c : Dev nD,
        r.2.mem ((c.tc : Thread nD τ).loc main_v12)
          = (fun _ => Cert.Spec.total (m ((c.tc : Thread nD τ).loc main_arg0)) (m ((c.tc : Thread nD τ).loc main_arg1)))
      ∧ r.2.mem ((c.tc : Thread nD τ).loc main_v4) = (fun _ => Cert.Spec.loc (m ((c.tc : Thread nD τ).loc main_arg0)))
      ∧ r.2.mem ((c.tc : Thread nD τ).loc main_v11) = (fun _ => Cert.Spec.cls (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
      obtain ⟨h12, h4, h11, ha0, ha1⟩ := h c
      have hfin := (Cert.Proof.Finite.finite_of_pre _ _ (hpre c)).2
      refine ⟨?_, ?_, ?_, ha0, ha1⟩
      · rw [h12, val_main_v12_eq]; funext i; exact total_eq _ _ hfin i
      · rw [h4, val_main_v4_eq]; funext i; exact loc_eq _ i
      · rw [h11, val_main_v11_eq]; funext i; exact cls_eq _ hfin i)
    (Cert.ReferenceIdeal.ValueP.run (F := Ideal) m ρ)

/-- The frame: the run with the results dropped. -/
theorem ref_frame (m : (ℓ : Loc nD τ sig) → Buf (Elt Ideal) ℓ) (ρ : Dev nD → PrngReg)
    (hpre : Cert.Pre_ReferenceIdeal (hPre_finite_inputs := Cert.Pre_finite_inputs.Gen.facts) m) :
    θ_run (defs (F := Ideal)) (onTc (τ := τ) (main (F := Ideal))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2.2.2) (ref_run m ρ hpre)

end Cert.Proof.Ref

end
-- ==== Proof.ClaimsIdeal.lean ====
/-
  The claims at the extended reals, from the run of the program.
  The run ends with the three result buffers at the last host operations' functions of the two kernels' arrays. On
  the arrays the kernels produce those functions are the specification's total, loc and cls of the two arguments
  (cls and total when every entry of the second argument is a real number, which the precondition gives). The
  reference's run ends with its three results at the same values of its own arguments, and the two programs'
  arguments agree: so the results are equal, and both leave their arguments unchanged.
-/
import proofs.«219810_g10299331576301_week1_w1_912_40_alg».proof.Proof.FrameOfRun
import proofs.«219810_g10299331576301_week1_w1_912_40_alg».proof.Proof.HostIdeal
import proofs.«219810_g10299331576301_week1_w1_912_40_alg».proof.Proof.Finite
import proofs.«219810_g10299331576301_week1_w1_912_40_alg».proof.Proof.RefSide

noncomputable section

namespace Cert.Proof.KernelIdeal

open Cert.KernelIdeal Cert.KernelIdeal.Gen
open Idealize.ShloMosaic Idealize.SL.Sem

/-- The reference runs and leaves its arguments unchanged. -/
theorem frame_ReferenceIdeal :
    Cert.frame_ReferenceIdeal (hReferenceIdeal := Cert.ReferenceIdeal.Gen.facts)
      (hPre_finite_inputs := Cert.Pre_finite_inputs.Gen.facts) :=
  fun m g hpre => Cert.Proof.Ref.ref_frame m g hpre

/-- The ideal pass rewrote nothing. -/
theorem preserves : Cert.preserves_Kernel_KernelIdeal := trivial

/-- The program at the extended reals runs and leaves its arguments unchanged. -/
theorem frame_KernelIdeal_of_run
    (hrun : ∀ (m : (ℓ : Loc nD τ sig) → Buf (Elt Ideal) ℓ) (ρ : Dev nD → PrngReg),
      θ_run (Cert.KernelIdeal.defs (F := Ideal)) (Cert.KernelIdeal.threads (F := Ideal)) ⟨m, fun _ => 0, ρ⟩ (QC m)) :
    Cert.frame_KernelIdeal (hKernelIdeal := Cert.KernelIdeal.Gen.facts)
      (hPre_finite_inputs := Cert.Pre_finite_inputs.Gen.facts) :=
  fun m g _ => frame_of_run hrun m g

/-- The program and the reference, from memories that agree on the arguments, end with equal results: the
    specification's total, loc and cls of the arguments. -/
theorem algebraic_of_run
    (hrun : ∀ (m : (ℓ : Loc nD τ sig) → Buf (Elt Ideal) ℓ) (ρ : Dev nD → PrngReg),
      θ_run (Cert.KernelIdeal.defs (F := Ideal)) (Cert.KernelIdeal.threads (F := Ideal)) ⟨m, fun _ => 0, ρ⟩ (QC m)) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' hpre hagree
  have hfin : ∀ c : Dev nD, ∀ i, ∃ r : ℝ, m ((c.tc : Thread nD τ).loc main_arg1) i = (r : EReal) :=
    fun c => (Cert.Proof.Finite.finite_of_pre _ _ (hpre c)).2
  have hpre' : Cert.Pre_ReferenceIdeal (hPre_finite_inputs := Cert.Pre_finite_inputs.Gen.facts) m' := by
    intro c
    rw [(hagree c).1, (hagree c).2]
    exact hpre c
  refine ⟨fun c => fun _ => Cert.Spec.total (m ((c.tc : Thread nD τ).loc main_arg0)) (m ((c.tc : Thread nD τ).loc main_arg1)),
    fun c => fun _ => Cert.Spec.loc (m ((c.tc : Thread nD τ).loc main_arg0)),
    fun c => fun _ => Cert.Spec.cls (m ((c.tc : Thread nD τ).loc main_arg1)), ?_, ?_⟩
  · exact (θ_run (Cert.KernelIdeal.defs (F := Ideal)) _ _).mono (fun _ h c => by
      obtain ⟨h6, h3, h5, h0, h1⟩ := h c
      exact ⟨h6.trans (totOf_ideal _ _ (hfin c)), h3.trans (locOf_ideal _), h5.trans (clsOf_ideal _ (hfin c)), h0, h1⟩)
      (hrun m g)
  · exact (θ_run (Cert.ReferenceIdeal.defs (F := Ideal)) _ _).mono (fun _ h c => by
      obtain ⟨h12, h4, h11, ha0, ha1⟩ := h c
      refine ⟨?_, ?_, ?_, ha0, ha1⟩
      · rw [h12, (hagree c).1, (hagree c).2]; rfl
      · rw [h4, (hagree c).1]; rfl
      · rw [h11, (hagree c).2]; rfl)
      (Cert.Proof.Ref.ref_run m' g' hpre')

end Cert.Proof.KernelIdeal

end
-- ==== Proof.Word.Common.lean ====
/-
  The program as the launch theorem of a SparseCore program sees it, and the ghost state every part of the proof
  shares: the launch handshakes' rounds, the rounds of the TensorCore pipeline's staging cells, and the counters of the
  vector subcores' own local copies.
-/
import proofs.«219810_g10299331576301_week1_w1_912_40_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«219810_g10299331576301_week1_w1_912_40_alg».proof.Proof.Gen.Kernel
import proofs.«219810_g10299331576301_week1_w1_912_40_alg».proof.Proof.Gen.Kernel.Skeleton
import proofs.«219810_g10299331576301_week1_w1_912_40_alg».proof.Proof.Gen.Kernel.Launch
import proofs.«219810_g10299331576301_week1_w1_912_40_alg».proof.Proof.Gen.Kernel.Points

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The rounds of the TensorCore pipeline's staging cells. -/
abbrev UP : Type := URounds (GSem nD τ sig) Unit
/-- Handshakes, pipeline cells, and the counters of the subcores' own copies. -/
abbrev UU : Type := UH × (UP × Counters)

/-- The handshakes' rounds sit in the left factor. -/
abbrev EH : Emb UH (MT nD τ sig (HIx 1) (Elt F) ℕ UU ℕ) := embL
/-- The pipeline's rounds sit in the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays, as locations of device `d` -/

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1

end Cert.Proof.Kernel

end
-- ==== Proof.Word.Rows.lean ====
/-
  The 32 x 16 array of partial sums, cut into its 32 rows: row 2 i + c is the one task i of core c writes.
  The array held whole is its rows held side by side, and the 32 rows are the 2 x 16 rows indexed by (core, task).
-/
import proofs.«219810_g10299331576301_week1_w1_912_40_alg».proof.Proof.Word.Common

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- 32 divides the first extent of the 32 x 16 array: each part is one row. -/
theorem hdiv32 : 32 ∣ S32x16.size 0 := ⟨1, rfl⟩

/-- Row `w`, as a rectangle and as an index set. -/
abbrev rowW (w : Fin 32) : Rect S32x16 := Rect.part (s := S32x16) (a₀ := 0) hdiv32 w
abbrev rowSetW (w : Fin 32) : Finset S32x16.Idx := (rowW w).set

/-- The row that task `i` of core `c` writes: 2 i + c. -/
def wid (c : Fin 2) (i : Fin 16) : Fin 32 := ⟨2 * i.val + c.val, by omega⟩

/-- (core, task) ↦ row is a bijection of 2 x 16 with 32. -/
def widEquiv : Fin 2 × Fin 16 ≃ Fin 32 where
  toFun p := wid p.1 p.2
  invFun w := (⟨w.val % 2, Nat.mod_lt _ (by omega)⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

theorem rows_disjoint : ∀ i ∈ (Finset.univ : Finset (Fin 32)), ∀ j ∈ (Finset.univ : Finset (Fin 32)), i ≠ j → Disjoint (rowSetW i) (rowSetW j) :=
  fun _ _ _ _ h => Rect.part_disjoint hdiv32 h

theorem rows_cover : (Finset.univ : Finset (Fin 32)).biUnion rowSetW = Finset.univ := Rect.biUnion_part hdiv32

/-- The array held whole is its rows held side by side. -/
theorem v0_rows (d : Dev nD) (f : Buf (Elt F) (v0Loc d)) :
    (v0Loc d ↦{fullShare} f : sProp 𝕄) = bigSep Finset.univ fun w : Fin 32 => v0Loc d ↦[rowSetW w]{fullShare} f := by
  rw [← pointsTo_biUnion Finset.univ (ℓ := v0Loc d) rowSetW rows_disjoint, rows_cover]; try rfl

/-- Anything said of the 32 rows is said core by core, task by task. -/
theorem bigSep_wid (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

end Cert.Proof.Kernel

end
-- ==== Proof.Word.TileVal.lean ====
/-
  The sixteen lanes one vector subcore's task stores, as a pure function of the first argument array x0
  (16 batch entries x 24656 rows x 4 columns).

  The task of core c (0 or 1) and subcore s (0..15) works on batch entry s.  A "gather" number j from row r0 on is
  the vector of 16 lanes whose lane x is the entry at row r0 + 4 j + x / 4, column x % 4: four consecutive rows, all
  four columns.  An accumulator number u (0..3) starts at zero and at trip m adds, lane by lane, the absolute value of
  gather number 4 m + u.  The main part runs 768 trips from row 12288 c (24 blocks of 512 rows, 32 trips each: block
  k, trip t is trip 32 k + t, since 512 k + 4 (4 t + u) = 4 (4 (32 k + t) + u)); the tail runs 5 trips from row
  12288 c + 12288 (80 rows).  The result is ((((0 + a0) + a1) + a2) + a3) + t0 m + t1 m + t2 m + t3 m, m the mask that
  is 1.0 on core 1 and 0.0 on core 0, with the sums and products in the order the task performs them.
-/
import proofs.«219810_g10299331576301_week1_w1_912_40_alg».proof.Proof.Word.Common
import Idealize.ShloMosaic.Lib.ValueIdx

noncomputable section

namespace Cert.Proof.Kernel

open Cert.Kernel Cert.Kernel.Gen

open Idealize.ShloMosaic

variable {F : FTy → Type} [FloatOps F]

/-- Entry (s, r, col) of the array.  No row r ≥ 24656 is ever read; such a row is read as row 0. -/
def rowAt (x0 : S16x24656x4.Idx → Elt F .f32) (s : Fin 16) (r : ℕ) (col : Fin 4) : F .f32 :=
  if h : r < 24656 then x0 (ValueIdx.ix3 s ⟨r, h⟩ col) else x0 (ValueIdx.ix3 s ⟨0, by decide⟩ col)

theorem rowAt_of_lt (x0 : S16x24656x4.Idx → Elt F .f32) (s : Fin 16) {r : ℕ} (h : r < 24656) (col : Fin 4) :
    rowAt x0 s r col = x0 (ValueIdx.ix3 s ⟨r, h⟩ col) := dif_pos h

/-- Gather number j out of the rows of batch entry s from row r0 on: lane x is row r0 + 4 j + x / 4, column x % 4. -/
def gath (x0 : S16x24656x4.Idx → Elt F .f32) (s : Fin 16) (r0 j : ℕ) : FVec F S16 .f32 :=
  fun x => rowAt x0 s (r0 + 4 * j + (x 0).val / 4) ⟨(x 0).val % 4, Nat.mod_lt _ (by decide)⟩

/-- Accumulator number u after n trips: zero, then trip m adds the absolute values of gather number 4 m + u. -/
def acc (x0 : S16x24656x4.Idx → Elt F .f32) (s : Fin 16) (r0 u : ℕ) : ℕ → FVec F S16 .f32
  | 0 => broadcast S16 (Scalar.ofBits .f32 0x00000000#32)
  | n + 1 => addf (acc x0 s r0 u n) (absf (gath x0 s r0 (4 * n + u)))

@[simp] theorem acc_zero (x0 : S16x24656x4.Idx → Elt F .f32) (s : Fin 16) (r0 u : ℕ) :
    acc x0 s r0 u 0 = broadcast S16 (Scalar.ofBits .f32 0x00000000#32) := rfl

theorem acc_succ (x0 : S16x24656x4.Idx → Elt F .f32) (s : Fin 16) (r0 u n : ℕ) :
    acc x0 s r0 u (n + 1) = addf (acc x0 s r0 u n) (absf (gath x0 s r0 (4 * n + u))) := rfl

/-- The 16 lanes the task of core c, subcore s stores: the four main accumulators after 768 trips from row 12288 c and
    the four tail accumulators after 5 trips from row 12288 c + 12288, combined as the task combines them
    (the generated payload of the stored vector, applied to them and to the core number on every lane). -/
def tileRow (x0 : S16x24656x4.Idx → Elt F .f32) (c : Fin 2) (s : Fin 16) : S16.Idx → Elt F .f32 :=
  k0_pay1 (acc x0 s (12288 * c.val) 0 768) (acc x0 s (12288 * c.val) 1 768)
    (acc x0 s (12288 * c.val) 2 768) (acc x0 s (12288 * c.val) 3 768)
    (acc x0 s (12288 * c.val + 12288) 0 5) (acc x0 s (12288 * c.val + 12288) 1 5)
    (acc x0 s (12288 * c.val + 12288) 2 5) (acc x0 s (12288 * c.val + 12288) 3 5)
    (broadcast S16 (BitVec.ofNat 32 c.val))

/-- The 32 x 16 array of all the tasks' results: row w = 2 s + c is the result of core c = w % 2, subcore s = w / 2. -/
def tileOut (x0 : S16x24656x4.Idx → Elt F .f32) : S32x16.Idx → Elt F .f32 :=
  fun w => tileRow x0 ⟨(w 0).val % 2, Nat.mod_lt _ (by decide)⟩
    ⟨(w 0).val / 2, by have h : (w 0).val < 32 := (w 0).isLt; omega⟩
    (ValueIdx.ix1 (⟨(w 1).val, (w 1).isLt⟩ : Fin 16))

/-- The mask: 1.0 on every lane on core 1, 0.0 on core 0. -/
def cmask (c : Fin 2) : F .f32 := if c.val = 1 then Scalar.ofBits .f32 0x3F800000#32 else Scalar.ofBits .f32 0x00000000#32

/-- One lane of the result, spelt out. -/
theorem tileRow_apply (x0 : S16x24656x4.Idx → Elt F .f32) (c : Fin 2) (s : Fin 16) (x : S16.Idx) :
    tileRow x0 c s x =
      FloatOps.addf (FloatOps.addf (FloatOps.addf (FloatOps.addf
        (FloatOps.addf (FloatOps.addf (FloatOps.addf (FloatOps.addf (Scalar.ofBits .f32 0x00000000#32 : F .f32)
          (acc x0 s (12288 * c.val) 0 768 x)) (acc x0 s (12288 * c.val) 1 768 x))
          (acc x0 s (12288 * c.val) 2 768 x)) (acc x0 s (12288 * c.val) 3 768 x))
        (FloatOps.mulf (acc x0 s (12288 * c.val + 12288) 0 5 x) (cmask c)))
        (FloatOps.mulf (acc x0 s (12288 * c.val + 12288) 1 5 x) (cmask c)))
        (FloatOps.mulf (acc x0 s (12288 * c.val + 12288) 2 5 x) (cmask c)))
        (FloatOps.mulf (acc x0 s (12288 * c.val + 12288) 3 5 x) (cmask c)) := by
  match c with
  | ⟨0, _⟩ => rfl
  | ⟨1, _⟩ => rfl

end Cert.Proof.Kernel

end
-- ==== Proof.Word.Pay.lean ====
/-
  What the launch handshakes carry. The first argument is only read: it is held whole by the TensorCore, which hands
  each of the two cores a read share of it; a core hands each of its sixteen tasks a read share of its share. The
  32 x 16 array of partial sums is cut into rows: core c is handed the sixteen rows 2 i + c, task i of it the row
  2 i + c, at the launch contents; it comes back holding the task's sixteen lanes, every row at the one whole-array
  function `outArr`. Nothing else travels.
-/
import proofs.«219810_g10299331576301_week1_w1_912_40_alg».proof.Proof.Word.Rows
import proofs.«219810_g10299331576301_week1_w1_912_40_alg».proof.Proof.Word.TileVal

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Transfers (shareTok shareDrop pointsTo_toks_split pointsTo_toks_join)

variable [FloatOps F]
variable (m : (ℓ : Loc nD τ sig) → Buf (Elt F) ℓ)

/-- The read share of the first argument handed to core `c`, and to task `i` of core `c`. -/
abbrev coreShare (c : Fin 2) : PosShare TreeShare := shareTok fullShare 2 c
abbrev taskShare (c : Fin 2) (i : Fin 16) : PosShare TreeShare := shareTok (coreShare c) 16 i

/-- The first argument at its launch contents, at a share. -/
abbrev a0Pts (d : Dev nD) (q : PosShare TreeShare) : sProp 𝕄 := a0Loc d ↦{q} m (a0Loc d)
/-- Row `w` of the array of partial sums, at contents `f`. -/
abbrev rowPts (d : Dev nD) (w : Fin 32) (f : Buf (Elt F) (v0Loc d)) : sProp 𝕄 := v0Loc d ↦[rowSetW w]{fullShare} f

/-- What the array of partial sums holds after the call: every task's sixteen lanes. -/
def outArr (d : Dev nD) : Buf (Elt F) (v0Loc d) := tileOut (m (a0Loc d))

/-- The one call: each core its share of the first argument and its sixteen rows, each task its share and its row. -/
def P : (K (F := F)).Pay (nD := nD) (Val := Elt F) (Name := ℕ) (U := UU) where
  st := fun q d c => match q with
    | 0 => iprop(a0Pts m d (coreShare (Fin.cast nCore_zero c))
        ∗ bigSep Finset.univ fun i : Fin 16 => rowPts d (wid (Fin.cast nCore_zero c) i) (m (v0Loc d)))
  dn := fun q d c => match q with
    | 0 => iprop(a0Pts m d (coreShare (Fin.cast nCore_zero c))
        ∗ bigSep Finset.univ fun i : Fin 16 => rowPts d (wid (Fin.cast nCore_zero c) i) (outArr m d))
  go := fun q d c i => match q with
    | 0 => iprop(a0Pts m d (taskShare (Fin.cast nCore_zero c) (Fin.cast nSub_zero i))
        ∗ rowPts d (wid (Fin.cast nCore_zero c) (Fin.cast nSub_zero i)) (m (v0Loc d)))
  td := fun q d c i => match q with
    | 0 => iprop(a0Pts m d (taskShare (Fin.cast nCore_zero c) (Fin.cast nSub_zero i))
        ∗ rowPts d (wid (Fin.cast nCore_zero c) (Fin.cast nSub_zero i)) (outArr m d))
  x := fun _ _ => iprop(emp)

instance P_storable : (P (F := F) m).IsStorable where
  st q d c := match q with
    | 0 => (inferInstance : BI.Storable (upEmb : UEmb _ 𝕄) iprop(a0Pts m d (coreShare (Fin.cast nCore_zero c))
        ∗ bigSep Finset.univ fun i : Fin 16 => rowPts d (wid (Fin.cast nCore_zero c) i) (m (v0Loc d))))
  dn q d c := match q with
    | 0 => (inferInstance : BI.Storable (upEmb : UEmb _ 𝕄) iprop(a0Pts m d (coreShare (Fin.cast nCore_zero c))
        ∗ bigSep Finset.univ fun i : Fin 16 => rowPts d (wid (Fin.cast nCore_zero c) i) (outArr m d)))
  go q d c i := match q with
    | 0 => (inferInstance : BI.Storable (upEmb : UEmb _ 𝕄) iprop(a0Pts m d (taskShare (Fin.cast nCore_zero c) (Fin.cast nSub_zero i))
        ∗ rowPts d (wid (Fin.cast nCore_zero c) (Fin.cast nSub_zero i)) (m (v0Loc d))))
  td q d c i := match q with
    | 0 => (inferInstance : BI.Storable (upEmb : UEmb _ 𝕄) iprop(a0Pts m d (taskShare (Fin.cast nCore_zero c) (Fin.cast nSub_zero i))
        ∗ rowPts d (wid (Fin.cast nCore_zero c) (Fin.cast nSub_zero i)) (outArr m d)))

omit [FloatOps F] in
/-- A family over the tasks of the call is the family over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A family over the cores of the call is the family over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's share and rows go out to its tasks, and what they bring back is the core's share and rows again. -/
theorem vecSplit : (K (F := F)).VecSplit' (P m) 0 := by
  intro d c
  show iprop(a0Pts m d (coreShare (Fin.cast nCore_zero c))
        ∗ bigSep Finset.univ fun i : Fin 16 => rowPts d (wid (Fin.cast nCore_zero c) i) (m (v0Loc d)))
    ⊢ |={Set.univ}=> iprop(
      (bigSep Finset.univ fun i : Fin ((K (F := F)).nSub 0) =>
        iprop(a0Pts m d (taskShare (Fin.cast nCore_zero c) (Fin.cast nSub_zero i))
          ∗ rowPts d (wid (Fin.cast nCore_zero c) (Fin.cast nSub_zero i)) (m (v0Loc d))))
      ∗ ((bigSep Finset.univ fun i : Fin ((K (F := F)).nSub 0) =>
          iprop(a0Pts m d (taskShare (Fin.cast nCore_zero c) (Fin.cast nSub_zero i))
            ∗ rowPts d (wid (Fin.cast nCore_zero c) (Fin.cast nSub_zero i)) (outArr m d)))
          -∗ iprop(a0Pts m d (coreShare (Fin.cast nCore_zero c))
            ∗ bigSep Finset.univ fun i : Fin 16 => rowPts d (wid (Fin.cast nCore_zero c) i) (outArr m d))))
  generalize Fin.cast nCore_zero c = c'
  rw [bigSep_tasks (F := F) (fun i => iprop(a0Pts m d (taskShare c' i) ∗ rowPts d (wid c' i) (m (v0Loc d)))),
    bigSep_tasks (F := F) (fun i => iprop(a0Pts m d (taskShare c' i) ∗ rowPts d (wid c' i) (outArr m d))),
    bigSep_sep', bigSep_sep']
  iintro ⟨Ha, Hrows⟩
  ihave Ha' := (pointsTo_toks_split (coreShare c') 16) $$ Ha
  icases Ha' with ⟨Hdrop, Htoks⟩
  imodintro
  isplitl [Htoks Hrows]
  · isplitl [Htoks]; · iexact Htoks
    iexact Hrows
  iintro ⟨Htoks, Hrows⟩
  isplitl [Hdrop Htoks]
  · iapply (pointsTo_toks_join (coreShare c') 16)
    isplitl [Hdrop]; · iexact Hdrop
    iexact Htoks
  iexact Hrows

end Cert.Proof.Kernel

end
-- ==== Proof.Word.Tail.lean ====
/-
  @main after the two kernels: eight host operations. The 32 x 16 array of partial sums is summed (from the zero
  word) and divided by the float 0x49C0A000 (the number of entries of the first argument): the first loss; the
  1 x 1 result of the second kernel, reshaped to a scalar, is divided by the float 0x48C0A000 (the number of rows):
  the second loss; their sum is the total. Here: the operations as a list, @main as the two calls followed by the
  list, and what the three result buffers hold after the list, as functions of the two kernels' result arrays.
-/
import proofs.«219810_g10299331576301_week1_w1_912_40_alg».proof.Proof.Word.Common

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo

variable [FloatOps F]

/-- The host operations after the two calls, one by one. -/
abbrev op1 : HloOp τ sig (Elt F) := nullary main_cst (constant S_ .f32 0x00000000#32)
abbrev op2 : HloOp τ sig (Elt F) := binary main_v0 main_cst main_v2 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev op3 : HloOp τ sig (Elt F) := nullary main_cst_0 (constant S_ .f32 0x49C0A000#32)
abbrev op4 : HloOp τ sig (Elt F) := binary main_v2 main_cst_0 main_v3 (Host.divf : (⟨S_, .f32⟩ : BufTy).Contents (Elt F) → (⟨S_, .f32⟩ : BufTy).Contents (Elt F) → (⟨S_, .f32⟩ : BufTy).Contents (Elt F))
abbrev op5 : HloOp τ sig (Elt F) := reshape main_v1 main_v4 rfl shapeCasts_S1x1_S_
abbrev op6 : HloOp τ sig (Elt F) := nullary main_cst_1 (constant S_ .f32 0x48C0A000#32)
abbrev op7 : HloOp τ sig (Elt F) := binary main_v4 main_cst_1 main_v5 (Host.divf : (⟨S_, .f32⟩ : BufTy).Contents (Elt F) → (⟨S_, .f32⟩ : BufTy).Contents (Elt F) → (⟨S_, .f32⟩ : BufTy).Contents (Elt F))
abbrev op8 : HloOp τ sig (Elt F) := binary main_v3 main_v5 main_v6 (addf : (⟨S_, .f32⟩ : BufTy).Contents (Elt F) → (⟨S_, .f32⟩ : BufTy).Contents (Elt F) → (⟨S_, .f32⟩ : BufTy).Contents (Elt F))

/-- In order. -/
abbrev tailOps : List (HloOp τ sig (Elt F)) := [op1, op2, op3, op4, op5, op6, op7, op8]

/-- @main is the SparseCore call, the TensorCore kernel's region, then the host operations. -/
theorem main_eq (d : Dev nD) :
    main (F := F) d = (sc.run d 0 >>= fun _ => Prog.lift (.customCall (SparseCore.inner (Pipeline.entry 0)) ()) >>= fun _ => seq tailOps) := rfl

/-- The first loss from the array of partial sums. -/
def locOf (v0 : (⟨S32x16, .f32⟩ : BufTy).Contents (Elt F)) : (⟨S_, .f32⟩ : BufTy).Contents (Elt F) :=
  Host.divf (Host.reduceAdd v0 (constant S_ .f32 0x00000000#32) reducesTo_S32x16_S_d0_1 h_S_) (constant S_ .f32 0x49C0A000#32)

/-- The second loss from the second kernel's 1 x 1 result. -/
def clsOf (v1 : (⟨S1x1, .f32⟩ : BufTy).Contents (Elt F)) : (⟨S_, .f32⟩ : BufTy).Contents (Elt F) :=
  Host.divf (shapeCast S_ v1 shapeCasts_S1x1_S_) (constant S_ .f32 0x48C0A000#32)

/-- The total. -/
def totOf (v0 : (⟨S32x16, .f32⟩ : BufTy).Contents (Elt F)) (v1 : (⟨S1x1, .f32⟩ : BufTy).Contents (Elt F)) : (⟨S_, .f32⟩ : BufTy).Contents (Elt F) :=
  addf (locOf v0) (clsOf v1)

/-- After the host operations the total's buffer holds `totOf` of the two kernels' arrays as they stood, -/
theorem after_v6 (V : Valuation τ sig (Elt F)) :
    after tailOps V (Proc.devRef .tc main_v6) = totOf (V (Proc.devRef .tc main_v0)) (V (Proc.devRef .tc main_v1)) := by
  unfold totOf locOf clsOf
  after_results <;> rfl
/-- the first loss's buffer `locOf`, -/
theorem after_v3 (V : Valuation τ sig (Elt F)) :
    after tailOps V (Proc.devRef .tc main_v3) = locOf (V (Proc.devRef .tc main_v0)) := by
  unfold locOf
  after_results <;> rfl
/-- the second loss's buffer `clsOf`, -/
theorem after_v5 (V : Valuation τ sig (Elt F)) :
    after tailOps V (Proc.devRef .tc main_v5) = clsOf (V (Proc.devRef .tc main_v1)) := by
  unfold clsOf
  after_results <;> rfl
/-- and the arguments are as they were. -/
theorem after_arg0 (V : Valuation τ sig (Elt F)) :
    after tailOps V (Proc.devRef .tc main_arg0) = V (Proc.devRef .tc main_arg0) := by
  after_results <;> rfl
theorem after_arg1 (V : Valuation τ sig (Elt F)) :
    after tailOps V (Proc.devRef .tc main_arg1) = V (Proc.devRef .tc main_arg1) := by
  after_results <;> rfl

end Cert.Proof.Kernel

end
-- ==== Proof.Word.ClsVal.lean ====
/-
  The value of the class-loss kernel, for any float instance.
  The second argument x1 has shape 16 x 24656 x 81. Grid point t (one of 16) is handed the two halves of batch entry t:
  rows [0, 12328) and rows [12328, 24656), each a 1 x 12328 x 81 block. For one block the function k1_pay2
  computes: exp entrywise, rounding to bf16, the product with the 81 x 128 matrix of zeros and ones (column 1 picks
  class 0, every other column sums the 81 classes), log entrywise, the product with the weight row (+1 at column 0,
  -1 at column 1, 0 elsewhere), and the sum of all 12328 x 128 entries. Point t adds the sum of the two halves' values
  to a 1 x 1 accumulator, which is set to the zero word at point 0 before the first addition.
-/
import proofs.«219810_g10299331576301_week1_w1_912_40_alg».proof.Proof.Word.Common
import Idealize.ShloMosaic.Lib.ValueIdx

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Half h (0 or 1) of batch entry t of x1, as a 1 x 12328 x 81 block: entry (0, r, k) is x1[t, 12328 h + r, k]. -/
def clsBlock (x1 : S16x24656x81.Idx → Elt F .f32) (t : Fin 16) (h : Fin 2) : Vec F S1x12328x81 .f32 :=
  fun j => x1 (ValueIdx.ix3 t (⟨h.val * 12328 + (j 1).val, by have h1 : (j 1).val < 12328 := (j 1).isLt; have h2 := h.isLt; omega⟩ : Fin 24656) ((j 2 : Fin 81)))

/-- What grid point t adds to the accumulator: the value of the first half plus the value of the second half. -/
def clsPoint (x1 : S16x24656x81.Idx → Elt F .f32) (t : Fin 16) : Elt F .f32 :=
  Scalar.addf (k1_pay2 (clsBlock x1 t 0)) (k1_pay2 (clsBlock x1 t 1))

/-- The accumulator after the first n grid points: the zero word, then one addition per point, in point order. -/
def clsAcc (x1 : S16x24656x81.Idx → Elt F .f32) : ℕ → Elt F .f32
  | 0 => Scalar.ofBits .f32 0x00000000#32
  | n + 1 => if h : n < 16 then Scalar.addf (clsAcc x1 n) (clsPoint x1 ⟨n, h⟩) else clsAcc x1 n

theorem clsAcc_zero (x1 : S16x24656x81.Idx → Elt F .f32) : clsAcc x1 0 = Scalar.ofBits .f32 0x00000000#32 := rfl

theorem clsAcc_succ (x1 : S16x24656x81.Idx → Elt F .f32) (n : ℕ) (h : n < 16) :
    clsAcc x1 (n + 1) = Scalar.addf (clsAcc x1 n) (clsPoint x1 ⟨n, h⟩) := by
  rw [clsAcc, dif_pos h]

/-- The kernel's 1 x 1 result: the accumulator after all 16 points. -/
def clsOut (x1 : S16x24656x81.Idx → Elt F .f32) : S1x1.Idx → Elt F .f32 := fun _ => clsAcc x1 16

end Cert.Proof.Kernel

end
-- ==== Proof.Word.MainBufs.lean ====
/-
  @main on the TensorCore, and the run of the whole program. The TensorCore holds every array whole. It hands the
  two cores read shares of the first argument and the rows of the array of partial sums (the SparseCore call), gets
  them back with every row at the tasks' lanes, runs the second kernel's region (the second argument read, its
  1 x 1 result written), then the eight host operations over the buffers it holds; at the end the three result
  buffers hold the host operations' functions of the two kernels' arrays and the arguments are as they were.
-/
import proofs.«219810_g10299331576301_week1_w1_912_40_alg».proof.Proof.Word.Pay
import proofs.«219810_g10299331576301_week1_w1_912_40_alg».proof.Proof.Word.Tail
import proofs.«219810_g10299331576301_week1_w1_912_40_alg».proof.Proof.Word.ClsVal

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Transfers (shareTok shareDrop pointsTo_toks_split pointsTo_toks_join)
open Idealize.ShloMosaic.StableHlo (held held_split held_sdiff_result wp_hlo_within wp_seq after seq)

variable [FloatOps F]
variable (m : (ℓ : Loc nD τ sig) → Buf (Elt F) ℓ) (ρ : Dev nD → PrngReg)

/-! ## The TensorCore's buffers -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev cst' : DevRef τ sig := Proc.devRef .tc (main_cst : Ref sig .tc)
abbrev v2' : DevRef τ sig := Proc.devRef .tc (main_v2 : Ref sig .tc)
abbrev cst0' : DevRef τ sig := Proc.devRef .tc (main_cst_0 : Ref sig .tc)
abbrev v3' : DevRef τ sig := Proc.devRef .tc (main_v3 : Ref sig .tc)
abbrev v4' : DevRef τ sig := Proc.devRef .tc (main_v4 : Ref sig .tc)
abbrev cst1' : DevRef τ sig := Proc.devRef .tc (main_cst_1 : Ref sig .tc)
abbrev v5' : DevRef τ sig := Proc.devRef .tc (main_v5 : Ref sig .tc)
abbrev v6' : DevRef τ sig := Proc.devRef .tc (main_v6 : Ref sig .tc)

/-- The buffers the host operations touch. -/
abbrev S10 : Finset (DevRef τ sig) := {v0', v1', cst', v2', cst0', v3', v4', cst1', v5', v6'}

omit [FloatOps F] in
theorem held_S10 (d : Dev nD) (W : Valuation τ sig (Elt F)) :
    (held (T d) S10 W : sProp 𝕄) = iprop((v0Loc d ↦{fullShare} W v0') ∗ (v1Loc d ↦{fullShare} W v1')
      ∗ ((SparseCore.T d).loc main_cst ↦{fullShare} W cst') ∗ ((SparseCore.T d).loc main_v2 ↦{fullShare} W v2')
      ∗ ((SparseCore.T d).loc main_cst_0 ↦{fullShare} W cst0') ∗ ((SparseCore.T d).loc main_v3 ↦{fullShare} W v3')
      ∗ ((SparseCore.T d).loc main_v4 ↦{fullShare} W v4') ∗ ((SparseCore.T d).loc main_cst_1 ↦{fullShare} W cst1')
      ∗ ((SparseCore.T d).loc main_v5 ↦{fullShare} W v5') ∗ ((SparseCore.T d).loc main_v6 ↦{fullShare} W v6')) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (v0Loc d ↦{fullShare} W main_v0) ∗ (v1Loc d ↦{fullShare} W main_v1)
      ∗ ((SparseCore.T d).loc main_cst ↦{fullShare} W main_cst) ∗ ((SparseCore.T d).loc main_v2 ↦{fullShare} W main_v2)
      ∗ ((SparseCore.T d).loc main_cst_0 ↦{fullShare} W main_cst_0) ∗ ((SparseCore.T d).loc main_v3 ↦{fullShare} W main_v3)
      ∗ ((SparseCore.T d).loc main_v4 ↦{fullShare} W main_v4) ∗ ((SparseCore.T d).loc main_cst_1 ↦{fullShare} W main_cst_1)
      ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped)
      = {main_arg0, main_arg1, main_v0, main_v1, main_cst, main_v2, main_cst_0, main_v3, main_v4, main_cst_1, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The buffers' contents when the host operations start: the launch contents, but the two kernels' result arrays. -/
def V0 (d : Dev nD) : Valuation τ sig (Elt F) := fun b => m (d, b)
def V2 (d : Dev nD) : Valuation τ sig (Elt F) :=
  Function.update (Function.update (V0 m d) v0' (outArr m d)) v1' (clsOut (m (a1Loc d)))

theorem V2_v1 (d : Dev nD) : V2 m d v1' = clsOut (m (a1Loc d)) := Function.update_self _ _ _
theorem V2_v0 (d : Dev nD) : V2 m d v0' = outArr m d :=
  (Function.update_of_ne (show v0' ≠ v1' by decide) _ _).trans (Function.update_self _ _ _)
theorem V2_of_ne (d : Dev nD) (b : DevRef τ sig) (h0 : b ≠ v0') (h1 : b ≠ v1') : V2 m d b = V0 m d b :=
  (Function.update_of_ne h1 _ _).trans (Function.update_of_ne h0 _ _)

end Cert.Proof.Kernel

end
-- ==== Proof.Word.Main.lean ====
/-
  @main on the TensorCore: the SparseCore call, the second kernel's region, the host operations.
-/
import proofs.«219810_g10299331576301_week1_w1_912_40_alg».proof.Proof.Word.MainBufs

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Transfers (shareTok shareDrop pointsTo_toks_split pointsTo_toks_join)
open Idealize.ShloMosaic.StableHlo (held held_split held_sdiff_result wp_hlo_within wp_seq after seq)

variable [FloatOps F]
variable (m : (ℓ : Loc nD τ sig) → Buf (Elt F) ℓ) (ρ : Dev nD → PrngReg)

/-! ## What the call takes for the two cores, and what it hands back -/

theorem st0_eq (d : Dev nD) :
    (bigSep Finset.univ fun c : Fin ((K (F := F)).nCore 0) => (P m).st 0 d c)
      = iprop((bigSep Finset.univ fun c : Fin 2 => a0Pts m d (coreShare c))
          ∗ bigSep Finset.univ fun c : Fin 2 => bigSep Finset.univ fun i : Fin 16 => rowPts d (wid c i) (m (v0Loc d))) := by
  rw [← bigSep_sep']
  exact bigSep_cores (F := F) (fun c => iprop(a0Pts m d (coreShare c) ∗ bigSep Finset.univ fun i : Fin 16 => rowPts d (wid c i) (m (v0Loc d))))
theorem dn0_eq (d : Dev nD) :
    (bigSep Finset.univ fun c : Fin ((K (F := F)).nCore 0) => (P m).dn 0 d c)
      = iprop((bigSep Finset.univ fun c : Fin 2 => a0Pts m d (coreShare c))
          ∗ bigSep Finset.univ fun c : Fin 2 => bigSep Finset.univ fun i : Fin 16 => rowPts d (wid c i) (outArr m d)) := by
  rw [← bigSep_sep']
  exact bigSep_cores (F := F) (fun c => iprop(a0Pts m d (coreShare c) ∗ bigSep Finset.univ fun i : Fin 16 => rowPts d (wid c i) (outArr m d)))

/-! ## The second kernel's region, as @main meets it

What the region's proof is asked for: from the second argument whole at its launch contents and the result array
whole at any contents, beside the region boundary, the level facts and the pipeline's ghost state `Gd d`, the
region's call runs and gives the second argument back and the result array at `clsOut`. -/

/-- What the TensorCore owes after the call: nothing, its recorded pairs all at low levels. -/
abbrev owesTc' (d : Dev nD) : sProp 𝕄 :=
  iprop(∃ W, ⌜(K (F := F)).WBelow (SparseCore.T d) W 8⌝ ∗ owes (SparseCore.T d) (0 : CellTallies nD τ sig (HIx 1)) W)

/-- What the region is entered with, and what it leaves. -/
abbrev regPre (d : Dev nD) : sProp 𝕄 :=
  iprop((a1Loc d ↦{fullShare} m (a1Loc d)) ∗ (v1Loc d ↦{fullShare} m (v1Loc d)) ∗ owesTc' (F := F) d)
abbrev regPost (d : Dev nD) : sProp 𝕄 :=
  iprop((a1Loc d ↦{fullShare} m (a1Loc d)) ∗ (v1Loc d ↦{fullShare} (clsOut (m (a1Loc d)) : Buf (Elt F) (v1Loc d))) ∗ owesTc' (F := F) d)

/-- The TensorCore's launch state after the one call is what it owes (nothing) and the rest. -/
theorem tcSt_one (d : Dev nD) : ∃ R : sProp 𝕄, (K (F := F)).tcSt EH d 1 = iprop(owesTc' (F := F) d ∗ R) :=
  ⟨_, by unfold SparseCore.Cfg.tcSt; rw [(K (F := F)).Otc_end d le_rfl]⟩

/-- The region's rule over the program's own body table. -/
def RegionRule (Gd : Dev nD → sProp 𝕄) : Prop :=
  ∀ (d : Dev nD) (Φ : PUnit → sProp 𝕄),
    iprop((iprop(boundary (SparseCore.T d) ∗ regPost m d) -∗ wp frame (wpE (D (F := F)) 𝒱 (SparseCore.T d) none) Set.univ (.ret ⟨⟩) Φ)
        ∗ boundary (SparseCore.T d) ∗ regPre m d ∗ levAts (K (F := F)).L (K (F := F)).lev ∗ Gd d)
      ⊢ wp frame (wpE (D (F := F)) 𝒱 (SparseCore.T d) none) Set.univ (.op (.customCall (Pipeline.entry 0) ()) fun _ => .ret ⟨⟩) Φ

/-- The same over the extended table, where the region's call is the call of the inner label: the shape @main uses. -/
def RegionRule' (Gd : Dev nD → sProp 𝕄) : Prop :=
  ∀ (d : Dev nD) (Φ : PUnit → sProp 𝕄),
    iprop((iprop(boundary (SparseCore.T d) ∗ regPost m d) -∗ |={Set.univ}=> Φ ⟨⟩)
        ∗ boundary (SparseCore.T d) ∗ regPre m d ∗ levAts (K (F := F)).L (K (F := F)).lev ∗ Gd d)
      ⊢ wp frame (wpE ((K (F := F)).defs (D (F := F))) 𝒱 (SparseCore.T d) none) Set.univ
          (Prog.lift (.customCall (SparseCore.inner (Pipeline.entry 0)) ())) Φ

/-- The call of the inner label is the region's call, lifted. -/
theorem lift_call :
    (SparseCore.liftProg (Q := 1) (.op (.customCall (Pipeline.entry 0) ()) fun _ => .ret ⟨⟩)
        : Prog (TpuEff nD τ sig (Elt F) (SparseCore.Sig (ΛP (F := F)) 1) .tc) PUnit)
      = Prog.lift (.customCall (SparseCore.inner (Pipeline.entry 0)) ()) := rfl

theorem RegionRule.lift {Gd : Dev nD → sProp 𝕄} (h : RegionRule m Gd) : RegionRule' m Gd := by
  intro d Φ
  have h1 := h d Φ
  rw [wp_ret] at h1
  refine h1.trans ?_
  rw [← lift_call]
  exact (K (F := F)).wp_liftProg (D (F := F)) 𝒱 (SparseCore.T d) Set.univ none _ Φ

/-! ## @main -/

/-- What @main leaves for the claim: the three results at the host operations' functions of the kernels' arrays,
    the two arguments at their launch contents. -/
abbrev FIN (d : Dev nD) : sProp 𝕄 :=
  iprop(((SparseCore.T d).loc main_v6 ↦{fullShare} totOf (outArr m d) (clsOut (m (a1Loc d))))
    ∗ ((SparseCore.T d).loc main_v3 ↦{fullShare} locOf (outArr m d))
    ∗ ((SparseCore.T d).loc main_v5 ↦{fullShare} clsOf (clsOut (m (a1Loc d))))
    ∗ (a0Loc d ↦{fullShare} m (a0Loc d)) ∗ (a1Loc d ↦{fullShare} m (a1Loc d)))

theorem op1_sub : (op1 : HloOp τ sig (Elt F)).bufs ⊆ S10 := by simp only [StableHlo.nullary_bufs]; decide
theorem op2_sub : (op2 : HloOp τ sig (Elt F)).bufs ⊆ S10 := by simp only [StableHlo.binary_bufs]; decide
theorem op3_sub : (op3 : HloOp τ sig (Elt F)).bufs ⊆ S10 := by simp only [StableHlo.nullary_bufs]; decide
theorem op4_sub : (op4 : HloOp τ sig (Elt F)).bufs ⊆ S10 := by simp only [StableHlo.binary_bufs]; decide
theorem op5_sub : (op5 : HloOp τ sig (Elt F)).bufs ⊆ S10 := by simp only [StableHlo.reshape_bufs]; decide
theorem op6_sub : (op6 : HloOp τ sig (Elt F)).bufs ⊆ S10 := by simp only [StableHlo.nullary_bufs]; decide
theorem op7_sub : (op7 : HloOp τ sig (Elt F)).bufs ⊆ S10 := by simp only [StableHlo.binary_bufs]; decide
theorem op8_sub : (op8 : HloOp τ sig (Elt F)).bufs ⊆ S10 := by simp only [StableHlo.binary_bufs]; decide

/-- The buffers' contents after each host operation. -/
abbrev W1 (d : Dev nD) : Valuation τ sig (Elt F) := (op1 : HloOp τ sig (Elt F)).result (V2 m d)
abbrev W2 (d : Dev nD) : Valuation τ sig (Elt F) := (op2 : HloOp τ sig (Elt F)).result (W1 m d)
abbrev W3 (d : Dev nD) : Valuation τ sig (Elt F) := (op3 : HloOp τ sig (Elt F)).result (W2 m d)
abbrev W4 (d : Dev nD) : Valuation τ sig (Elt F) := (op4 : HloOp τ sig (Elt F)).result (W3 m d)
abbrev W5 (d : Dev nD) : Valuation τ sig (Elt F) := (op5 : HloOp τ sig (Elt F)).result (W4 m d)
abbrev W6 (d : Dev nD) : Valuation τ sig (Elt F) := (op6 : HloOp τ sig (Elt F)).result (W5 m d)
abbrev W7 (d : Dev nD) : Valuation τ sig (Elt F) := (op7 : HloOp τ sig (Elt F)).result (W6 m d)
abbrev W8 (d : Dev nD) : Valuation τ sig (Elt F) := (op8 : HloOp τ sig (Elt F)).result (W7 m d)
theorem W8_eq (d : Dev nD) : W8 m d = after tailOps (V2 m d) := rfl

set_option maxHeartbeats 1600000 in
theorem hmain (Gd : Dev nD → sProp 𝕄) (hreg : RegionRule' m Gd) (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_one (F := F) d
  have e6 : ((op8 : HloOp τ sig (Elt F)).result (W7 m d)) v6' = totOf (outArr m d) (clsOut (m (a1Loc d))) := by
    have h := after_v6 (F := F) (V2 m d); rw [V2_v0, V2_v1] at h; exact h
  have e3 : ((op8 : HloOp τ sig (Elt F)).result (W7 m d)) v3' = locOf (outArr m d) := by
    have h := after_v3 (F := F) (V2 m d); rw [V2_v0] at h; exact h
  have e5 : ((op8 : HloOp τ sig (Elt F)).result (W7 m d)) v5' = clsOf (clsOut (m (a1Loc d))) := by
    have h := after_v5 (F := F) (V2 m d); rw [V2_v1] at h; exact h
  unfold SparseCore.Cfg.tcRes
  rw [unscopedBufs_eq]
  simp only [main, wp_bind, wp_pure]
  iintro ⟨#Hctx, Hst, ⟨Hb, ⟨Ha0, Ha1, Hv0, Hv1, Hcst, Hv2, Hcst0, Hv3, Hv4, Hcst1, Hv5, Hv6⟩, -, -⟩, HG⟩
  -- the first argument: a read share for each core; the array of partial sums: its rows, core by core
  ihave Ha0' := (pointsTo_toks_split fullShare 2) $$ Ha0
  icases Ha0' with ⟨Hdrop, Htoks⟩
  ihave Hrows := (Entails.of_eq ((v0_rows (F := F) d _).trans (bigSep_wid (F := F) _))) $$ Hv0
  iapply ((K (F := F)).wp_run (D (F := F)) 𝒱 (EH := EH) (P := P m) κ d 0) $$ [Hst Htoks Hrows Hb Hdrop Ha1 Hv1 Hcst Hv2 Hcst0 Hv3 Hv4 Hcst1 Hv5 Hv6 HG]
  isplitr; · iexact Hctx
  isplitl [Hst]; · iexact Hst
  isplitl [Htoks Hrows]
  · rw [st0_eq]
    isplitl [Htoks]; · iexact Htoks
    iexact Hrows
  iintro ⟨Hst, Hdn⟩
  ihave Hst' := (Entails.of_eq (show (K (F := F)).tcSt EH d ((0 : Fin 1).val + 1) = iprop(owesTc' (F := F) d ∗ R) from hR)) $$ Hst
  icases Hst' with ⟨Howes, HR⟩
  ihave Hdn' := (Entails.of_eq (dn0_eq m d)) $$ Hdn
  icases Hdn' with ⟨Htoks, Hrows⟩
  ihave Ha0 := (pointsTo_toks_join fullShare 2) $$ [Hdrop Htoks]
  · isplitl [Hdrop]; · iexact Hdrop
    iexact Htoks
  ihave Hv0 := (Entails.of_eq ((v0_rows (F := F) d (outArr m d)).trans (bigSep_wid (F := F) _)).symm) $$ Hrows
  -- the second kernel's region
  ihave Hlev := ((K (F := F)).ctx_levAts (EH := EH) (P := P m) κ) $$ Hctx
  iapply (hreg d _)
  isplitr [Hb Ha1 Hv1 Howes Hlev HG]
  rotate_left
  · isplitl [Hb]; · iexact Hb
    isplitl [Ha1 Hv1 Howes]
    · isplitl [Ha1]; · iexact Ha1
      isplitl [Hv1]; · iexact Hv1
      iexact Howes
    isplitl [Hlev]; · iexact Hlev
    iexact HG
  iintro ⟨Hb, Ha1, Hv1, Howes⟩
  ihave Hst := (Entails.of_eq hR.symm) $$ [Howes HR]
  · isplitl [Howes]; · iexact Howes
    iexact HR
  imodintro
  -- the host operations, over the ten buffers they touch
  ihave Hheld := (Entails.of_eq (show iprop((v0Loc d ↦{fullShare} outArr m d) ∗ (v1Loc d ↦{fullShare} clsOut (m (a1Loc d)))
      ∗ ((SparseCore.T d).loc main_cst ↦{fullShare} V0 m d cst') ∗ ((SparseCore.T d).loc main_v2 ↦{fullShare} V0 m d v2')
      ∗ ((SparseCore.T d).loc main_cst_0 ↦{fullShare} V0 m d cst0') ∗ ((SparseCore.T d).loc main_v3 ↦{fullShare} V0 m d v3')
      ∗ ((SparseCore.T d).loc main_v4 ↦{fullShare} V0 m d v4') ∗ ((SparseCore.T d).loc main_cst_1 ↦{fullShare} V0 m d cst1')
      ∗ ((SparseCore.T d).loc main_v5 ↦{fullShare} V0 m d v5') ∗ ((SparseCore.T d).loc main_v6 ↦{fullShare} V0 m d v6'))
      = (held (SparseCore.T d) S10 (V2 m d) : sProp 𝕄) from by
    rw [held_S10, V2_v0, V2_v1, V2_of_ne m d cst' (by decide) (by decide), V2_of_ne m d v2' (by decide) (by decide),
      V2_of_ne m d cst0' (by decide) (by decide), V2_of_ne m d v3' (by decide) (by decide), V2_of_ne m d v4' (by decide) (by decide),
      V2_of_ne m d cst1' (by decide) (by decide), V2_of_ne m d v5' (by decide) (by decide), V2_of_ne m d v6' (by decide) (by decide)])) $$ [Hv0 Hv1 Hcst Hv2 Hcst0 Hv3 Hv4 Hcst1 Hv5 Hv6]
  · isplitl [Hv0]; · iexact Hv0
    isplitl [Hv1]; · iexact Hv1
    isplitl [Hcst]; · iexact Hcst
    isplitl [Hv2]; · iexact Hv2
    isplitl [Hcst0]; · iexact Hcst0
    isplitl [Hv3]; · iexact Hv3
    isplitl [Hv4]; · iexact Hv4
    isplitl [Hcst1]; · iexact Hcst1
    isplitl [Hv5]; · iexact Hv5
    iexact Hv6
  iapply (wp_hlo_within 𝒱 (SparseCore.T d) none Set.univ (op := op1) (S := S10) op1_sub (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S10) op2_sub (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S10) op3_sub (V := W2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S10) op4_sub (V := W3 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S10) op5_sub (V := W4 m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := S10) op6_sub (V := W5 m d)) $$ [Hb Hheld]
  · isplitl [Hb]; · iexact Hb
    iexact Hheld
  iintro ⟨Hb, Hheld⟩
  rw [wp_ret]; imodintro
  iapply (wp_hlo_within 𝒱 (SparseCore.T d) none Set.univ (op := op7) (S := S10) op7_sub (V := W6 m d)) $$ [Hb Hheld]
  · isplitl [Hb]; · iexact Hb
    iexact Hheld
  iintro ⟨Hb, Hheld⟩
  rw [wp_ret]; imodintro
  iapply (wp_hlo_within 𝒱 (SparseCore.T d) none Set.univ (op := op8) (S := S10) op8_sub (V := W7 m d)) $$ [Hb Hheld]
  · isplitl [Hb]; · iexact Hb
    iexact Hheld
  iintro ⟨Hb, Hheld⟩
  rw [wp_ret]; imodintro
  ihave Hh := (Entails.of_eq (held_S10 (F := F) d ((op8 : HloOp τ sig (Elt F)).result (W7 m d)))) $$ Hheld
  icases Hh with ⟨-, -, -, -, -, Hv3, -, -, Hv5, Hv6⟩
  imodintro
  isplitl [Hst]; · iexact Hst
  rw [e6, e3, e5]
  isplitl [Hv6]; · iexact Hv6
  isplitl [Hv3]; · iexact Hv3
  isplitl [Hv5]; · iexact Hv5
  isplitl [Ha0]; · iexact Ha0
  iexact Ha1

end Cert.Proof.Kernel

end
-- ==== Proof.Word.Final.lean ====
/-
  The run of the whole program: the launch theorem of a SparseCore program applied to the task's proof, the split
  of a core's operands among its tasks, @main's proof and the launch element; what the final memory then holds.
-/
import proofs.«219810_g10299331576301_week1_w1_912_40_alg».proof.Proof.Word.Main

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## What the final memory holds -/

/-- The three results at the host operations' functions of the two kernels' arrays, the arguments unchanged. -/
def fq (d : Dev nD) (s' : Phys nD τ sig (Elt F)) : Prop :=
  s'.mem.mem ((SparseCore.T d).loc main_v6) = totOf (outArr m d) (clsOut (m (a1Loc d)))
  ∧ s'.mem.mem ((SparseCore.T d).loc main_v3) = locOf (outArr m d)
  ∧ s'.mem.mem ((SparseCore.T d).loc main_v5) = clsOf (clsOut (m (a1Loc d)))
  ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H6, H3, H5, H0, H1⟩, HSI⟩
  ihave H := (persistent_entails_right (SI_pointsTo_agree (st := s') (ℓ := (SparseCore.T d).loc main_v6) (I := Finset.univ) (q := fullShare)
    (f := totOf (outArr m d) (clsOut (m (a1Loc d)))))) $$ [HSI H6]
  · isplitl [HSI] <;> iassumption
  icases H with ⟨%h6, HSI, -⟩
  ihave H := (persistent_entails_right (SI_pointsTo_agree (st := s') (ℓ := (SparseCore.T d).loc main_v3) (I := Finset.univ) (q := fullShare)
    (f := locOf (outArr m d)))) $$ [HSI H3]
  · isplitl [HSI] <;> iassumption
  icases H with ⟨%h3, HSI, -⟩
  ihave H := (persistent_entails_right (SI_pointsTo_agree (st := s') (ℓ := (SparseCore.T d).loc main_v5) (I := Finset.univ) (q := fullShare)
    (f := clsOf (clsOut (m (a1Loc d)))))) $$ [HSI H5]
  · isplitl [HSI] <;> iassumption
  icases H with ⟨%h5, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (SI_pointsTo_agree (st := s') (ℓ := a1Loc d) (I := Finset.univ) (q := fullShare) (f := m (a1Loc d))) $$ [HSI H1]
  · isplitl [HSI] <;> iassumption
  icases H with %h1
  ipureintro
  exact ⟨funext fun i => h6 i (Finset.mem_univ i), funext fun i => h3 i (Finset.mem_univ i), funext fun i => h5 i (Finset.mem_univ i),
    funext fun i => h0 i (Finset.mem_univ i), funext fun i => h1 i (Finset.mem_univ i)⟩

/-- The claim's reading of the final memory. -/
def QC : PUnit × MemSt nD τ sig (Elt F) → Prop := fun r => ∀ c : Dev nD,
  r.2.mem ((SparseCore.T c).loc main_v6) = totOf (outArr m c) (clsOut (m (a1Loc c)))
  ∧ r.2.mem ((SparseCore.T c).loc main_v3) = locOf (outArr m c)
  ∧ r.2.mem ((SparseCore.T c).loc main_v5) = clsOf (clsOut (m (a1Loc c)))
  ∧ r.2.mem (a0Loc c) = m (a0Loc c) ∧ r.2.mem (a1Loc c) = m (a1Loc c)

end Cert.Proof.Kernel

end
-- ==== Proof.Word.LaunchElem.lean ====
/-
  The launch element of the ghost state, and what it funds. The ghost state is a triple: the launch handshakes' rounds,
  the rounds of the TensorCore pipeline's staging cells, and the counters of the vector subcores' own local copies. Its
  launch element is the handshakes' launch element, the staging cells' launch element, and the unit of the counters.
  Owning it gives the handshakes' element as it is, and, through the funding of the staging cells, each device's cells'
  ghost state and duty tokens; the counters' unit is dropped. No thread is handed anything else.
-/
import proofs.«219810_g10299331576301_week1_w1_912_40_alg».proof.Proof.Word.Pay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The one admissible contents of each pipeline's (empty) prefetched tables. -/
abbrev admX : (p : Fin 1) → (pcfgs (F := F) p).Adm := fun p => (cfgs p).toPCfg_adm
/-- The pipelines at those contents: the printed configurations again. -/
abbrev pcfgX : Fin 1 → Pipeline.Cfg sig Λ₀ := Pipeline.pin (pcfgs (F := F)) admX

/-- The staging cells of the pipelines at those contents are pairwise distinct. -/
theorem cellOf_injX : Function.Injective (Pipeline.cellOf (nD := nD) (τ := τ) (pcfgX (F := F))) := cellOf_inj

/-- What device d is dealt for the TensorCore pipeline: its staging cells' ghost state and its duty tokens. -/
def Gd (d : Dev nD) : sProp 𝕄 :=
  iprop(Pipeline.cellsGhost (pcfgX (F := F)) EP 0 d ∗ Pipeline.toksInit (pcfgX (F := F)) EP 0 d)

/-- The launch element. -/
def u₀ : UU :=
  (initOf (K (F := F)).hsCells (K (F := F)).hsToks,
    (initOf (Pipeline.cells (pcfgX (F := F)) cellOf_injX) (Pipeline.launchToks (pcfgX (F := F)) cellOf_injX), 1))

/-- Owning a triple of the ghost state is owning its first two components through their embeddings. -/
theorem ownU_split (a : UH) (b : UP) (c : Counters) :
    (ownU ((a, (b, c)) : UU) : sProp 𝕄) ⊢ iprop(BI.own (EH a) ∗ BI.own (EP b)) := by
  iintro Hu
  ihave H := (ownU_pair a (b, c)) $$ Hu
  icases H with ⟨HH, HR⟩
  ihave H2 := (own_pair_emb (embR : Emb (UP × Counters) 𝕄) b c) $$ HR
  icases H2 with ⟨HP, -⟩
  isplitl [HH]; · iexact HH
  iexact HP

/-- The devices' shares of the pipeline's ghost state, as the funding gives them. -/
theorem Gd_eq :
    (bigSep Finset.univ fun d : Dev nD => Gd (F := F) d)
      = iprop((bigSep Finset.univ fun c : Dev nD => bigSep Finset.univ fun p : Fin 1 => Pipeline.cellsGhost (pcfgX (F := F)) EP p c)
          ∗ (bigSep Finset.univ fun c : Dev nD => bigSep Finset.univ fun p : Fin 1 => (Pipeline.toksInit (pcfgX (F := F)) EP p c : sProp 𝕄))) := by
  unfold Gd
  rw [bigSep_sep']
  congr 1
  · exact bigSep_congr fun c _ =>
      (bigSep_univ_of_subsingleton (0 : Fin 1) (Φ := fun p : Fin 1 => Pipeline.cellsGhost (pcfgX (F := F)) EP p c)).symm
  · exact bigSep_congr fun c _ =>
      (bigSep_univ_of_subsingleton (0 : Fin 1)
        (Φ := fun p : Fin 1 => (Pipeline.toksInit (pcfgX (F := F)) EP p c : sProp 𝕄))).symm

theorem bigSep_emp' {I : Type} (s : Finset I) : (bigSep s fun _ => iprop(emp)) = (iprop(emp) : sProp 𝕄) := bigSep_emp_const s

variable [FloatOps F]
variable (m : (ℓ : Loc nD τ sig) → Buf (Elt F) ℓ)

/-- THE LAUNCH ELEMENT funds the handshakes' element, every device's share of the pipeline's ghost state, and nothing
    for the threads. -/
theorem hu₀ : (ownU (u₀ (F := F)) : sProp 𝕄)
    ⊢ |={Set.univ}=> iprop(BI.own (EH (initOf (K (F := F)).hsCells (K (F := F)).hsToks))
        ∗ (bigSep Finset.univ fun d : Dev nD => Gd (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Pipeline.fund_ghost (pcfgX (F := F)) EP cellOf_injX) $$ HP with HG
  imodintro
  isplitl [HH]; · iexact HH
  isplitl [HG]
  · rw [Gd_eq]; iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Kernel

end
-- ==== Proof.Word.ClsBody.lean ====
/-
  The class-loss kernel's body at one grid point, on any whole staging memrefs.
  The body loads the two staged blocks A and B, computes the value of each (k1_pay2), and adds their sum to the word of
  the 1 x 1 accumulator block; where the grid coordinate is 0 it first stores the zero word into that block. So the
  block ends at  acc + (k1_pay2 A + k1_pay2 B),  acc the zero word at the first point and the block's word elsewhere.
-/
import proofs.«219810_g10299331576301_week1_w1_912_40_alg».proof.Proof.Word.ClsVal
import Idealize.ShloMosaic.Lib.Pipeline.Frame
import Idealize.ShloMosaic.Lib.Pipeline.FrameBody
import Idealize.ShloMosaic.Lib.Pipeline.Value
import Idealize.ShloMosaic.Lib.WritesUnit
import Idealize.ShloMosaic.Lib.WholeRead

set_option maxRecDepth 16384

noncomputable section

namespace Cert.Proof.Kernel

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The body's branch condition: the grid coordinate, as a 32-bit word, is zero. -/
abbrev cond1 (i : grid1.Coords) : Prop := (Scalar.cmpi .ne (Scalar.extui (Scalar.cmpi .eq (BitVec.ofNat 32 (i 0).val) 0#32)) 0#32) = 1#1

/-- The stored word: the second block's chain of operations is the first block's, so both halves are values of k1_pay2. -/
theorem pay1_eq (xA xB : Vec F S1x12328x81 .f32) (acc : Elt F .f32) :
    k1_pay1 (k1_pay2 xA) (k1_pay3 xB) (iota .tc S81x128 32 [0] iota_S81x128_d0_w32) (iota .tc S81x128 32 [1] iota_S81x128_d1_w32) k1_pay4 acc
      = Scalar.addf acc (Scalar.addf (k1_pay2 xA) (k1_pay2 xB)) := rfl

/-- A load of a whole memref through the full rectangle at offsets zero reads the memref's contents. -/
theorem readAt_whole_unread {κ : Kind} {sp : Space} {s : Shape} {e : EltTy} {m : Memref sig κ sp s e} (h : m.IsWhole) (X : s.Idx → Elt F e)
    {off : Fin s.rank → ℕ} (hoff : off = fun _ => 0) (inb : ∀ a, off a + s.size a ≤ s.size a) :
    View.readAt (Elt F) m.view (Rect.unit off s.size inb).toLoadRect (h.unread X) = X := by
  funext x
  rw [h.readAt_unread]
  exact congrFun (View.ld_unit_zero hoff inb X) x

theorem off3_zero : (![0, 0, 0] : Fin 3 → ℕ) = fun _ => 0 := by funext a; fin_cases a <;> rfl
theorem off2_zero : (![0, 0] : Fin 2 → ℕ) = fun _ => 0 := by funext a; fin_cases a <;> rfl

/-- Every index of the 1 x 1 block lies in the rectangle of sizes 1 x 1 at offsets 0, 0. -/
theorem mem1x1 (y : S1x1.Idx) : ∀ a : Fin S1x1.rank, (![0, 0] : Fin 2 → ℕ) a ≤ (y a).val ∧ (y a).val < (![0, 0] : Fin 2 → ℕ) a + S1x1.size a := by
  intro a
  have h := (y a).isLt
  have h0 : (![0, 0] : Fin 2 → ℕ) a = 0 := congrFun off2_zero a
  rw [h0]; omega

/-- The body at the first point (the coordinate is 0): the accumulator block, whatever it held, ends at zero + (value of A + value of B). -/
theorem clsBody_first (c : Dev nD) (i : grid1.Coords) (arg1 : Memref sig .tc .vmem S1x12328x81 .f32) (harg1 : arg1.IsWhole) (arg2 : Memref sig .tc .vmem S1x12328x81 .f32) (harg2 : arg2.IsWhole) (arg3 : Memref sig .tc .smem S1x1 .f32) (harg3 : arg3.IsWhole)
    (hc : cond1 i) (xA xB : Vec F S1x12328x81 .f32) (E : Set ℕ) (K : PUnit → sProp 𝕄) :
    iprop(owns (c.tc : Thread nD τ) arg1 fullShare xA ∗ owns (c.tc : Thread nD τ) arg2 fullShare xB ∗ (∃ d, owns (c.tc : Thread nD τ) arg3 fullShare d)
        ∗ (iprop(owns (c.tc : Thread nD τ) arg1 fullShare xA ∗ owns (c.tc : Thread nD τ) arg2 fullShare xB
              ∗ owns (c.tc : Thread nD τ) arg3 fullShare (fun _ => Scalar.addf (Scalar.ofBits .f32 0x00000000#32) (Scalar.addf (k1_pay2 xA) (k1_pay2 xB)))) -∗ K ⟨⟩))
      ⊢ wp frame (wpE (defs₀ (F := F)) 𝒱₀ (c.tc : Thread nD τ) none) E (cc1__cls_body i arg1 harg1 arg2 harg2 arg3 harg3) K := by
  simp only [cc1__cls_body_eq_skeleton]; unfold cc1__cls_body_skel
  simp only [k1_part1_eq_skeleton]; unfold k1_part1_skel
  unfold owns
  iintro ⟨⟨%f1, %hf1, H1⟩, ⟨%f2, %hf2, H2⟩, ⟨%d3, %f3, -, H3⟩, Hk⟩
  obtain rfl := harg1.eq_unread hf1
  obtain rfl := harg2.eq_unread hf2
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  iexists _; isplitr; swap; · iexact H3
  ipureintro
  funext y
  rw [View.read_writes_cons_unit arg3.view f3 inb_S1x1_S1x1_0_0 _ _ y rfl]
  sl_unfold_run_names
  rw [dif_pos (mem1x1 y), readAt_whole_unread harg1 xA off3_zero, readAt_whole_unread harg2 xB off3_zero]
  exact pay1_eq xA xB _

/-- The body at a later point (the coordinate is not 0): the accumulator block, holding acc, ends at acc + (value of A + value of B). -/
theorem clsBody_rest (c : Dev nD) (i : grid1.Coords) (arg1 : Memref sig .tc .vmem S1x12328x81 .f32) (harg1 : arg1.IsWhole) (arg2 : Memref sig .tc .vmem S1x12328x81 .f32) (harg2 : arg2.IsWhole) (arg3 : Memref sig .tc .smem S1x1 .f32) (harg3 : arg3.IsWhole)
    (hc : ¬ cond1 i) (xA xB : Vec F S1x12328x81 .f32) (acc : Elt F .f32) (E : Set ℕ) (K : PUnit → sProp 𝕄) :
    iprop(owns (c.tc : Thread nD τ) arg1 fullShare xA ∗ owns (c.tc : Thread nD τ) arg2 fullShare xB ∗ owns (c.tc : Thread nD τ) arg3 fullShare (fun _ => acc)
        ∗ (iprop(owns (c.tc : Thread nD τ) arg1 fullShare xA ∗ owns (c.tc : Thread nD τ) arg2 fullShare xB
              ∗ owns (c.tc : Thread nD τ) arg3 fullShare (fun _ => Scalar.addf acc (Scalar.addf (k1_pay2 xA) (k1_pay2 xB)))) -∗ K ⟨⟩))
      ⊢ wp frame (wpE (defs₀ (F := F)) 𝒱₀ (c.tc : Thread nD τ) none) E (cc1__cls_body i arg1 harg1 arg2 harg2 arg3 harg3) K := by
  simp only [cc1__cls_body_eq_skeleton]; unfold cc1__cls_body_skel
  simp only [k1_part1_eq_skeleton]; unfold k1_part1_skel
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  iexists _; isplitr; swap; · iexact H3
  ipureintro
  funext y
  rw [View.read_writes_cons_unit arg3.view _ inb_S1x1_S1x1_0_0 _ _ y rfl]
  sl_unfold_run_names
  rw [dif_pos (mem1x1 y), readAt_whole_unread harg1 xA off3_zero, readAt_whole_unread harg2 xB off3_zero, harg3.readAt_unread]
  exact pay1_eq xA xB _

end Cert.Proof.Kernel

end
-- ==== Proof.Word.ClsRegion.lean ====
/-
  The class-loss pallas_call as one kernel region of the main program: the proof data of its pipeline (what each
  staging buffer holds after the body at each grid point), the body obligation at every point, and the region's
  record: entered holding the second argument and the result array, left holding the second argument unchanged and the
  result array at the 16-fold accumulation.
-/
import proofs.«219810_g10299331576301_week1_w1_912_40_alg».proof.Proof.Word.ClsBody
import Idealize.ShloMosaic.Lib.Pipeline.Frame
import Idealize.ShloMosaic.Lib.Pipeline.FrameBody
import Idealize.ShloMosaic.Lib.Pipeline.Value
import Idealize.ShloMosaic.Lib.WritesUnit
import Idealize.ShloMosaic.Lib.WholeRead

set_option maxRecDepth 16384

noncomputable section

namespace Cert.Proof.Kernel

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- No prefetched table: the one admissible choice. -/
abbrev adm : (p : Fin 1) → (pcfgs (F := F) p).Adm := fun p => (cfgs p).toPCfg_adm

variable (m : (ℓ : Loc nD τ sig) → Buf (Elt F) ℓ)

/-- The second argument on device c, as the memory m holds it. -/
abbrev x1At (c : Dev nD) : S16x24656x81.Idx → Elt F .f32 := m (a1Loc c)

/-- A grid point as a number below 16. -/
def pt16 (t : Fin cfg1.N) : Fin 16 := ⟨t.val, lt_of_lt_of_eq t.isLt N_1⟩

/-- The proof data: the arrays as m holds them; after the body at point t the two input buffers hold the two halves of
    batch entry t and the accumulator block holds the sum over points 0..t; nothing owed, and the pairs the core's waits
    have recorded all at level at most 8; the second argument is read at the two halves of the full share, one per
    input window. -/
def dat1 (c : Dev nD) : Pipeline.Dat τ (Elt F) (HIx 1) ℕ UU ℕ cfg1 c where
  A w := m ((cfg1.win w).arr.view.loc (c.tc : Thread nD τ))
  after w t := match w with
    | ⟨0, _⟩ => clsBlock (x1At m c) (pt16 t) 0
    | ⟨1, _⟩ => clsBlock (x1At m c) (pt16 t) 1
    | ⟨2, _⟩ => fun _ => clsAcc (x1At m c) (t.val + 1)
  Φ _ := iprop(emp)
  q w := match w with
    | ⟨0, _⟩ => fullShare.left
    | ⟨1, _⟩ => fullShare.right
    | ⟨2, _⟩ => fullShare
  owed _ := 0
  recorded _ := {p | (K (F := F)).lev (SparseCore.T c, p.1) p.2 ≤ 8}

def pdats : (p : Fin 1) → (c : Dev nD) → Pipeline.Dat τ (Elt F) (HIx 1) ℕ UU ℕ (Pipeline.pin (pcfgs (F := F)) adm p) c
  | 0 => dat1 m

theorem after1_0 (c : Dev nD) (t : Fin cfg1.N) : (dat1 m c).after 0 t = clsBlock (x1At m c) (pt16 t) 0 := by dsimp only [dat1]
theorem after1_1 (c : Dev nD) (t : Fin cfg1.N) : (dat1 m c).after 1 t = clsBlock (x1At m c) (pt16 t) 1 := by dsimp only [dat1]
theorem after1_2 (c : Dev nD) (t : Fin cfg1.N) : (dat1 m c).after 2 t = fun _ => clsAcc (x1At m c) (t.val + 1) := by dsimp only [dat1]

/-- The grid is one axis of 16 points: a point's coordinate is its number. -/
theorem coords_val : ∀ t : Fin grid1.N, (grid1.coords t 0).val = t.val := by decide +kernel

/-- The branch is taken at point 0 only. -/
theorem hcond1 : ∀ t : Fin grid1.N, cond1 (grid1.coords t) ↔ t.val = 0 := by decide +kernel

/-- The block indices of the three windows at point t. -/
theorem index0 : ∀ t : Fin grid1.N, cc1_transform_0 (grid1.coords t) = ![t.val, 0, 0] := by decide +kernel
theorem index1 : ∀ t : Fin grid1.N, cc1_transform_1 (grid1.coords t) = ![t.val, 1, 0] := by decide +kernel

theorem blockOf0 (c : Dev nD) (t : Fin cfg1.N) : (dat1 m c).blockOf 0 t = clsBlock (x1At m c) (pt16 t) 0 := by
  funext j
  unfold Pipeline.Dat.blockOf
  rw [View.read_apply]
  show x1At m c ((Memref.whole main_arg1).view.emb (((cfg1.win 0).rect t).emb j)) = _
  unfold clsBlock
  congr 1
  funext a
  apply Fin.ext
  have hi : (cfg1.win 0).index t = ![t.val, 0, 0] := index0 t
  have hj0 : (j 0).val < 1 := (j 0).isLt
  have key : ∀ a : Fin 3, (((cfg1.win 0).rect t).emb j a).val = (ValueIdx.ix3 (pt16 t) (⟨(0 : Fin 2).val * 12328 + (j 1).val, by have h1 : (j 1).val < 12328 := (j 1).isLt; have h2 := (0 : Fin 2).isLt; omega⟩ : Fin 24656) ((j 2 : Fin 81)) a).val := by
    intro a
    rw [(cfg1.win 0).rect_emb_val t j a, hi]
    fin_cases a
    · show t.val * 1 + (j 0).val = t.val; omega
    · show 0 * 12328 + (j 1).val = 0 * 12328 + (j 1).val; rfl
    · show 0 * 81 + (j 2).val = (j 2).val; omega
  exact key a

theorem blockOf1 (c : Dev nD) (t : Fin cfg1.N) : (dat1 m c).blockOf 1 t = clsBlock (x1At m c) (pt16 t) 1 := by
  funext j
  unfold Pipeline.Dat.blockOf
  rw [View.read_apply]
  show x1At m c ((Memref.whole main_arg1).view.emb (((cfg1.win 1).rect t).emb j)) = _
  unfold clsBlock
  congr 1
  funext a
  apply Fin.ext
  have hi : (cfg1.win 1).index t = ![t.val, 1, 0] := index1 t
  have hj0 : (j 0).val < 1 := (j 0).isLt
  have key : ∀ a : Fin 3, (((cfg1.win 1).rect t).emb j a).val = (ValueIdx.ix3 (pt16 t) (⟨(1 : Fin 2).val * 12328 + (j 1).val, by have h1 : (j 1).val < 12328 := (j 1).isLt; have h2 := (1 : Fin 2).isLt; omega⟩ : Fin 24656) ((j 2 : Fin 81)) a).val := by
    intro a
    rw [(cfg1.win 1).rect_emb_val t j a, hi]
    fin_cases a
    · show t.val * 1 + (j 0).val = t.val; omega
    · show 1 * 12328 + (j 1).val = 1 * 12328 + (j 1).val; rfl
    · show 0 * 81 + (j 2).val = (j 2).val; omega
  exact key a

/-- Each input window's current staging buffer holds its half of batch entry t at every point. -/
theorem before1_0 (c : Dev nD) (t : Fin cfg1.N) (d) : (dat1 m c).before 0 t d = clsBlock (x1At m c) (pt16 t) 0 :=
  ((dat1 m c).before_in_eq_fetched 0 rfl (fun _ => rfl) (fun _ _ _ => rfl) (fun t => by rw [after1_0, blockOf0]; try rfl) t d).trans
    (by unfold Pipeline.Dat.fetched; rw [blockOf0]; try rfl)
theorem before1_1 (c : Dev nD) (t : Fin cfg1.N) (d) : (dat1 m c).before 1 t d = clsBlock (x1At m c) (pt16 t) 1 :=
  ((dat1 m c).before_in_eq_fetched 1 rfl (fun _ => rfl) (fun _ _ _ => rfl) (fun t => by rw [after1_1, blockOf1]; try rfl) t d).trans
    (by unfold Pipeline.Dat.fetched; rw [blockOf1]; try rfl)

/-- The accumulator block at the first point holds whatever the buffer held; -/
theorem before1_2_first (c : Dev nD) (t : Fin cfg1.N) (h0 : t.val = 0) (d) : (dat1 m c).before 2 t d = d :=
  (dat1 m c).before_out_reset 2 rfl t (.inl h0) d
/-- at a later point what the body left at the point before: the block is written back after the last point only. -/
theorem before1_2_rest (c : Dev nD) (t : Fin cfg1.N) (h0 : t.val ≠ 0) (d) : (dat1 m c).before 2 t d = fun _ => clsAcc (x1At m c) t.val := by
  have hN : t.val < 16 := lt_of_lt_of_eq t.isLt N_1
  rw [Pipeline.Dat.before_out_kept _ 2 rfl t h0 (Bool.eq_false_iff.mpr fun h => by have := (flush1_2 _).mp h; dsimp only at this; omega)
    (fun _ => rfl) (fun _ _ => rfl), after1_2]
  have e : t.val - 1 + 1 = t.val := by omega
  funext _
  show clsAcc (x1At m c) (t.val - 1 + 1) = _
  rw [e]

/-- One point's addition. -/
theorem acc_step (c : Dev nD) (t : Fin cfg1.N) :
    clsAcc (x1At m c) (t.val + 1) = Scalar.addf (clsAcc (x1At m c) t.val)
      (Scalar.addf (k1_pay2 (clsBlock (x1At m c) (pt16 t) 0)) (k1_pay2 (clsBlock (x1At m c) (pt16 t) 1))) :=
  clsAcc_succ _ _ (lt_of_lt_of_eq t.isLt N_1)

/-- The body at any point: the inputs hold their blocks, the closed form of the branch says which case the point is in,
    the accumulator block holds what the point before left (or anything, at the first); the core owes nothing throughout. -/
theorem sound_body (c : Dev nD) (t : Fin cfg1.N) :
    iprop((dat1 m c).Φ t.castSucc ∗ (dat1 m c).owesAt (none : HIx 1) t.castSucc
        ∗ (∃ d, owns (c.tc : Thread nD τ) (st1_0 t) fullShare ((dat1 m c).before 0 t d))
        ∗ (∃ d, owns (c.tc : Thread nD τ) (st1_1 t) fullShare ((dat1 m c).before 1 t d))
        ∗ (∃ d, owns (c.tc : Thread nD τ) (st1_2 t) fullShare ((dat1 m c).before 2 t d)))
      ⊢ wp frame (wpE (defs₀ (F := F)) 𝒱₀ (c.tc : Thread nD τ) none) Set.univ (bodyAt1 t) (fun _ =>
          iprop((dat1 m c).Φ t.succ ∗ (dat1 m c).owesAt (none : HIx 1) t.succ
            ∗ owns (c.tc : Thread nD τ) (st1_0 t) fullShare ((dat1 m c).after 0 t)
            ∗ owns (c.tc : Thread nD τ) (st1_1 t) fullShare ((dat1 m c).after 1 t)
            ∗ owns (c.tc : Thread nD τ) (st1_2 t) fullShare ((dat1 m c).after 2 t))) := by
  simp only [before1_0, before1_1]
  rw [show (dat1 m c).Φ t.succ = (dat1 m c).Φ t.castSucc from rfl,
    show (dat1 m c).owesAt (none : HIx 1) t.succ = (dat1 m c).owesAt (none : HIx 1) t.castSucc from rfl,
    after1_0, after1_1, after1_2, acc_step]
  by_cases h0 : t.val = 0
  · simp only [before1_2_first m c t h0]
    have hz : clsAcc (x1At m c) t.val = Scalar.ofBits .f32 0x00000000#32 := by rw [h0]; rfl
    rw [hz]
    iintro ⟨HΦ, Ho, ⟨%d0, H0⟩, ⟨%d1, H1⟩, ⟨%d2, H2⟩⟩
    iapply (clsBody_first c (grid1.coords t) _ _ _ _ _ _ ((hcond1 t).mpr h0) (clsBlock (x1At m c) (pt16 t) 0) (clsBlock (x1At m c) (pt16 t) 1) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before1_2_rest m c t h0]
    iintro ⟨HΦ, Ho, ⟨%d0, H0⟩, ⟨%d1, H1⟩, ⟨%d2, H2⟩⟩
    iapply (clsBody_rest c (grid1.coords t) _ _ _ _ _ _ (fun h => h0 ((hcond1 t).mp h)) (clsBlock (x1At m c) (pt16 t) 0) (clsBlock (x1At m c) (pt16 t) 1) (clsAcc (x1At m c) t.val) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat1 (F := F) m c) (defs₀ (F := F)) 𝒱₀ (none : HIx 1) Set.univ := fun t => by
  rw [bigSep_W1, bigSep_W1]
  exact sound_body m c t

/-! ## The region -/

/-- What the TensorCore owes while the region runs: nothing, every pair its waits have recorded at level at most 8. -/
abbrev owesTc (c : Dev nD) : sProp 𝕄 :=
  iprop(∃ W, ⌜(K (F := F)).WBelow (SparseCore.T c) W 8⌝ ∗ owes (SparseCore.T c) (0 : CellTallies nD τ sig (HIx 1)) W)

/-- The thread state the region is entered from: the second argument and the result array whole, as m holds them. -/
def clsPre (c : Dev nD) : sProp 𝕄 :=
  iprop((a1Loc c ↦{fullShare} m (a1Loc c)) ∗ (v1Loc c ↦{fullShare} m (v1Loc c)) ∗ owesTc c)

/-- The thread state it leaves: the second argument as it was, the result array at the 16-fold accumulation. -/
def clsPost (c : Dev nD) : sProp 𝕄 :=
  iprop((a1Loc c ↦{fullShare} m (a1Loc c)) ∗ (v1Loc c ↦{fullShare} (clsOut (x1At m c) : Buf (Elt F) (v1Loc c))) ∗ owesTc c)

/-- The pipeline's arrays: the second argument at the two halves of the full share, the result array whole. -/
theorem arrays_eq1 (c : Dev nD) (Fa) :
    ((pdats (F := F) m 0 c).arrays Fa : sProp 𝕄)
      = iprop((a1Loc c ↦{fullShare.left} Fa 0) ∗ (a1Loc c ↦{fullShare.right} Fa 1) ∗ (v1Loc c ↦{fullShare} Fa 2)) := by
  unfold Pipeline.Dat.arrays
  rw [bigSep_W1, (arr_whole1 0).set_eq_univ, (arr_whole1 2).set_eq_univ]
  rfl

/-- No prefetched table is held. -/
theorem prefHeld1 (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld; rw [show (Finset.univ : Finset (Fin 0)) = ∅ from rfl, BI.bigSep_empty]

/-- The inputs' array is never written. -/
theorem arrAt_a0 (c : Dev nD) (n : ℕ) : (pdats (F := F) m 0 c).arrAt 0 n = m (a1Loc c) := (dat1 (F := F) m c).arrAt_in 0 rfl _
theorem arrAt_a1 (c : Dev nD) (n : ℕ) : (pdats (F := F) m 0 c).arrAt 1 n = m (a1Loc c) := (dat1 (F := F) m c).arrAt_in 1 rfl _

/-- The result array after the one write-back (after the last point) holds the accumulation. -/
theorem arrAt_v1 (c : Dev nD) : (pdats (F := F) m 0 c).arrAt 2 (Pipeline.pin (pcfgs (F := F)) adm 0).N = (clsOut (x1At m c) : Buf (Elt F) (v1Loc c)) :=
  (dat1 (F := F) m c).arrAt_eq_of_cover 2 (clsOut (x1At m c))
    (fun t hf => by
      have ht : t.val = 15 := by have h1 := (flush1_2 t).mp hf; have h2 := lt_of_lt_of_eq t.isLt N_1; omega
      funext y
      rw [View.read_apply]
      show clsAcc (x1At m c) (t.val + 1) = clsAcc (x1At m c) 16
      rw [ht])
    (fun i => ⟨t1_15, (flush1_2 _).mpr rfl, by
      revert i
      show ∀ i : S1x1.Idx, i ∈ ((cfg1.win 2).blk t1_15).view.set
      decide +kernel⟩)

/-- THE REGION: the two arrays into the pipeline, nothing in its invariant, nothing bypassing. -/
def clsRegion : Pipeline.RegionSeg (pcfgs (F := F)) adm (pdats m) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody c := (body_obligation m c).loose
  hwaits := Pipeline.hwaits_of_owed_zero _ _ _ _ (K (F := F)).L (K (F := F)).lev 0 fun _ _ => rfl
  pre := clsPre m
  post := clsPost m
  X _ := iprop(emp)
  Y _ := iprop(emp)
  Z _ := iprop(emp)
  hentry c := by
    rw [Pipeline.ownSems0_none, arrays_eq1, prefHeld1]
    unfold clsPre
    iintro ⟨⟨Ha, Hv, ⟨%W, %hW, HO⟩⟩, -, -⟩
    ihave Hs := (pointsTo_share (PosShare.mem_left_op_right fullShare)).1 $$ Ha
    icases Hs with ⟨Hl, Hr⟩
    imodintro
    isplitl [Hl Hr Hv]
    · isplitl [Hl]; · iexact Hl
      isplitl [Hr]; · iexact Hr
      iexact Hv
    isplitr; · iempintro
    isplitl [HO]
    · unfold Pipeline.Dat.owesAt Pipeline.owesWithin
      iexists W; isplitr; · ipureintro; exact fun p hp => Or.inl (hW p (Finset.mem_coe.mp hp))
      iexact HO
    isplitr <;> iempintro
  hin c := by iintro -; iempintro
  hout c := by
    rw [Pipeline.ownSems0_none, scopedRest1_eq]
    iintro -; isplitr; · iempintro
    isplitr <;> iempintro
  hexit c := by
    rw [arrays_eq1, arrAt_a0, arrAt_a1, arrAt_v1]
    unfold clsPost
    iintro ⟨⟨Hl, Hr, Hv⟩, HO, -, -⟩
    imodintro
    isplitl [Hl Hr]
    · iapply (pointsTo_share (PosShare.mem_left_op_right fullShare)).2
      isplitl [Hl]; · iexact Hl
      iexact Hr
    isplitl [Hv]; · iexact Hv
    unfold Pipeline.Dat.owesAt Pipeline.owesWithin
    icases HO with ⟨%W, %hW, HO⟩
    iexists W; isplitr
    · ipureintro
      intro p hp
      rcases hW (Finset.mem_coe.mpr hp) with h | ⟨w, s, rfl⟩
      · exact h
      · exact Nat.zero_le _
    iexact HO

theorem clsRegion_pre : (clsRegion m).pre = clsPre m := rfl
theorem clsRegion_post : (clsRegion m).post = clsPost m := rfl

set_option backward.isDefEq.respectTransparency.types false in
set_option maxHeartbeats 1000000 in
/-- The region's rule: from the boundary, the entry state, the level facts and the staging cells' ghost state, the call of
    the pipeline's entry runs to the boundary and the exit state. -/
theorem cls_region_rule_lib (d : Dev nD) (Φ : PUnit → sProp 𝕄) :
    iprop((iprop(boundary (d.tc : Thread nD τ) ∗ clsPost m d) -∗ wp frame (wpE (Pipeline.defs (pcfgs (F := F)) defs₀) 𝒱₀.lift (d.tc : Thread nD τ) none) Set.univ (.ret ⟨⟩) Φ)
        ∗ boundary (d.tc : Thread nD τ) ∗ clsPre m d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) 𝒱₀.lift (d.tc : Thread nD τ) none) Set.univ (.op (.customCall (Pipeline.entry 0) ()) fun _ => .ret ⟨⟩) Φ := by
  have h := Pipeline.RegionSeg.wp (pcfgs (F := F)) adm (pdats m) (none : HIx 1) cellOf_inj EP defs₀ 𝒱₀ (K (F := F)).L (K (F := F)).lev (clsRegion m) d none
    (fun _ h => by cases h) (fun _ => .ret ⟨⟩) Φ
  rw [clsRegion_pre, clsRegion_post] at h
  exact h

set_option maxHeartbeats 1000000 in
/-- The same, spelt over the main program's thread, body table and variants. -/
theorem cls_region_rule (d : Dev nD) (Φ : PUnit → sProp 𝕄) :
    iprop((iprop(boundary (SparseCore.T d) ∗ clsPost m d) -∗ wp frame (wpE (D (F := F)) 𝒱 (SparseCore.T d) none) Set.univ (.ret ⟨⟩) Φ)
        ∗ boundary (SparseCore.T d) ∗ clsPre m d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d) none) Set.univ (.op (.customCall (Pipeline.entry 0) ()) fun _ => .ret ⟨⟩) Φ :=
  cls_region_rule_lib m d Φ

end Cert.Proof.Kernel

end
-- ==== Proof.Word.TileSetup.lean ====
/-
  One vector subcore's task: its thread, its three scoped DMA semaphores and two scratch buffers taken out of the
  thread's scoped resources, the arrays as the task's memrefs address them, and the row of the 32 x 16 result array
  the task writes.
-/
import proofs.«219810_g10299331576301_week1_w1_912_40_alg».proof.Proof.Word.TileVal

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)

/-- The thread of the task at grid coordinates L = (core, subcore). -/
abbrev cV (L : grid0.Coords) : Fin τ.nSC := (L 0).castLE hcore0
abbrev jV (L : grid0.Coords) : Fin τ.nSub := (L 1).castLE hsub0

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)

/-- The three scoped semaphores are among the subcore's own: they are them, and the rest. -/
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped2.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as the task's memrefs address them -/

abbrev a0V : Memref sig .scVector .hbm S16x24656x4 .f32 := Memref.whole main_arg0_scv
abbrev o0V : Memref sig .scVector .hbm S32x16 .f32 := Memref.whole main_v0_scv
abbrev s0V : Memref sig .scVector .vmem S512x4 .f32 := Memref.whole cc0_scratch0
abbrev s1V : Memref sig .scVector .vmem S16 .f32 := Memref.whole cc0_scratch1

/-- The row of the result array the task writes, as the task slices it. -/
abbrev oRect (L : grid0.Coords) : Rect S32x16 := Rect.unit (s := S32x16) (k0_off3 L) S1x16.size (k0_off3_inb L)
abbrev oRow (L : grid0.Coords) : Memref sig .scVector .hbm S16 .f32 :=
  ((o0V : Memref sig .scVector .hbm S32x16 .f32).slice (oRect L) (fun _ => rfl)).squeeze S16 squeezes_S1x16_S16
/-- The indices of that row. -/
abbrev rowSet (L : grid0.Coords) : Finset S32x16.Idx := ((o0V : Memref sig .scVector .hbm S32x16 .f32).view.slice (oRect L)).set

theorem set_oRow : (oRow L).view.set = rowSet L := by
  show (((o0V : Memref sig .scVector .hbm S32x16 .f32).view.slice (oRect L)).reshape S16 squeezes_S1x16_S16.numel_eq).set = _
  rw [View.set_reshape]

/-- The row's indices are those whose first coordinate is 2 s + c. -/
theorem mem_rowSet (j : S32x16.Idx) : j ∈ rowSet L ↔ (j 0).val = 2 * (L 1).val + (L 0).val := by
  show j ∈ ((View.whole main_v0_scv : View sig .scVector _ _ _).slice (oRect L)).set ↔ _
  rw [View.set_slice_whole, Rect.mem_set_unit, k0_off3_eq]
  constructor
  · intro h; have h0 := h 0
    simp only [Matrix.cons_val_zero] at h0
    have : S1x16.size 0 = 1 := rfl
    omega
  · intro h a
    match a with
    | 0 =>
      simp only [Matrix.cons_val_zero]
      have : S1x16.size 0 = 1 := rfl
      omega
    | 1 =>
      have h1 : (j 1).val < 16 := (j 1).isLt
      have : S1x16.size 1 = 16 := rfl
      simp only [Matrix.cons_val_one, Matrix.cons_val_zero]
      omega

theorem pts_a0 (q : PosShare TreeShare) (f : Buf (Elt F) (a0Loc d)) :
    ((a0V : Memref sig .scVector .hbm S16x24656x4 .f32).view.loc (V d (cV L) (jV L)) ↦{q} f : sProp 𝕄) = a0Loc d ↦{q} f := by
  simp only [Memref.view_whole, View.set_whole]
theorem pts_oRow (f : Buf (Elt F) (v0Loc d)) :
    ((oRow L).view.loc (V d (cV L) (jV L)) ↦[(oRow L).view.set]{fullShare} f : sProp 𝕄) = v0Loc d ↦[rowSet L]{fullShare} f := by
  rw [set_oRow]
theorem pts_s0 (f : Buf (Elt F) ((V d (cV L) (jV L)).loc cc0_scratch0)) :
    ((s0V : Memref sig .scVector .vmem S512x4 .f32).view.loc (V d (cV L) (jV L)) ↦[(s0V : Memref sig .scVector .vmem S512x4 .f32).view.set]{fullShare} f : sProp 𝕄)
      = (V d (cV L) (jV L)).loc cc0_scratch0 ↦{fullShare} f := by
  simp only [Memref.view_whole, View.set_whole]
theorem pts_s0_univ (f : Buf (Elt F) ((V d (cV L) (jV L)).loc cc0_scratch0)) :
    ((s0V : Memref sig .scVector .vmem S512x4 .f32).view.loc (V d (cV L) (jV L)) ↦{fullShare} f : sProp 𝕄) = (V d (cV L) (jV L)).loc cc0_scratch0 ↦{fullShare} f := rfl
theorem pts_s0_access (f : Buf (Elt F) ((V d (cV L) (jV L)).loc cc0_scratch0)) :
    (((s0V : Memref sig .scVector .vmem S512x4 .f32).access (.whole S512x4)).loc (V d (cV L) (jV L)) ↦{fullShare} f : sProp 𝕄) = (V d (cV L) (jV L)).loc cc0_scratch0 ↦{fullShare} f := rfl
theorem pts_s1 (f : Buf (Elt F) ((V d (cV L) (jV L)).loc cc0_scratch1)) :
    ((s1V : Memref sig .scVector .vmem S16 .f32).view.loc (V d (cV L) (jV L)) ↦[(s1V : Memref sig .scVector .vmem S16 .f32).view.set]{fullShare} f : sProp 𝕄)
      = (V d (cV L) (jV L)).loc cc0_scratch1 ↦{fullShare} f := by
  simp only [Memref.view_whole, View.set_whole]
theorem pts_s1_univ (f : Buf (Elt F) ((V d (cV L) (jV L)).loc cc0_scratch1)) :
    ((s1V : Memref sig .scVector .vmem S16 .f32).view.loc (V d (cV L) (jV L)) ↦{fullShare} f : sProp 𝕄) = (V d (cV L) (jV L)).loc cc0_scratch1 ↦{fullShare} f := rfl

end Tile

end Cert.Proof.Kernel

end
-- ==== Proof.Word.TileIdx.lean ====
/-
  Pure facts about the task's index vectors and what the indexed loads read.
  Lane x of the row-index vector of gather number 4 t + u is 4 (4 t + u) + x / 4, of the column-index vector x % 4;
  both are inside the 512 x 4 scratch at every trip; and an indexed load of a scratch whose first R rows hold the rows of
  batch entry s from row `base` on is the gather of the value function.
-/
import proofs.«219810_g10299331576301_week1_w1_912_40_alg».proof.Proof.Word.TileVal

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The index vectors -/

theorem pay3_toNat : ∀ x : S16.Idx, (k0_pay3 x).toNat = (x 0).val % 4 := by decide +kernel

theorem pay5_toNat : ∀ (t : Fin k0_t2_loop.trips) (x : S16.Idx), (k0_pay5 t x).toNat = 4 * (4 * t.val + 0) + (x 0).val / 4 := by decide +kernel
theorem pay7_toNat : ∀ (t : Fin k0_t2_loop.trips) (x : S16.Idx), (k0_pay7 t x).toNat = 4 * (4 * t.val + 1) + (x 0).val / 4 := by decide +kernel
theorem pay9_toNat : ∀ (t : Fin k0_t2_loop.trips) (x : S16.Idx), (k0_pay9 t x).toNat = 4 * (4 * t.val + 2) + (x 0).val / 4 := by decide +kernel
theorem pay11_toNat : ∀ (t : Fin k0_t2_loop.trips) (x : S16.Idx), (k0_pay11 t x).toNat = 4 * (4 * t.val + 3) + (x 0).val / 4 := by decide +kernel
theorem pay14_toNat : ∀ (t : Fin k0_t3_loop.trips) (x : S16.Idx), (k0_pay14 t x).toNat = 4 * (4 * t.val + 0) + (x 0).val / 4 := by decide +kernel
theorem pay16_toNat : ∀ (t : Fin k0_t3_loop.trips) (x : S16.Idx), (k0_pay16 t x).toNat = 4 * (4 * t.val + 1) + (x 0).val / 4 := by decide +kernel
theorem pay18_toNat : ∀ (t : Fin k0_t3_loop.trips) (x : S16.Idx), (k0_pay18 t x).toNat = 4 * (4 * t.val + 2) + (x 0).val / 4 := by decide +kernel
theorem pay20_toNat : ∀ (t : Fin k0_t3_loop.trips) (x : S16.Idx), (k0_pay20 t x).toNat = 4 * (4 * t.val + 3) + (x 0).val / 4 := by decide +kernel

theorem trips2 : k0_t2_loop.trips = 32 := by decide +kernel
theorem trips3 : k0_t3_loop.trips = 5 := by decide +kernel
theorem trips1 : k0_t1_loop.trips = 24 := by decide +kernel

/-- An index pair whose rows are 4 j + x / 4 and whose columns are x % 4 lies inside the 512 x 4 scratch when the four
    rows do. -/
theorem idx_inb (r c : IVec S16 32) (j : ℕ) (hj : 4 * j + 4 ≤ 512) (h0 : ∀ x, (r x).toNat = 4 * j + (x 0).val / 4)
    (h1 : ∀ x, (c x).toNat = (x 0).val % 4) : ∀ a x, ((![r, c] : Fin 2 → IVec S16 32) a x).toNat < S512x4.size a := by
  intro a x
  have hx : (x 0).val < 16 := (x 0).isLt
  match a with
  | 0 => show (r x).toNat < 512; rw [h0]; omega
  | 1 => show (c x).toNat < 4; rw [h1]; omega

/-! ## What the indexed loads read -/

/-- The first R rows of a 512 x 4 scratch hold the rows of batch entry s of the array from row `base` on. -/
def Holds (x0 : S16x24656x4.Idx → Elt F .f32) (s : Fin 16) (base R : ℕ) (f : Vec F S512x4 .f32) : Prop :=
  ∀ i : S512x4.Idx, (i 0).val < R → f i = rowAt x0 s (base + (i 0).val) ⟨(i 1).val, (i 1).isLt⟩

/-- The indexed load of such a scratch at rows 4 j + x / 4, columns x % 4 is gather number j of the array. -/
theorem loadIdx_gath {x0 : S16x24656x4.Idx → Elt F .f32} {s : Fin 16} {base R : ℕ} {f : Vec F S512x4 .f32} (hf : Holds x0 s base R f)
    (r c : IVec S16 32) (h : ∀ a x, ((![r, c] : Fin 2 → IVec S16 32) a x).toNat < S512x4.size a) (j : ℕ) (hj : 4 * j + 4 ≤ R)
    (h0 : ∀ x, (r x).toNat = 4 * j + (x 0).val / 4) (h1 : ∀ x, (c x).toNat = (x 0).val % 4) :
    loadIdx f (![r, c] : Fin 2 → IVec S16 32) h = gath x0 s base j := by
  funext x
  have hx : (x 0).val < 16 := (x 0).isLt
  show f (idxAt (s := S512x4) (![r, c] : Fin 2 → IVec S16 32) h x) = _
  rw [hf _ (show (r x).toNat < R by rw [h0]; omega)]
  unfold gath
  have e0 : base + ((idxAt (s := S512x4) (![r, c] : Fin 2 → IVec S16 32) h x) 0).val = base + 4 * j + (x 0).val / 4 := by
    show base + (r x).toNat = _; rw [h0]; omega
  have e1 : (⟨((idxAt (s := S512x4) (![r, c] : Fin 2 → IVec S16 32) h x) 1).val, ((idxAt (s := S512x4) (![r, c] : Fin 2 → IVec S16 32) h x) 1).isLt⟩ : Fin 4)
      = ⟨(x 0).val % 4, Nat.mod_lt _ (by decide)⟩ := Fin.ext (h1 x)
  rw [e0, e1]

/-- Gathers from a row 4 a further on are the gathers a further on. -/
theorem gath_shift (x0 : S16x24656x4.Idx → Elt F .f32) (s : Fin 16) (r0 a j : ℕ) : gath x0 s (r0 + 4 * a) j = gath x0 s r0 (a + j) := by
  funext x; unfold gath
  rw [show r0 + 4 * a + 4 * j + (x 0).val / 4 = r0 + 4 * (a + j) + (x 0).val / 4 by omega]

/-- One trip of the main part: block k, trip t adds gather number 4 t + u of the block, which is gather number
    4 (32 k + t) + u of the whole range. -/
theorem acc_step_main (x0 : S16x24656x4.Idx → Elt F .f32) (s : Fin 16) (r0 u k t : ℕ) :
    addf (acc x0 s r0 u (32 * k + t)) (absf (gath x0 s (r0 + 512 * k) (4 * t + u))) = acc x0 s r0 u (32 * k + (t + 1)) := by
  rw [show 32 * k + (t + 1) = (32 * k + t) + 1 by omega, acc_succ, show 512 * k = 4 * (128 * k) by omega, gath_shift,
    show 128 * k + (4 * t + u) = 4 * (32 * k + t) + u by omega]

/-- One gather's step of a main accumulator, through the indexed load of a scratch holding block k. -/
theorem step_main {x0 : S16x24656x4.Idx → Elt F .f32} {s : Fin 16} {r0 k t : ℕ} {g g' : Vec F S512x4 .f32} (hg : Holds x0 s (r0 + 512 * k) 512 g)
    (e : g' = g) (ht : t < 32) (u : ℕ) (hu : u < 4) (r c : IVec S16 32) (h : ∀ a x, ((![r, c] : Fin 2 → IVec S16 32) a x).toNat < S512x4.size a)
    (h0 : ∀ x, (r x).toNat = 4 * (4 * t + u) + (x 0).val / 4) (h1 : ∀ x, (c x).toNat = (x 0).val % 4) :
    addf (acc x0 s r0 u (32 * k + t)) (absf (loadIdx g' (![r, c] : Fin 2 → IVec S16 32) h)) = acc x0 s r0 u (32 * k + (t + 1)) := by
  subst e
  rw [loadIdx_gath hg r c h (4 * t + u) (by omega) h0 h1, acc_step_main]

/-- One gather's step of a tail accumulator, through the indexed load of a scratch whose first 80 rows hold the tail. -/
theorem step_tail {x0 : S16x24656x4.Idx → Elt F .f32} {s : Fin 16} {r0 t : ℕ} {g g' : Vec F S512x4 .f32} (hg : Holds x0 s r0 80 g)
    (e : g' = g) (ht : t < 5) (u : ℕ) (hu : u < 4) (r c : IVec S16 32) (h : ∀ a x, ((![r, c] : Fin 2 → IVec S16 32) a x).toNat < S512x4.size a)
    (h0 : ∀ x, (r x).toNat = 4 * (4 * t + u) + (x 0).val / 4) (h1 : ∀ x, (c x).toNat = (x 0).val % 4) :
    addf (acc x0 s r0 u (0 + t)) (absf (loadIdx g' (![r, c] : Fin 2 → IVec S16 32) h)) = acc x0 s r0 u (0 + (t + 1)) := by
  subst e
  rw [loadIdx_gath hg r c h (4 * t + u) (by omega) h0 h1, show 0 + (t + 1) = (0 + t) + 1 by omega, acc_succ, Nat.zero_add]

theorem trips1' : Scf.trips k0_t1_loop.lb k0_t1_loop.ub k0_t1_loop.st = 24 := trips1
theorem trips2' : Scf.trips k0_t2_loop.lb k0_t2_loop.ub k0_t2_loop.st = 32 := trips2
theorem trips3' : Scf.trips k0_t3_loop.lb k0_t3_loop.ub k0_t3_loop.st = 5 := trips3

/-! ## The side conditions of the indexed loads: the indices are inside the scratch at every trip -/

theorem chk1_ok (t : Fin k0_t2_loop.trips) : k0_chk1 k0_pay3 (k0_pay5 t) :=
  idx_inb _ _ (4 * t.val + 0) (by have := lt_of_lt_of_eq t.isLt trips2; omega) (pay5_toNat t) pay3_toNat
theorem chk2_ok (t : Fin k0_t2_loop.trips) : k0_chk2 k0_pay3 (k0_pay7 t) :=
  idx_inb _ _ (4 * t.val + 1) (by have := lt_of_lt_of_eq t.isLt trips2; omega) (pay7_toNat t) pay3_toNat
theorem chk3_ok (t : Fin k0_t2_loop.trips) : k0_chk3 k0_pay3 (k0_pay9 t) :=
  idx_inb _ _ (4 * t.val + 2) (by have := lt_of_lt_of_eq t.isLt trips2; omega) (pay9_toNat t) pay3_toNat
theorem chk4_ok (t : Fin k0_t2_loop.trips) : k0_chk4 k0_pay3 (k0_pay11 t) :=
  idx_inb _ _ (4 * t.val + 3) (by have := lt_of_lt_of_eq t.isLt trips2; omega) (pay11_toNat t) pay3_toNat
theorem chk5_ok (t : Fin k0_t3_loop.trips) : k0_chk5 k0_pay3 (k0_pay14 t) :=
  idx_inb _ _ (4 * t.val + 0) (by have := lt_of_lt_of_eq t.isLt trips3; omega) (pay14_toNat t) pay3_toNat
theorem chk6_ok (t : Fin k0_t3_loop.trips) : k0_chk6 k0_pay3 (k0_pay16 t) :=
  idx_inb _ _ (4 * t.val + 1) (by have := lt_of_lt_of_eq t.isLt trips3; omega) (pay16_toNat t) pay3_toNat
theorem chk7_ok (t : Fin k0_t3_loop.trips) : k0_chk7 k0_pay3 (k0_pay18 t) :=
  idx_inb _ _ (4 * t.val + 2) (by have := lt_of_lt_of_eq t.isLt trips3; omega) (pay18_toNat t) pay3_toNat
theorem chk8_ok (t : Fin k0_t3_loop.trips) : k0_chk8 k0_pay3 (k0_pay20 t) :=
  idx_inb _ _ (4 * t.val + 3) (by have := lt_of_lt_of_eq t.isLt trips3; omega) (pay20_toNat t) pay3_toNat

end Cert.Proof.Kernel

end
-- ==== Proof.Word.TileLoops.lean ====
/-
  The two loops of indexed loads, each proved once for any contents of the scratch that hold the rows they read.
  The invariant: the scratch keeps its contents, and after t trips each of the four accumulators is the fold of the
  value function over the gathers of the trips so far.
-/
import proofs.«219810_g10299331576301_week1_w1_912_40_alg».proof.Proof.Word.TileSetup
import proofs.«219810_g10299331576301_week1_w1_912_40_alg».proof.Proof.Word.TileIdx

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The subcore's number, as an index of the first axis of the array. -/
abbrev sL (L : grid0.Coords) : Fin 16 := ⟨(L 1).val, (L 1).isLt⟩

/-- Four accumulators after n trips. -/
abbrev accs4 (x0 : S16x24656x4.Idx → Elt F .f32) (s : Fin 16) (r0 n : ℕ) : FVec F S16 .f32 × FVec F S16 .f32 × FVec F S16 .f32 × FVec F S16 .f32 :=
  (acc x0 s r0 0 n, acc x0 s r0 1 n, acc x0 s r0 2 n, acc x0 s r0 3 n)

section Loops

variable (d : Dev nD) (L : grid0.Coords)

/-- The inner loop's invariant: the scratch at its contents g, the accumulators after n0 + t trips. -/
def invG (x0 : S16x24656x4.Idx → Elt F .f32) (r0 n0 : ℕ) (g : Buf (Elt F) ((V d (cV L) (jV L)).loc cc0_scratch0)) (t : Nat)
    (a : FVec F S16 .f32 × FVec F S16 .f32 × FVec F S16 .f32 × FVec F S16 .f32) : sProp 𝕄 :=
  iprop((((s0V : Memref sig .scVector .vmem S512x4 .f32).access (.whole S512x4)).loc (V d (cV L) (jV L)) ↦{fullShare} g)
    ∗ ⌜a = accs4 x0 (sL L) r0 (n0 + t)⌝)

/-- The 32 trips over block k of the main part: the accumulators go from 32 k trips to 32 k + 32. -/
theorem gather_loop_main (x0 : S16x24656x4.Idx → Elt F .f32) (r0 k : ℕ) (g : Buf (Elt F) ((V d (cV L) (jV L)).loc cc0_scratch0))
    (hg : Holds x0 (sL L) (r0 + 512 * k) 512 g)
    (a : FVec F S16 .f32 × FVec F S16 .f32 × FVec F S16 .f32 × FVec F S16 .f32) (ha : a = accs4 x0 (sL L) r0 (32 * k))
    {β : Type} {kk : FVec F S16 .f32 × FVec F S16 .f32 × FVec F S16 .f32 × FVec F S16 .f32 → Prog (TpuEff nD τ sig (Elt F) Λ₀ (.scVector (cV L) (jV L))) β}
    {Q : β → sProp 𝕄} :
    ((((s0V : Memref sig .scVector .vmem S512x4 .f32).access (.whole S512x4)).loc (V d (cV L) (jV L)) ↦{fullShare} g : sProp 𝕄))
      ⊢ iprop((∀ a', invG d L x0 r0 (32 * k) g k0_t2_loop.trips a'
            -∗ wp frame (wpE (defs₀ (F := F)) 𝒱₀ (V d (cV L) (jV L)) none) Set.univ (kk a') Q)
        -∗ wp frame (wpE (defs₀ (F := F)) 𝒱₀ (V d (cV L) (jV L)) none) Set.univ
            (k0_t2_loop.for k0_t2_ok a (k0_t2_body L (Memref.whole main_arg0_scv) (Memref.isWhole_whole _) (Memref.whole main_v0_scv) (Memref.isWhole_whole _)
              (Memref.whole cc0_scratch0) (Memref.isWhole_whole _) (Memref.whole cc0_scratch1) (Memref.isWhole_whole _) cc0_scoped0 cc0_scoped1 cc0_scoped2 k0_pay3) >>= kk) Q) := by
  subst ha
  iintro Hs Hk
  sl_for (invG d L x0 r0 (32 * k) g) $$ [Hs]
  case region =>
    intro t ⟨a0, a1, a2, a3⟩
    unfold invG
    iintro ⟨Hs, %h⟩
    have ht : t.val < 32 := lt_of_lt_of_eq t.isLt trips2'
    have hr : View.read (Elt F) ((s0V : Memref sig .scVector .vmem S512x4 .f32).access (Rect.whole S512x4)) g = g :=
      Memref.read_access_whole (Elt F) cc0_scratch0 g
    sl_exec
    rw [wp_assume_of _ _ _ _ (chk1_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk2_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk3_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk4_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    sl_step
    isplitl [Hs]; · iexact Hs
    ipureintro
    simp only [accs4, Prod.mk.injEq] at h ⊢
    obtain ⟨rfl, rfl, rfl, rfl⟩ := h
    exact ⟨step_main hg hr ht 0 (by omega) _ _ _ (pay5_toNat t) pay3_toNat, step_main hg hr ht 1 (by omega) _ _ _ (pay7_toNat t) pay3_toNat,
      step_main hg hr ht 2 (by omega) _ _ _ (pay9_toNat t) pay3_toNat, step_main hg hr ht 3 (by omega) _ _ _ (pay11_toNat t) pay3_toNat⟩
  · unfold invG
    isplitl [Hs]; · iexact Hs
    ipureintro; rfl
  iexact Hk

/-- The 5 trips over the 80 rows of the tail: the accumulators go from zero to 5 trips. -/
theorem gather_loop_tail (x0 : S16x24656x4.Idx → Elt F .f32) (r0 : ℕ) (g : Buf (Elt F) ((V d (cV L) (jV L)).loc cc0_scratch0))
    (hg : Holds x0 (sL L) r0 80 g)
    (a : FVec F S16 .f32 × FVec F S16 .f32 × FVec F S16 .f32 × FVec F S16 .f32) (ha : a = accs4 x0 (sL L) r0 0)
    {β : Type} {kk : FVec F S16 .f32 × FVec F S16 .f32 × FVec F S16 .f32 × FVec F S16 .f32 → Prog (TpuEff nD τ sig (Elt F) Λ₀ (.scVector (cV L) (jV L))) β}
    {Q : β → sProp 𝕄} :
    ((((s0V : Memref sig .scVector .vmem S512x4 .f32).access (.whole S512x4)).loc (V d (cV L) (jV L)) ↦{fullShare} g : sProp 𝕄))
      ⊢ iprop((∀ a', invG d L x0 r0 0 g k0_t3_loop.trips a'
            -∗ wp frame (wpE (defs₀ (F := F)) 𝒱₀ (V d (cV L) (jV L)) none) Set.univ (kk a') Q)
        -∗ wp frame (wpE (defs₀ (F := F)) 𝒱₀ (V d (cV L) (jV L)) none) Set.univ
            (k0_t3_loop.for k0_t3_ok a (k0_t3_body L (Memref.whole main_arg0_scv) (Memref.isWhole_whole _) (Memref.whole main_v0_scv) (Memref.isWhole_whole _)
              (Memref.whole cc0_scratch0) (Memref.isWhole_whole _) (Memref.whole cc0_scratch1) (Memref.isWhole_whole _) cc0_scoped0 cc0_scoped1 cc0_scoped2 k0_pay3) >>= kk) Q) := by
  subst ha
  iintro Hs Hk
  sl_for (invG d L x0 r0 0 g) $$ [Hs]
  case region =>
    intro t ⟨a0, a1, a2, a3⟩
    unfold invG
    iintro ⟨Hs, %h⟩
    have ht : t.val < 5 := lt_of_lt_of_eq t.isLt trips3'
    have hr : View.read (Elt F) ((s0V : Memref sig .scVector .vmem S512x4 .f32).access (Rect.whole S512x4)) g = g :=
      Memref.read_access_whole (Elt F) cc0_scratch0 g
    sl_exec
    rw [wp_assume_of _ _ _ _ (chk5_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk6_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk7_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    rw [wp_assume_of _ _ _ _ (chk8_ok t)]
    iapply (SparseCore.wp_vectorLoadIdx 𝒱₀ (V d (cV L) (jV L)) none Set.univ (base := (s0V : Memref sig .scVector .vmem S512x4 .f32)) (S := Finset.univ) (q := fullShare) (Finset.subset_univ _)) $$ Hs; iintro Hs
    sl_exec
    sl_step
    isplitl [Hs]; · iexact Hs
    ipureintro
    simp only [accs4, Prod.mk.injEq] at h ⊢
    obtain ⟨rfl, rfl, rfl, rfl⟩ := h
    exact ⟨step_tail hg hr ht 0 (by omega) _ _ _ (pay14_toNat t) pay3_toNat, step_tail hg hr ht 1 (by omega) _ _ _ (pay16_toNat t) pay3_toNat,
      step_tail hg hr ht 2 (by omega) _ _ _ (pay18_toNat t) pay3_toNat, step_tail hg hr ht 3 (by omega) _ _ _ (pay20_toNat t) pay3_toNat⟩
  · unfold invG
    isplitl [Hs]; · iexact Hs
    ipureintro; rfl
  iexact Hk

end Loops

end Cert.Proof.Kernel

end
-- ==== Proof.Word.TileLand.lean ====
/-
  What the scratch holds after each of the task's two kinds of copies has landed, and what the copy out writes.
  The views the task slices out of the array are read by coordinates: element (i0, i1) of block k is the array's
  element (s, 12288 c + 512 k + i0, i1); of the tail, (s, 12288 c + 12288 + i0, i1).
-/
import proofs.«219810_g10299331576301_week1_w1_912_40_alg».proof.Proof.Word.TileLoops

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Land

variable (d : Dev nD) (L : grid0.Coords)

/-- Two indices of the array with the same three coordinates are equal. -/
theorem idx3_ext (p q : S16x24656x4.Idx) (h0 : (p 0).val = (q 0).val) (h1 : (p 1).val = (q 1).val) (h2 : (p 2).val = (q 2).val) : p = q := by
  funext a; apply Fin.ext
  match a with
  | 0 => exact h0
  | 1 => exact h1
  | 2 => exact h2

/-- Dropping the leading axis of size one: the index (i0, i1) of the 512 x 4 shape is (0, i0, i1) of the 1 x 512 x 4 shape. -/
theorem reshape_512 (h : S512x4.numel = S1x512x4.numel) (i : S512x4.Idx) :
    ((Shape.reshapeEquiv h i) 0).val = 0 ∧ ((Shape.reshapeEquiv h i) 1).val = (i 0).val ∧ ((Shape.reshapeEquiv h i) 2).val = (i 1).val := by
  have hy : ((((Shape.reshapeEquiv h i) 0).val * 512 + ((Shape.reshapeEquiv h i) 1).val) * 4 + ((Shape.reshapeEquiv h i) 2).val : ℕ)
      = (i 0).val * 4 + (i 1).val := by
    have := Shape.rowMajor_reshapeEquiv h i
    rw [Shape.rowMajor_val_three, Shape.rowMajor_val_two] at this
    exact this
  have h0 : ((Shape.reshapeEquiv h i) 0).val < 1 := ((Shape.reshapeEquiv h i) 0).isLt
  have h1 : ((Shape.reshapeEquiv h i) 1).val < 512 := ((Shape.reshapeEquiv h i) 1).isLt
  have h2 : ((Shape.reshapeEquiv h i) 2).val < 4 := ((Shape.reshapeEquiv h i) 2).isLt
  have hi0 : (i 0).val < 512 := (i 0).isLt
  have hi1 : (i 1).val < 4 := (i 1).isLt
  omega

theorem reshape_80 (h : S80x4.numel = S1x80x4.numel) (i : S80x4.Idx) :
    ((Shape.reshapeEquiv h i) 0).val = 0 ∧ ((Shape.reshapeEquiv h i) 1).val = (i 0).val ∧ ((Shape.reshapeEquiv h i) 2).val = (i 1).val := by
  have hy : ((((Shape.reshapeEquiv h i) 0).val * 80 + ((Shape.reshapeEquiv h i) 1).val) * 4 + ((Shape.reshapeEquiv h i) 2).val : ℕ)
      = (i 0).val * 4 + (i 1).val := by
    have := Shape.rowMajor_reshapeEquiv h i
    rw [Shape.rowMajor_val_three, Shape.rowMajor_val_two] at this
    exact this
  have h0 : ((Shape.reshapeEquiv h i) 0).val < 1 := ((Shape.reshapeEquiv h i) 0).isLt
  have h1 : ((Shape.reshapeEquiv h i) 1).val < 80 := ((Shape.reshapeEquiv h i) 1).isLt
  have h2 : ((Shape.reshapeEquiv h i) 2).val < 4 := ((Shape.reshapeEquiv h i) 2).isLt
  have hi0 : (i 0).val < 80 := (i 0).isLt
  have hi1 : (i 1).val < 4 := (i 1).isLt
  omega

/-- Block k of the main part, as the task slices it out of the array: 512 rows of batch entry s from row 12288 c + 512 k. -/
abbrev blkRect (L : grid0.Coords) (k : Fin k0_t1_loop.trips) : Rect S16x24656x4 :=
  Rect.unit (s := S16x24656x4) (k0_off1 L k) S1x512x4.size (k0_off1_inb L k)
abbrev blk (L : grid0.Coords) (k : Fin k0_t1_loop.trips) : Memref sig .scVector .hbm S512x4 .f32 :=
  ((a0V : Memref sig .scVector .hbm S16x24656x4 .f32).slice (blkRect L k) (fun _ => rfl)).squeeze S512x4 squeezes_S1x512x4_S512x4

theorem read_blk (x0 : S16x24656x4.Idx → Elt F .f32) (k : Fin k0_t1_loop.trips) (i : S512x4.Idx) :
    (blk L k).view.read (Elt F) x0 i = rowAt x0 (sL L) (12288 * (L 0).val + 512 * k.val + (i 0).val) ⟨(i 1).val, (i 1).isLt⟩ := by
  have hk : k.val < 24 := lt_of_lt_of_eq k.isLt trips1
  have hc : (L 0).val < 2 := (L 0).isLt
  have hi : (i 0).val < 512 := (i 0).isLt
  rw [View.read_apply, rowAt_of_lt _ _ (by omega)]
  refine (cast_eq _ _).trans (congrArg x0 (idx3_ext _ _ ?_ ?_ ?_))
  · show (k0_off1 L k) 0 + 1 * ((Shape.reshapeEquiv squeezes_S1x512x4_S512x4.numel_eq i) 0).val = (L 1).val
    rw [(reshape_512 _ i).1, k0_off1_eq]; simp
  · show (k0_off1 L k) 1 + 1 * ((Shape.reshapeEquiv squeezes_S1x512x4_S512x4.numel_eq i) 1).val = 12288 * (L 0).val + 512 * k.val + (i 0).val
    rw [(reshape_512 _ i).2.1, k0_off1_eq]; simp
  · show (k0_off1 L k) 2 + 1 * ((Shape.reshapeEquiv squeezes_S1x512x4_S512x4.numel_eq i) 2).val = (i 1).val
    rw [(reshape_512 _ i).2.2, k0_off1_eq]; simp

/-- After block k has landed, the scratch holds the 512 rows of batch entry s from row 12288 c + 512 k. -/
theorem holds_main (x0 : S16x24656x4.Idx → Elt F .f32) (k : Fin k0_t1_loop.trips) (f : Buf (Elt F) ((V d (cV L) (jV L)).loc cc0_scratch0))
    (w : S512x4.Idx → Elt F .f32) (hw : w = (blk L k).view.read (Elt F) x0) :
    Holds x0 (sL L) (12288 * (L 0).val + 512 * k.val) 512
      ((s0V : Memref sig .scVector .vmem S512x4 .f32).view.writes (Elt F) f [⟨Rect.whole S512x4, w⟩]) := by
  intro i _
  have e : (s0V : Memref sig .scVector .vmem S512x4 .f32).view.writes (Elt F) f [⟨Rect.whole S512x4, w⟩] i = w i := by
    have := View.read_writes_cons_emb (v := (s0V : Memref sig .scVector .vmem S512x4 .f32).view) f (Rect.whole S512x4) w [] i
    rw [Rect.emb_whole_apply] at this
    exact this
  rw [e, hw, read_blk]

/-- The 80 rows of the tail, as the task slices them out of the array: rows of batch entry s from row 12288 c + 12288. -/
abbrev tailRect (L : grid0.Coords) : Rect S16x24656x4 := Rect.unit (s := S16x24656x4) (k0_off2 L) S1x80x4.size (k0_off2_inb L)
abbrev tailSrc (L : grid0.Coords) : Memref sig .scVector .hbm S80x4 .f32 :=
  ((a0V : Memref sig .scVector .hbm S16x24656x4 .f32).slice (tailRect L) (fun _ => rfl)).squeeze S80x4 squeezes_S1x80x4_S80x4
/-- The first 80 rows of the scratch. -/
abbrev dstRect : Rect S512x4 := Rect.unit (s := S512x4) ![0, 0] S80x4.size inb_S512x4_S80x4_0_0

theorem read_tail (x0 : S16x24656x4.Idx → Elt F .f32) (i : S80x4.Idx) :
    (tailSrc L).view.read (Elt F) x0 i = rowAt x0 (sL L) (12288 * (L 0).val + 12288 + (i 0).val) ⟨(i 1).val, (i 1).isLt⟩ := by
  have hc : (L 0).val < 2 := (L 0).isLt
  have hi : (i 0).val < 80 := (i 0).isLt
  rw [View.read_apply, rowAt_of_lt _ _ (by omega)]
  refine (cast_eq _ _).trans (congrArg x0 (idx3_ext _ _ ?_ ?_ ?_))
  · show (k0_off2 L) 0 + 1 * ((Shape.reshapeEquiv squeezes_S1x80x4_S80x4.numel_eq i) 0).val = (L 1).val
    rw [(reshape_80 _ i).1, k0_off2_eq]; simp
  · show (k0_off2 L) 1 + 1 * ((Shape.reshapeEquiv squeezes_S1x80x4_S80x4.numel_eq i) 1).val = 12288 * (L 0).val + 12288 + (i 0).val
    rw [(reshape_80 _ i).2.1, k0_off2_eq]; simp
  · show (k0_off2 L) 2 + 1 * ((Shape.reshapeEquiv squeezes_S1x80x4_S80x4.numel_eq i) 2).val = (i 1).val
    rw [(reshape_80 _ i).2.2, k0_off2_eq]; simp

/-- After the tail has landed, the first 80 rows of the scratch hold the rows of batch entry s from row 12288 c + 12288. -/
theorem holds_tail (x0 : S16x24656x4.Idx → Elt F .f32) (f : Buf (Elt F) ((V d (cV L) (jV L)).loc cc0_scratch0))
    (w : S80x4.Idx → Elt F .f32) (hw : w = (tailSrc L).view.read (Elt F) x0) :
    Holds x0 (sL L) (12288 * (L 0).val + 12288) 80
      ((s0V : Memref sig .scVector .vmem S512x4 .f32).view.writes (Elt F) f [⟨dstRect, w⟩]) := by
  intro i hi
  have hx : dstRect.emb (ValueIdx.ix2 (⟨(i 0).val, hi⟩ : Fin 80) (⟨(i 1).val, (i 1).isLt⟩ : Fin 4)) = i := by
    funext a; apply Fin.ext
    match a with
    | 0 => show 0 + 1 * (i 0).val = (i 0).val; omega
    | 1 => show 0 + 1 * (i 1).val = (i 1).val; omega
  have e : (s0V : Memref sig .scVector .vmem S512x4 .f32).view.writes (Elt F) f [⟨dstRect, w⟩] i
      = w (ValueIdx.ix2 (⟨(i 0).val, hi⟩ : Fin 80) (⟨(i 1).val, (i 1).isLt⟩ : Fin 4)) := by
    have := View.read_writes_cons_emb (v := (s0V : Memref sig .scVector .vmem S512x4 .f32).view) f dstRect w []
      (ValueIdx.ix2 (⟨(i 0).val, hi⟩ : Fin 80) (⟨(i 1).val, (i 1).isLt⟩ : Fin 4))
    rw [hx] at this
    exact this
  rw [e, hw, read_tail]

/-! ## The copy out -/

/-- The core's number, as a number below 2. -/
abbrev cL (L : grid0.Coords) : Fin 2 := ⟨(L 0).val, (L 0).isLt⟩

/-- On the task's row, the array of all results is the task's result. -/
theorem tileOut_row (x0 : S16x24656x4.Idx → Elt F .f32) (j : S32x16.Idx) (hj : j ∈ rowSet L) :
    tileOut x0 j = tileRow x0 (cL L) (sL L) (ValueIdx.ix1 (⟨(j 1).val, (j 1).isLt⟩ : Fin 16)) := by
  have h := (mem_rowSet L j).mp hj
  have hc : (L 0).val < 2 := (L 0).isLt
  unfold tileOut
  have e1 : (⟨(j 0).val % 2, Nat.mod_lt _ (by decide)⟩ : Fin 2) = cL L := Fin.ext (by show (j 0).val % 2 = (L 0).val; omega)
  have e2 : (⟨(j 0).val / 2, by have h : (j 0).val < 32 := (j 0).isLt; omega⟩ : Fin 16) = sL L := Fin.ext (by show (j 0).val / 2 = (L 1).val; omega)
  rw [e1, e2]

/-- The written row's index number x is the result array's index (2 s + c, x). -/
theorem oRow_emb (x : S16.Idx) : ((oRow L).view.emb x 0).val = 2 * (L 1).val + (L 0).val ∧ ((oRow L).view.emb x 1).val = (x 0).val := by
  have hy : ((((Shape.reshapeEquiv squeezes_S1x16_S16.numel_eq x) 0).val * 16 + ((Shape.reshapeEquiv squeezes_S1x16_S16.numel_eq x) 1).val : ℕ)) = (x 0).val := by
    have := Shape.rowMajor_reshapeEquiv squeezes_S1x16_S16.numel_eq x
    rw [Shape.rowMajor_val_two, Shape.rowMajor_val_one] at this
    exact this
  have h0 : ((Shape.reshapeEquiv squeezes_S1x16_S16.numel_eq x) 0).val < 1 := ((Shape.reshapeEquiv squeezes_S1x16_S16.numel_eq x) 0).isLt
  have h1 : ((Shape.reshapeEquiv squeezes_S1x16_S16.numel_eq x) 1).val < 16 := ((Shape.reshapeEquiv squeezes_S1x16_S16.numel_eq x) 1).isLt
  have hx : (x 0).val < 16 := (x 0).isLt
  constructor
  · show (k0_off3 L) 0 + 1 * ((Shape.reshapeEquiv squeezes_S1x16_S16.numel_eq x) 0).val = _
    rw [k0_off3_eq]; simp; omega
  · show (k0_off3 L) 1 + 1 * ((Shape.reshapeEquiv squeezes_S1x16_S16.numel_eq x) 1).val = _
    rw [k0_off3_eq]; simp; omega

/-- After the copy out has landed, the task's row of the result array holds the task's result: the stored vector v is
    the payload of the stored lanes, read back whole from the second scratch and written through the row's view. -/
theorem out_row (x0 : S16x24656x4.Idx → Elt F .f32) (f0 : Buf (Elt F) (v0Loc d)) (fs1 : Buf (Elt F) ((V d (cV L) (jV L)).loc cc0_scratch1))
    (w v : S16.Idx → Elt F .f32) (pcs : List (View.Piece (Elt F) S16 .f32))
    (hp : pcs = [⟨Rect.unit (s := S16) ![0] S16.size inb_S16_S16_0, v⟩])
    (hw : w = (s1V : Memref sig .scVector .vmem S16 .f32).view.read (Elt F) ((s1V : Memref sig .scVector .vmem S16 .f32).view.writes (Elt F) fs1 pcs))
    (hv : v = tileRow x0 (cL L) (sL L)) :
    ∀ j ∈ rowSet L, (oRow L).view.writes (Elt F) f0 [⟨Rect.whole S16, w⟩] j = tileOut x0 j := by
  intro j hj
  have hj' : j ∈ (oRow L).view.set := by rw [set_oRow]; exact hj
  obtain ⟨x, -, rfl⟩ := Finset.mem_map.mp hj'
  have e : (oRow L).view.writes (Elt F) f0 [⟨Rect.whole S16, w⟩] ((oRow L).view.emb x) = w x := by
    have := View.read_writes_cons_emb (v := (oRow L).view) f0 (Rect.whole S16) w [] x
    rw [Rect.emb_whole_apply, View.read_apply] at this
    exact (cast_eq _ _).symm.trans this
  have hwx : w x = v x := by
    subst hw hp
    have := View.read_writes_cons_emb (v := (s1V : Memref sig .scVector .vmem S16 .f32).view) fs1 (Rect.unit (s := S16) ![0] S16.size inb_S16_S16_0) v [] x
    have hx : (Rect.unit (s := S16) ![0] S16.size inb_S16_S16_0).emb x = x := by
      funext a; apply Fin.ext
      match a with
      | 0 => show 0 + 1 * (x 0).val = (x 0).val; omega
    rw [hx] at this
    exact this
  rw [e, hwx, hv, tileOut_row L x0 _ hj]
  congr 1
  funext a; apply Fin.ext
  match a with
  | 0 => exact ((oRow_emb L x).2).symm

end Land

end Cert.Proof.Kernel

end
-- ==== Proof.Word.TileBody.lean ====
/-
  One vector subcore's task, run once at a symbolic place: from a read share of the first argument array, the task's row
  of the 32 x 16 result array and the thread's scoped scratch buffers and semaphores, to the same with the row holding
  the task's result, tileOut of the array restricted to the row.
  The main part is a loop over 24 blocks: each block is copied into the scratch and waited for, then 32 trips of four
  indexed loads add absolute values into four accumulators; the invariant says the accumulators are the value
  function's folds after 32 k trips. The tail is copied into the first 80 rows of the scratch and folded by 5 trips into
  four fresh accumulators. The combined vector is stored into the second scratch and copied out to row 2 s + c.
-/
import proofs.«219810_g10299331576301_week1_w1_912_40_alg».proof.Proof.Word.TileLand

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Before block k of the main part: the array (a read share), the scratch at some contents, the copy's semaphore at
    zero, what the thread owes, and the four accumulators after 32 k trips. -/
def inv1 (m : (ℓ : Loc nD τ sig) → Buf (Elt F) ℓ) (d : Dev nD) (L : grid0.Coords) (q : PosShare TreeShare)
    (O : CellTallies nD τ sig (HIx 1)) (W : Waits sig (HIx 1)) (k : Nat)
    (a : FVec F S16 .f32 × FVec F S16 .f32 × FVec F S16 .f32 × FVec F S16 .f32) : sProp 𝕄 :=
  iprop(Transfers.MayWaits (V d (cV L) (jV L)) (none : HIx 1) O
    ∗ ((a0V : Memref sig .scVector .hbm S16x24656x4 .f32).view.loc (V d (cV L) (jV L)) ↦{q} m (a0Loc d))
    ∗ (∃ f, (s0V : Memref sig .scVector .vmem S512x4 .f32).view.loc (V d (cV L) (jV L)) ↦[(s0V : Memref sig .scVector .vmem S512x4 .f32).view.set]{fullShare} f)
    ∗ semVal (c0cell d (cV L) (jV L)) 0
    ∗ (∃ W', ⌜∀ p ∈ W', p ∈ W ∨ p.2 = none⌝ ∗ owes (V d (cV L) (jV L)) O W')
    ∗ ⌜a = accs4 (m (a0Loc d)) (sL L) (12288 * (L 0).val) (32 * k)⌝)

theorem tile_body (hF : (K (F := F)).Facts) (m : (ℓ : Loc nD τ sig) → Buf (Elt F) ℓ) (d : Dev nD) (L : grid0.Coords) (q : PosShare TreeShare)
    (f0 : Buf (Elt F) (v0Loc d)) (O : CellTallies nD τ sig (HIx 1)) (W : Waits sig (HIx 1)) (hO : ∀ g, O g none = 0) :
    iprop((levAts (K (F := F)).L (K (F := F)).lev : sProp 𝕄) ∗ (a0Loc d ↦{q} m (a0Loc d)) ∗ (v0Loc d ↦[rowSet L]{fullShare} f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__loc_body L (Memref.whole main_arg0_scv) (Memref.isWhole_whole _) (Memref.whole main_v0_scv) (Memref.isWhole_whole _)
            (Memref.whole cc0_scratch0) (Memref.isWhole_whole _) (Memref.whole cc0_scratch1) (Memref.isWhole_whole _) cc0_scoped0 cc0_scoped1 cc0_scoped2)
          fun _ => iprop(((a0Loc d ↦{q} m (a0Loc d)) ∗ (v0Loc d ↦[rowSet L]{fullShare} tileOut (m (a0Loc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__loc_body_eq_skeleton]; unfold cc0__loc_body_skel
  simp only [k0_part1_eq_skeleton]; unfold k0_part1_skel
  simp only [Prog.bind_assoc]
  rw [(K (F := F)).scopedBufs_V hF d (cV L) (jV L), SparseCore.Cfg.scopedSems0_V (Val := Elt F) d (cV L) (jV L), ownSems0_V, ownBufs_V]
  iintro ⟨#Hlv, Ha, Ho, ⟨⟨%fs0, Hs0⟩, ⟨%fs1, Hs1⟩, Hbufs⟩, ⟨Hsem0, Hsem1, Hsem2, Hsems⟩, HO⟩
  ihave Hmw := ((K (F := F)).mayWaits_none (thr := V d (cV L) (jV L)) hO) $$ Hlv
  ihave Ha' := (Entails.of_eq (pts_a0 (F := F) d L q _).symm) $$ Ha
  ihave Hs0' := (Entails.of_eq (pts_s0 (F := F) d L _).symm) $$ Hs0
  sl_for (inv1 m d L q O W) $$ [Hmw Ha' Hs0' Hsem0 HO]
  case region =>
    intro k ⟨a0, a1, a2, a3⟩
    unfold inv1
    iintro ⟨#Hmw, Ha, ⟨%f, Hs0⟩, Hsem, ⟨%W', %hW', HO⟩, %hacc⟩
    -- the block's copy and its wait
    sl_exec
    ihave Hs := (Entails.of_eq ((pts_s0 (F := F) d L _).trans (pts_s0_access (F := F) d L _).symm)) $$ Hs0
    -- the 32 trips of indexed loads over the block
    iapply (gather_loop_main d L (m (a0Loc d)) (12288 * (L 0).val) k.val _ ?hg1 _ hacc) $$ Hs
    case hg1 => exact holds_main d L (m (a0Loc d)) k _ _ rfl
    iintro %a' HI
    unfold invG
    icases HI with ⟨Hs, %ha'⟩
    subst ha'
    sl_exec
    sl_step
    isplitr; · iexact Hmw
    isplitl [Ha]; · iexact Ha
    isplitl [Hs]
    · iexists _; iapply (Entails.of_eq ((pts_s0_access (F := F) d L _).trans (pts_s0 (F := F) d L _).symm)); iexact Hs
    isplitl [Hsem]; · iexact Hsem
    isplitl [HO]
    · iexists (insert (SemLoc.dma cc0_scoped0.sem, (default : HIx 1)) W'); isplitr
      · ipureintro; intro p hp
        rcases Finset.mem_insert.mp hp with hp | hp
        · exact .inr (hp ▸ rfl)
        · exact hW' p hp
      · iexact HO
    ipureintro
    rw [trips2, show 32 * (k.val + 1) = 32 * k.val + 32 by omega]
  · unfold inv1
    isplitl [Hmw]; · iexact Hmw
    isplitl [Ha']; · iexact Ha'
    isplitl [Hs0']; · iexists _; iexact Hs0'
    isplitl [Hsem0]; · iexact Hsem0
    isplitl [HO]
    · iexists W; isplitr
      · ipureintro; exact fun p hp => .inl hp
      · iexact HO
    · ipureintro; rfl
  iintro %acc HI
  unfold inv1
  icases HI with ⟨#Hmw', Ha, ⟨%f, Hs0⟩, Hsem0, ⟨%W', %hW', HO⟩, %hacc⟩
  rw [trips1'] at hacc
  -- the tail's copy and its wait
  sl_exec
  ihave Hs := (Entails.of_eq ((pts_s0 (F := F) d L _).trans (pts_s0_access (F := F) d L _).symm)) $$ Hs0
  -- the 5 trips of indexed loads over the tail
  iapply (gather_loop_tail d L (m (a0Loc d)) (12288 * (L 0).val + 12288) _ ?hg2 _ rfl) $$ Hs
  case hg2 => exact holds_tail d L (m (a0Loc d)) _ _ rfl
  iintro %a' HI
  unfold invG
  icases HI with ⟨Hs, %ha'⟩
  rw [trips3] at ha'
  subst ha' hacc
  ihave Hs1' := (Entails.of_eq (pts_s1 (F := F) d L _).symm) $$ Hs1
  ihave Ho' := (Entails.of_eq (pts_oRow (F := F) d L _).symm) $$ Ho
  -- the result stored into the second scratch, copied out to the task's row, the copy waited for
  sl_exec
  sl_step
  ihave Ho2 := (Entails.of_eq (pts_oRow (F := F) d L _)) $$ Ho'
  ihave Ho3 := (Entails.of_eq (pointsTo_congr (out_row d L (m (a0Loc d)) f0 fs1 _ _ _ rfl rfl rfl))) $$ Ho2
  isplitl [Ha Ho3]
  · isplitl [Ha]
    · iapply (Entails.of_eq (pts_a0 (F := F) d L q _)); iexact Ha
    · iexact Ho3
  isplitl [Hs Hs1' Hbufs]
  · isplitl [Hs]
    · iexists _; iapply (Entails.of_eq (pts_s0_access (F := F) d L _)); iexact Hs
    isplitl [Hs1']
    · iexists _; iapply (Entails.of_eq (pts_s1 (F := F) d L _)); iexact Hs1'
    · iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, (default : HIx 1)) (insert (SemLoc.dma cc0_scoped1.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Cert.Proof.Kernel

end
-- ==== Proof.Word.TileObl.lean ====
/-
  The launch theorem's obligation for the vector-subcore kernel: the task of subcore i of core c, from the task's
  operands (its read share of the first argument and its row of the result array at the launch contents) to its results
  (the same share, the row at the one whole-array function of every task's sixteen lanes).
-/
import proofs.«219810_g10299331576301_week1_w1_912_40_alg».proof.Proof.Word.TileBody
import proofs.«219810_g10299331576301_week1_w1_912_40_alg».proof.Proof.Word.Pay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Row w of the result array, cut as one of 32 parts, is the indices whose first coordinate is w. -/
theorem mem_rowSetW (w : Fin 32) (j : S32x16.Idx) : j ∈ rowSetW w ↔ (j 0).val = w.val := by
  simp only [rowSetW, rowW, Rect.part, Rect.block, Rect.mem_set_unit]
  constructor
  · intro h
    have h0 := h 0
    simp [Shape.partIx, Shape.partSize] at h0
    omega
  · intro h a
    match a with
    | 0 => simp [Shape.partIx, Shape.partSize]; omega
    | 1 =>
      have h1 : (j 1).val < 16 := (j 1).isLt
      simp [Shape.partIx, Shape.partSize]
      exact h1

/-- The row the task slices out of the result array is row 2 s + c of the 32. -/
theorem rowSet_eq_W (L : grid0.Coords) : rowSet L = rowSetW (wid (cL L) (sL L)) := by
  ext j
  rw [mem_rowSet, mem_rowSetW]
  exact Iff.rfl

/-- The grid coordinates of the task of subcore s of core c. -/
def taskAt (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__loc_body (taskAt c s)
          (Memref.whole main_arg0_scv) (Memref.isWhole_whole _) (Memref.whole main_v0_scv) (Memref.isWhole_whole _)
          (Memref.whole cc0_scratch0) (Memref.isWhole_whole _) (Memref.whole cc0_scratch1) (Memref.isWhole_whole _)
          cc0_scoped0 cc0_scoped1 cc0_scoped2) ⟨⟩ c s := rfl

omit [FloatOps F] in
theorem obl_pre {A₀ X A B C D E : sProp 𝕄} (hX : X = iprop(emp)) :
    iprop(A₀ ∗ X ∗ (A ∗ B) ∗ C ∗ D ∗ E) ⊢ iprop(A₀ ∗ A ∗ B ∗ C ∗ D ∗ E) := by
  subst hX
  iintro ⟨H0, -, ⟨HA, HB⟩, HC, HD, HE⟩
  isplitl [H0]; · iexact H0
  isplitl [HA]; · iexact HA
  isplitl [HB]; · iexact HB
  isplitl [HC]; · iexact HC
  isplitl [HD]; · iexact HD
  iexact HE

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation at call 0: the task of subcore i of core c runs the body at the coordinates (c, i). -/
theorem tileObl (m : (ℓ : Loc nD τ sig) → Buf (Elt F) ℓ) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := tile_body facts m d (taskAt ⟨_, hc.1⟩ ⟨_, hc.2⟩) (taskShare (Fin.cast nCore_zero c) (Fin.cast nSub_zero i)) (m (v0Loc d)) O W hO
  rw [show rowSet (taskAt ⟨_, hc.1⟩ ⟨_, hc.2⟩) = rowSetW (wid (Fin.cast nCore_zero c) (Fin.cast nSub_zero i)) from rowSet_eq_W _] at hb
  exact (obl_pre rfl).trans (hb.trans (wp_mono frame _ _ fun _ => obl_post))

end Cert.Proof.Kernel

end
-- ==== Proof.Word.RunMain.lean ====
/-
  The run of the whole program, from the launch theorem of a SparseCore program: the task's proof, the split of a
  core's operands among its tasks, @main's proof with the second kernel's region, the launch element, and the reading
  of the final memory. Every weakly fair execution terminates, and at the end the three result buffers hold the host
  operations' functions of the two kernels' result arrays, the arguments being unchanged.
-/
import proofs.«219810_g10299331576301_week1_w1_912_40_alg».proof.Proof.Word.Final
import proofs.«219810_g10299331576301_week1_w1_912_40_alg».proof.Proof.Word.LaunchElem
import proofs.«219810_g10299331576301_week1_w1_912_40_alg».proof.Proof.Word.ClsRegion
import proofs.«219810_g10299331576301_week1_w1_912_40_alg».proof.Proof.Word.TileObl

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The second kernel's region, in the shape @main's proof asks for. -/
theorem cls_rule : RegionRule m (Gd (F := F)) := by
  intro d Φ
  have h := cls_region_rule (F := F) m d Φ
  unfold clsPre clsPost at h
  unfold Gd
  exact h

/-- The program's run. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (Gd (F := F)) (FIN m) (u₀ (F := F)) (sep_elim_left.trans (hu₀ m)) (hmain m ρ (Gd (F := F)) (cls_rule m).lift)
    (fq m) (hfin m) (QC m) (fun _ h => h)

end Cert.Proof.Kernel

end
-- ==== Proof.Word.FrameOfRun.lean ====
/-
  The frame from the run: when every run of the program ends in a memory that holds the three results and the two
  arguments unchanged, it ends in particular with the two arguments unchanged.
-/
import proofs.«219810_g10299331576301_week1_w1_912_40_alg».proof.Proof.Word.Final

noncomputable section

namespace Cert.Proof.Kernel

open Cert.Kernel Cert.Kernel.Gen
open Idealize.ShloMosaic Idealize.SL.Sem

/-- The arguments end unchanged, from any memory and any generator state. -/
theorem frame_of_run {F : FTy → Type} [FloatOps F]
    (hrun : ∀ (m : (ℓ : Loc nD τ sig) → Buf (Elt F) ℓ) (ρ : Dev nD → PrngReg),
      θ_run (Cert.Kernel.defs (F := F)) (Cert.Kernel.threads (F := F)) ⟨m, fun _ => 0, ρ⟩ (QC m))
    (m : (ℓ : Loc nD τ sig) → Buf (Elt F) ℓ) (g : Dev nD → PrngReg) :
    θ_run (Cert.Kernel.defs (F := F)) (Cert.Kernel.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.Kernel.defs (F := F)) _ _).mono (fun _ h c => ⟨(h c).2.2.2.1, (h c).2.2.2.2⟩) (hrun m g)

end Cert.Proof.Kernel

end
-- ==== Proof.lean ====
/-
  The certificate's claims, assembled.
  The kernel program computes two losses. The first, the mean absolute value of the first argument
  (16 x 24656 x 4), is summed on the 32 vector subcores: each task adds the absolute values of its rows of one batch
  entry into sixteen lanes and writes them to its row of a 32 x 16 array, which the host then sums and divides by the
  number of entries. The second, the mean over the 16 x 24656 rows of the second argument (81 classes) of minus the
  log-softmax at class 0, is computed on the TensorCore: per half of a batch entry, the exponentials are multiplied
  with a 0/1 matrix whose column 1 picks class 0 and whose other columns sum all classes; the logarithms are weighted
  by +1 (column 0), -1 (column 1) and 0, and everything is summed into a 1 x 1 accumulator over the sixteen grid
  points; the host divides by the number of rows. The total is their sum.
  * The frames (every weakly fair execution of all the device's threads terminates, nothing faults, the arguments end
    unchanged) are the run of the program with its values dropped, at the word-level instance and at the extended reals.
  * At the extended reals the run ends with the three results at the specification's total, loc and cls of the
    arguments: the tasks' lanes add up to the sum of all absolute values (a reindexing of a finite sum), and each row's
    log (sum_j exp x_j) - x_0 is minus its log-softmax at class 0, whatever real shift the reference subtracts first
    (this uses that the entries are real numbers, which the precondition says). The reference's run ends at the same
    values, so the results are equal.
  * The ideal pass rewrote nothing, so `preserves` is trivial.
-/
import proofs.«219810_g10299331576301_week1_w1_912_40_alg».proof.Defs
import proofs.«219810_g10299331576301_week1_w1_912_40_alg».proof.Proof.Gen.Kernel
import proofs.«219810_g10299331576301_week1_w1_912_40_alg».proof.Proof.Gen.Kernel.Skeleton
import proofs.«219810_g10299331576301_week1_w1_912_40_alg».proof.Proof.Gen.Kernel.Launch
import proofs.«219810_g10299331576301_week1_w1_912_40_alg».proof.Proof.Gen.Kernel.Points
import proofs.«219810_g10299331576301_week1_w1_912_40_alg».proof.Proof.Gen.KernelIdeal
import proofs.«219810_g10299331576301_week1_w1_912_40_alg».proof.Proof.Gen.KernelIdeal.Skeleton
import proofs.«219810_g10299331576301_week1_w1_912_40_alg».proof.Proof.Gen.KernelIdeal.Launch
import proofs.«219810_g10299331576301_week1_w1_912_40_alg».proof.Proof.Gen.KernelIdeal.Points
import proofs.«219810_g10299331576301_week1_w1_912_40_alg».proof.Proof.Gen.ReferenceIdeal
import proofs.«219810_g10299331576301_week1_w1_912_40_alg».proof.Proof.Gen.Pre_finite_inputs
import proofs.«219810_g10299331576301_week1_w1_912_40_alg».proof.Proof.RunMain
import proofs.«219810_g10299331576301_week1_w1_912_40_alg».proof.Proof.ClaimsIdeal
import proofs.«219810_g10299331576301_week1_w1_912_40_alg».proof.Proof.Word.RunMain
import proofs.«219810_g10299331576301_week1_w1_912_40_alg».proof.Proof.Word.FrameOfRun
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m g _ => Cert.Proof.Kernel.frame_of_run (F := Bits) (fun m ρ => Cert.Proof.Kernel.run_main m ρ) m g,
  Cert.Proof.KernelIdeal.frame_KernelIdeal_of_run (fun m ρ => Cert.Proof.KernelIdeal.run_main m ρ),
  Cert.Proof.KernelIdeal.frame_ReferenceIdeal,
  Cert.Proof.KernelIdeal.preserves,
  Cert.Proof.KernelIdeal.algebraic_of_run (fun m ρ => Cert.Proof.KernelIdeal.run_main m ρ)⟩

end Cert.Proof

end
